-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S8x8 : Shape := ⟨2, ![8, 8]⟩
abbrev S8 : Shape := ⟨1, ![8]⟩
abbrev S5x8 : Shape := ⟨2, ![5, 8]⟩
abbrev S5 : Shape := ⟨1, ![5]⟩
abbrev S3x5 : Shape := ⟨2, ![3, 5]⟩
abbrev S3 : Shape := ⟨1, ![3]⟩
abbrev S1x3 : Shape := ⟨2, ![1, 3]⟩
abbrev S1 : Shape := ⟨1, ![1]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S5x8 : S_.BroadcastsInDim S5x8 (![] : Fin 0 → Fin S5x8.rank)
  reducesTo_S5x8_S_d0_1 : S5x8.ReducesTo [0, 1] S_
  bcast_S_S5 : S_.BroadcastsInDim S5 (![] : Fin 0 → Fin S5.rank)
  reducesTo_S5_S_d0 : S5.ReducesTo [0] S_
  bcast_S_S3x5 : S_.BroadcastsInDim S3x5 (![] : Fin 0 → Fin S3x5.rank)
  reducesTo_S3x5_S_d0_1 : S3x5.ReducesTo [0, 1] S_
  bcast_S_S3 : S_.BroadcastsInDim S3 (![] : Fin 0 → Fin S3.rank)
  reducesTo_S3_S_d0 : S3.ReducesTo [0] S_
  bcast_S_S1x3 : S_.BroadcastsInDim S1x3 (![] : Fin 0 → Fin S1x3.rank)
  reducesTo_S1x3_S_d0_1 : S1x3.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg21 : FVec F S3x5 .f32) (main_arg22 : FVec F S3 .f32) (main_arg23 : FVec F S1x3 .f32) (main_arg24 : FVec F S1 .f32) (main_v98 : IVec S_ 1) (main_v101 : IVec S5 1) (main_c_39 : IVec S_ 1) : IVec S_ 1 :=
  let main_v102 : IVec S_ 1 := (fun x v => Host.reduce IntOp.andi x v reducesTo_S5_S_d0 h_S_) main_v101 main_c_39
  let main_v103 : IVec S_ 1 := andi main_v98 main_v102
  let main_v104 : FVec F S3x5 .f32 := Host.absf main_arg21
  let main_cst_40 : FVec F S_ .f32 := constant S_ .f32 0x7F800000#32
  let main_v105 : FVec F S3x5 .f32 := broadcastInDim S3x5 ![] bcast_S_S3x5 main_cst_40
  let main_v106 : IVec S3x5 1 := cmpf .olt main_v104 main_v105
  let main_c_41 : IVec S_ 1 := constantI S_ 1 1#1
  let main_v107 : IVec S_ 1 := (fun x v => Host.reduce IntOp.andi x v reducesTo_S3x5_S_d0_1 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  let main_v114 : FVec F S1x3 .f32 := Host.absf main_arg23
  let main_cst_44 : FVec F S_ .f32 := constant S_ .f32 0x7F800000#32
  let main_v115 : FVec F S1x3 .f32 := broadcastInDim S1x3 ![] bcast_S_S1x3 main_cst_44
  let main_v116 : IVec S1x3 1 := cmpf .olt main_v114 main_v115
  let main_c_45 : IVec S_ 1 := constantI S_ 1 1#1
  let main_v117 : IVec S_ 1 := (fun x v => Host.reduce IntOp.andi x v reducesTo_S1x3_S_d0_1 h_S_) main_v116 main_c_45
  let main_v118 : IVec S_ 1 := andi main_v113 main_v117
  let main_v119 : FVec F S1 .f32 := Host.absf main_arg24
  fn_part7 (F := F) main_v118 main_v119

def fn_part5 {F : FTy → Type} [FloatOps F] (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v83 : IVec S_ 1) (main_v84 : FVec F S8x8 .f32) (main_cst_32 : FVec F S_ .f32) : IVec S_ 1 :=
  let main_v85 : FVec F S8x8 .f32 := broadcastInDim S8x8 ![] bcast_S_S8x8 main_cst_32
  let main_v86 : IVec S8x8 1 := cmpf .olt main_v84 main_v85
  let main_c_33 : IVec S_ 1 := constantI S_ 1 1#1
  let main_v87 : IVec S_ 1 := (fun x v => Host.reduce IntOp.andi x v reducesTo_S8x8_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S5x8 .f32 := Host.absf main_arg19
  let main_cst_36 : FVec F S_ .f32 := constant S_ .f32 0x7F800000#32
  let main_v95 : FVec F S5x8 .f32 := broadcastInDim S5x8 ![] bcast_S_S5x8 main_cst_36
  let main_v96 : IVec S5x8 1 := cmpf .olt main_v94 main_v95
  let main_c_37 : IVec S_ 1 := constantI S_ 1 1#1
  let main_v97 : IVec S_ 1 := (fun x v => Host.reduce IntOp.andi x v reducesTo_S5x8_S_d0_1 h_S_) main_v96 main_c_37
  let main_v98 : IVec S_ 1 := andi main_v93 main_v97
  let main_v99 : FVec F S5 .f32 := Host.absf main_arg20
  let main_cst_38 : FVec F S_ .f32 := constant S_ .f32 0x7F800000#32
  let main_v100 : FVec F S5 .f32 := broadcastInDim S5 ![] bcast_S_S5 main_cst_38
  let main_v101 : IVec S5 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8x8 .f32 := Host.absf main_arg15
  let main_cst_28 : FVec F S_ .f32 := constant S_ .f32 0x7F800000#32
  let main_v75 : FVec F S8x8 .f32 := broadcastInDim S8x8 ![] bcast_S_S8x8 main_cst_28
  let main_v76 : IVec S8x8 1 := cmpf .olt main_v74 main_v75
  let main_c_29 : IVec S_ 1 := constantI S_ 1 1#1
  let main_v77 : IVec S_ 1 := (fun x v => Host.reduce IntOp.andi x v reducesTo_S8x8_S_d0_1 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x8 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x8 .f32 := Host.absf main_arg11
  let main_cst_20 : FVec F S_ .f32 := constant S_ .f32 0x7F800000#32
  let main_v55 : FVec F S8x8 .f32 := broadcastInDim S8x8 ![] bcast_S_S8x8 main_cst_20
  let main_v56 : IVec S8x8 1 := cmpf .olt main_v54 main_v55
  let main_c_21 : IVec S_ 1 := constantI S_ 1 1#1
  let main_v57 : IVec S_ 1 := (fun x v => Host.reduce IntOp.andi x v reducesTo_S8x8_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x8 .f32 := Host.absf main_arg13
  let main_cst_24 : FVec F S_ .f32 := constant S_ .f32 0x7F800000#32
  let main_v65 : FVec F S8x8 .f32 := broadcastInDim S8x8 ![] bcast_S_S8x8 main_cst_24
  let main_v66 : IVec S8x8 1 := cmpf .olt main_v64 main_v65
  let main_c_25 : IVec S_ 1 := constantI S_ 1 1#1
  let main_v67 : IVec S_ 1 := (fun x v => Host.reduce IntOp.andi x v reducesTo_S8x8_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S8x8 .f32) (main_arg8 : FVec F S8 .f32) (main_arg9 : FVec F S8x8 .f32) (main_arg10 : FVec F S8 .f32) (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg5
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4194304x8 .f32) (main_arg1 : FVec F S8x8 .f32) (main_arg2 : FVec F S8 .f32) (main_arg3 : FVec F S8x8 .f32) (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4194304x8 : Shape := ⟨2, ![4194304, 8]⟩
abbrev S8x8 : Shape := ⟨2, ![8, 8]⟩
abbrev S8 : Shape := ⟨1, ![8]⟩
abbrev S5x8 : Shape := ⟨2, ![5, 8]⟩
abbrev S5 : Shape := ⟨1, ![5]⟩
abbrev S3x5 : Shape := ⟨2, ![3, 5]⟩
abbrev S3 : Shape := ⟨1, ![3]⟩
abbrev S1x3 : Shape := ⟨2, ![1, 3]⟩
abbrev S1 : Shape := ⟨1, ![1]⟩
abbrev S0 : Shape := ⟨1, ![0]⟩
abbrev S_ : Shape := ⟨0, ![]⟩
abbrev S16x16 : Shape := ⟨2, ![16, 16]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128x128 : Shape := ⟨2, ![128, 128]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S8x5 : Shape := ⟨2, ![8, 5]⟩
abbrev S5x3 : Shape := ⟨2, ![5, 3]⟩
abbrev S2 : Shape := ⟨1, ![2]⟩
abbrev S3x1 : Shape := ⟨2, ![3, 1]⟩
abbrev S262144x128 : Shape := ⟨2, ![262144, 128]⟩
abbrev S4096x128 : Shape := ⟨2, ![4096, 128]⟩
abbrev S4194304x1 : Shape := ⟨2, ![4194304, 1]⟩

abbrev nBuf : Space → Nat
  | .hbm => 353
  | .vmem => 28
  | .smem => 0
  | _ => 0

abbrev hbmTy0_0 (i : Nat) : BufTy := match i % 128 with
  | 0 => ⟨S4194304x8, .f32⟩
  | 1 => ⟨S8x8, .f32⟩
  | 2 => ⟨S8, .f32⟩
  | 3 => ⟨S8x8, .f32⟩
  | 4 => ⟨S8, .f32⟩
  | 5 => ⟨S8x8, .f32⟩
  | 6 => ⟨S8, .f32⟩
  | 7 => ⟨S8x8, .f32⟩
  | 8 => ⟨S8, .f32⟩
  | 9 => ⟨S8x8, .f32⟩
  | 10 => ⟨S8, .f32⟩
  | 11 => ⟨S8x8, .f32⟩
  | 12 => ⟨S8, .f32⟩
  | 13 => ⟨S8x8, .f32⟩
  | 14 => ⟨S8, .f32⟩
  | 15 => ⟨S8x8, .f32⟩
  | 16 => ⟨S8, .f32⟩
  | 17 => ⟨S8x8, .f32⟩
  | 18 => ⟨S8, .f32⟩
  | 19 => ⟨S5x8, .f32⟩
  | 20 => ⟨S5, .f32⟩
  | 21 => ⟨S3x5, .f32⟩
  | 22 => ⟨S3, .f32⟩
  | 23 => ⟨S1x3, .f32⟩
  | 24 => ⟨S1, .f32⟩
  | 25 => ⟨S0, .i32⟩
  | 26 => ⟨S0, .i32⟩
  | 27 => ⟨S0, .i32⟩
  | 28 => ⟨S0, .i32⟩
  | 29 => ⟨S0, .i32⟩
  | 30 => ⟨S0, .i32⟩
  | 31 => ⟨S0, .i32⟩
  | 32 => ⟨S0, .i32⟩
  | 33 => ⟨S0, .i32⟩
  | 34 => ⟨S0, .i32⟩
  | 35 => ⟨S0, .i32⟩
  | 36 => ⟨S0, .i32⟩
  | 37 => ⟨S0, .i32⟩
  | 38 => ⟨S0, .i32⟩
  | 39 => ⟨S0, .i32⟩
  | 40 => ⟨S0, .i32⟩
  | 41 => ⟨S0, .i32⟩
  | 42 => ⟨S0, .i32⟩
  | 43 => ⟨S8x8, .f32⟩
  | 44 => ⟨S_, .f32⟩
  | 45 => ⟨S8x8, .f32⟩
  | 46 => ⟨S8x8, .f32⟩
  | 47 => ⟨S_, .f32⟩
  | 48 => ⟨S8, .f32⟩
  | 49 => ⟨S8, .f32⟩
  | 50 => ⟨S16x16, .i32⟩
  | 51 => ⟨S16x16, .i32⟩
  | 52 => ⟨S_, .i32⟩
  | 53 => ⟨S16x16, .i32⟩
  | 54 => ⟨S16x16, .i32⟩
  | 55 => ⟨S16x16, .i1⟩
  | 56 => ⟨S16x16, .f32⟩
  | 57 => ⟨S16x1x16x1, .f32⟩
  | 58 => ⟨S1x8x1x8, .f32⟩
  | 59 => ⟨S16x8x16x8, .f32⟩
  | 60 => ⟨S16x8x16x8, .f32⟩
  | 61 => ⟨S16x8x16x8, .f32⟩
  | 62 => ⟨S128x128, .f32⟩
  | 63 => ⟨S1x8, .f32⟩
  | 64 => ⟨S16x8, .f32⟩
  | 65 => ⟨S128, .f32⟩
  | 66 => ⟨S1x128, .f32⟩
  | 67 => ⟨S8x8, .f32⟩
  | 68 => ⟨S_, .f32⟩
  | 69 => ⟨S8x8, .f32⟩
  | 70 => ⟨S8x8, .f32⟩
  | 71 => ⟨S_, .f32⟩
  | 72 => ⟨S8, .f32⟩
  | 73 => ⟨S8, .f32⟩
  | 74 => ⟨S16x16, .i32⟩
  | 75 => ⟨S16x16, .i32⟩
  | 76 => ⟨S_, .i32⟩
  | 77 => ⟨S16x16, .i32⟩
  | 78 => ⟨S16x16, .i32⟩
  | 79 => ⟨S16x16, .i1⟩
  | 80 => ⟨S16x16, .f32⟩
  | 81 => ⟨S16x1x16x1, .f32⟩
  | 82 => ⟨S1x8x1x8, .f32⟩
  | 83 => ⟨S16x8x16x8, .f32⟩
  | 84 => ⟨S16x8x16x8, .f32⟩
  | 85 => ⟨S16x8x16x8, .f32⟩
  | 86 => ⟨S128x128, .f32⟩
  | 87 => ⟨S1x8, .f32⟩
  | 88 => ⟨S16x8, .f32⟩
  | 89 => ⟨S128, .f32⟩
  | 90 => ⟨S1x128, .f32⟩
  | 91 => ⟨S8x8, .f32⟩
  | 92 => ⟨S_, .f32⟩
  | 93 => ⟨S8x8, .f32⟩
  | 94 => ⟨S8x8, .f32⟩
  | 95 => ⟨S_, .f32⟩
  | 96 => ⟨S8, .f32⟩
  | 97 => ⟨S8, .f32⟩
  | 98 => ⟨S16x16, .i32⟩
  | 99 => ⟨S16x16, .i32⟩
  | 100 => ⟨S_, .i32⟩
  | 101 => ⟨S16x16, .i32⟩
  | 102 => ⟨S16x16, .i32⟩
  | 103 => ⟨S16x16, .i1⟩
  | 104 => ⟨S16x16, .f32⟩
  | 105 => ⟨S16x1x16x1, .f32⟩
  | 106 => ⟨S1x8x1x8, .f32⟩
  | 107 => ⟨S16x8x16x8, .f32⟩
  | 108 => ⟨S16x8x16x8, .f32⟩
  | 109 => ⟨S16x8x16x8, .f32⟩
  | 110 => ⟨S128x128, .f32⟩
  | 111 => ⟨S1x8, .f32⟩
  | 112 => ⟨S16x8, .f32⟩
  | 113 => ⟨S128, .f32⟩
  | 114 => ⟨S1x128, .f32⟩
  | 115 => ⟨S8x8, .f32⟩
  | 116 => ⟨S_, .f32⟩
  | 117 => ⟨S8x8, .f32⟩
  | 118 => ⟨S8x8, .f32⟩
  | 119 => ⟨S_, .f32⟩
  | 120 => ⟨S8, .f32⟩
  | 121 => ⟨S8, .f32⟩
  | 122 => ⟨S16x16, .i32⟩
  | 123 => ⟨S16x16, .i32⟩
  | 124 => ⟨S_, .i32⟩
  | 125 => ⟨S16x16, .i32⟩
  | 126 => ⟨S16x16, .i32⟩
  | 127 => ⟨S16x16, .i1⟩
  | _ => ⟨S4194304x8, .f32⟩

abbrev hbmTy0_1 (i : Nat) : BufTy := match i % 128 with
  | 0 => ⟨S16x16, .f32⟩
  | 1 => ⟨S16x1x16x1, .f32⟩
  | 2 => ⟨S1x8x1x8, .f32⟩
  | 3 => ⟨S16x8x16x8, .f32⟩
  | 4 => ⟨S16x8x16x8, .f32⟩
  | 5 => ⟨S16x8x16x8, .f32⟩
  | 6 => ⟨S128x128, .f32⟩
  | 7 => ⟨S1x8, .f32⟩
  | 8 => ⟨S16x8, .f32⟩
  | 9 => ⟨S128, .f32⟩
  | 10 => ⟨S1x128, .f32⟩
  | 11 => ⟨S8x8, .f32⟩
  | 12 => ⟨S_, .f32⟩
  | 13 => ⟨S8x8, .f32⟩
  | 14 => ⟨S8x8, .f32⟩
  | 15 => ⟨S_, .f32⟩
  | 16 => ⟨S8, .f32⟩
  | 17 => ⟨S8, .f32⟩
  | 18 => ⟨S16x16, .i32⟩
  | 19 => ⟨S16x16, .i32⟩
  | 20 => ⟨S_, .i32⟩
  | 21 => ⟨S16x16, .i32⟩
  | 22 => ⟨S16x16, .i32⟩
  | 23 => ⟨S16x16, .i1⟩
  | 24 => ⟨S16x16, .f32⟩
  | 25 => ⟨S16x1x16x1, .f32⟩
  | 26 => ⟨S1x8x1x8, .f32⟩
  | 27 => ⟨S16x8x16x8, .f32⟩
  | 28 => ⟨S16x8x16x8, .f32⟩
  | 29 => ⟨S16x8x16x8, .f32⟩
  | 30 => ⟨S128x128, .f32⟩
  | 31 => ⟨S1x8, .f32⟩
  | 32 => ⟨S16x8, .f32⟩
  | 33 => ⟨S128, .f32⟩
  | 34 => ⟨S1x128, .f32⟩
  | 35 => ⟨S8x8, .f32⟩
  | 36 => ⟨S_, .f32⟩
  | 37 => ⟨S8x8, .f32⟩
  | 38 => ⟨S8x8, .f32⟩
  | 39 => ⟨S_, .f32⟩
  | 40 => ⟨S8, .f32⟩
  | 41 => ⟨S8, .f32⟩
  | 42 => ⟨S16x16, .i32⟩
  | 43 => ⟨S16x16, .i32⟩
  | 44 => ⟨S_, .i32⟩
  | 45 => ⟨S16x16, .i32⟩
  | 46 => ⟨S16x16, .i32⟩
  | 47 => ⟨S16x16, .i1⟩
  | 48 => ⟨S16x16, .f32⟩
  | 49 => ⟨S16x1x16x1, .f32⟩
  | 50 => ⟨S1x8x1x8, .f32⟩
  | 51 => ⟨S16x8x16x8, .f32⟩
  | 52 => ⟨S16x8x16x8, .f32⟩
  | 53 => ⟨S16x8x16x8, .f32⟩
  | 54 => ⟨S128x128, .f32⟩
  | 55 => ⟨S1x8, .f32⟩
  | 56 => ⟨S16x8, .f32⟩
  | 57 => ⟨S128, .f32⟩
  | 58 => ⟨S1x128, .f32⟩
  | 59 => ⟨S8x8, .f32⟩
  | 60 => ⟨S_, .f32⟩
  | 61 => ⟨S8x8, .f32⟩
  | 62 => ⟨S8x8, .f32⟩
  | 63 => ⟨S_, .f32⟩
  | 64 => ⟨S8, .f32⟩
  | 65 => ⟨S8, .f32⟩
  | 66 => ⟨S16x16, .i32⟩
  | 67 => ⟨S16x16, .i32⟩
  | 68 => ⟨S_, .i32⟩
  | 69 => ⟨S16x16, .i32⟩
  | 70 => ⟨S16x16, .i32⟩
  | 71 => ⟨S16x16, .i1⟩
  | 72 => ⟨S16x16, .f32⟩
  | 73 => ⟨S16x1x16x1, .f32⟩
  | 74 => ⟨S1x8x1x8, .f32⟩
  | 75 => ⟨S16x8x16x8, .f32⟩
  | 76 => ⟨S16x8x16x8, .f32⟩
  | 77 => ⟨S16x8x16x8, .f32⟩
  | 78 => ⟨S128x128, .f32⟩
  | 79 => ⟨S1x8, .f32⟩
  | 80 => ⟨S16x8, .f32⟩
  | 81 => ⟨S128, .f32⟩
  | 82 => ⟨S1x128, .f32⟩
  | 83 => ⟨S8x8, .f32⟩
  | 84 => ⟨S_, .f32⟩
  | 85 => ⟨S8x8, .f32⟩
  | 86 => ⟨S8x8, .f32⟩
  | 87 => ⟨S_, .f32⟩
  | 88 => ⟨S8, .f32⟩
  | 89 => ⟨S8, .f32⟩
  | 90 => ⟨S16x16, .i32⟩
  | 91 => ⟨S16x16, .i32⟩
  | 92 => ⟨S_, .i32⟩
  | 93 => ⟨S16x16, .i32⟩
  | 94 => ⟨S16x16, .i32⟩
  | 95 => ⟨S16x16, .i1⟩
  | 96 => ⟨S16x16, .f32⟩
  | 97 => ⟨S16x1x16x1, .f32⟩
  | 98 => ⟨S1x8x1x8, .f32⟩
  | 99 => ⟨S16x8x16x8, .f32⟩
  | 100 => ⟨S16x8x16x8, .f32⟩
  | 101 => ⟨S16x8x16x8, .f32⟩
  | 102 => ⟨S128x128, .f32⟩
  | 103 => ⟨S1x8, .f32⟩
  | 104 => ⟨S16x8, .f32⟩
  | 105 => ⟨S128, .f32⟩
  | 106 => ⟨S1x128, .f32⟩
  | 107 => ⟨S8x8, .f32⟩
  | 108 => ⟨S_, .f32⟩
  | 109 => ⟨S8x8, .f32⟩
  | 110 => ⟨S8x8, .f32⟩
  | 111 => ⟨S_, .f32⟩
  | 112 => ⟨S8, .f32⟩
  | 113 => ⟨S8, .f32⟩
  | 114 => ⟨S16x16, .i32⟩
  | 115 => ⟨S16x16, .i32⟩
  | 116 => ⟨S_, .i32⟩
  | 117 => ⟨S16x16, .i32⟩
  | 118 => ⟨S16x16, .i32⟩
  | 119 => ⟨S16x16, .i1⟩
  | 120 => ⟨S16x16, .f32⟩
  | 121 => ⟨S16x1x16x1, .f32⟩
  | 122 => ⟨S1x8x1x8, .f32⟩
  | 123 => ⟨S16x8x16x8, .f32⟩
  | 124 => ⟨S16x8x16x8, .f32⟩
  | 125 => ⟨S16x8x16x8, .f32⟩
  | 126 => ⟨S128x128, .f32⟩
  | 127 => ⟨S1x8, .f32⟩
  | _ => ⟨S4194304x8, .f32⟩

abbrev hbmTy0_2 (i : Nat) : BufTy := match i % 128 with
  | 0 => ⟨S16x8, .f32⟩
  | 1 => ⟨S128, .f32⟩
  | 2 => ⟨S1x128, .f32⟩
  | 3 => ⟨S8x5, .f32⟩
  | 4 => ⟨S_, .f32⟩
  | 5 => ⟨S8x8, .f32⟩
  | 6 => ⟨S_, .i32⟩
  | 7 => ⟨S1, .i32⟩
  | 8 => ⟨S8x8, .f32⟩
  | 9 => ⟨S_, .f32⟩
  | 10 => ⟨S8, .f32⟩
  | 11 => ⟨S_, .i32⟩
  | 12 => ⟨S1, .i32⟩
  | 13 => ⟨S8, .f32⟩
  | 14 => ⟨S16x16, .i32⟩
  | 15 => ⟨S16x16, .i32⟩
  | 16 => ⟨S_, .i32⟩
  | 17 => ⟨S16x16, .i32⟩
  | 18 => ⟨S16x16, .i32⟩
  | 19 => ⟨S16x16, .i1⟩
  | 20 => ⟨S16x16, .f32⟩
  | 21 => ⟨S16x1x16x1, .f32⟩
  | 22 => ⟨S1x8x1x8, .f32⟩
  | 23 => ⟨S16x8x16x8, .f32⟩
  | 24 => ⟨S16x8x16x8, .f32⟩
  | 25 => ⟨S16x8x16x8, .f32⟩
  | 26 => ⟨S128x128, .f32⟩
  | 27 => ⟨S1x8, .f32⟩
  | 28 => ⟨S16x8, .f32⟩
  | 29 => ⟨S128, .f32⟩
  | 30 => ⟨S1x128, .f32⟩
  | 31 => ⟨S5x3, .f32⟩
  | 32 => ⟨S_, .f32⟩
  | 33 => ⟨S8x8, .f32⟩
  | 34 => ⟨S_, .i32⟩
  | 35 => ⟨S1, .i32⟩
  | 36 => ⟨S_, .i32⟩
  | 37 => ⟨S1, .i32⟩
  | 38 => ⟨S2, .i32⟩
  | 39 => ⟨S8x8, .f32⟩
  | 40 => ⟨S_, .f32⟩
  | 41 => ⟨S8, .f32⟩
  | 42 => ⟨S_, .i32⟩
  | 43 => ⟨S1, .i32⟩
  | 44 => ⟨S8, .f32⟩
  | 45 => ⟨S16x16, .i32⟩
  | 46 => ⟨S16x16, .i32⟩
  | 47 => ⟨S_, .i32⟩
  | 48 => ⟨S16x16, .i32⟩
  | 49 => ⟨S16x16, .i32⟩
  | 50 => ⟨S16x16, .i1⟩
  | 51 => ⟨S16x16, .f32⟩
  | 52 => ⟨S16x1x16x1, .f32⟩
  | 53 => ⟨S1x8x1x8, .f32⟩
  | 54 => ⟨S16x8x16x8, .f32⟩
  | 55 => ⟨S16x8x16x8, .f32⟩
  | 56 => ⟨S16x8x16x8, .f32⟩
  | 57 => ⟨S128x128, .f32⟩
  | 58 => ⟨S1x8, .f32⟩
  | 59 => ⟨S16x8, .f32⟩
  | 60 => ⟨S128, .f32⟩
  | 61 => ⟨S1x128, .f32⟩
  | 62 => ⟨S3x1, .f32⟩
  | 63 => ⟨S_, .f32⟩
  | 64 => ⟨S8x8, .f32⟩
  | 65 => ⟨S_, .i32⟩
  | 66 => ⟨S1, .i32⟩
  | 67 => ⟨S_, .i32⟩
  | 68 => ⟨S1, .i32⟩
  | 69 => ⟨S2, .i32⟩
  | 70 => ⟨S8x8, .f32⟩
  | 71 => ⟨S_, .f32⟩
  | 72 => ⟨S8, .f32⟩
  | 73 => ⟨S_, .i32⟩
  | 74 => ⟨S1, .i32⟩
  | 75 => ⟨S8, .f32⟩
  | 76 => ⟨S16x16, .i32⟩
  | 77 => ⟨S16x16, .i32⟩
  | 78 => ⟨S_, .i32⟩
  | 79 => ⟨S16x16, .i32⟩
  | 80 => ⟨S16x16, .i32⟩
  | 81 => ⟨S16x16, .i1⟩
  | 82 => ⟨S16x16, .f32⟩
  | 83 => ⟨S16x1x16x1, .f32⟩
  | 84 => ⟨S1x8x1x8, .f32⟩
  | 85 => ⟨S16x8x16x8, .f32⟩
  | 86 => ⟨S16x8x16x8, .f32⟩
  | 87 => ⟨S16x8x16x8, .f32⟩
  | 88 => ⟨S128x128, .f32⟩
  | 89 => ⟨S1x8, .f32⟩
  | 90 => ⟨S16x8, .f32⟩
  | 91 => ⟨S128, .f32⟩
  | 92 => ⟨S1x128, .f32⟩
  | 93 => ⟨S262144x128, .f32⟩
  | 94 => ⟨S262144x128, .f32⟩
  | 95 => ⟨S4194304x8, .f32⟩
  | 96 => ⟨S4194304x1, .f32⟩
  | _ => ⟨S4194304x8, .f32⟩

abbrev hbmTy (i : Nat) : BufTy := match i / 128 with
  | 0 => hbmTy0_0 i
  | 1 => hbmTy0_1 i
  | 2 => hbmTy0_2 i
  | _ => ⟨S4194304x8, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_c_1 : Ref sig .tc := ⟨.hbm, 27, rfl⟩
abbrev main_c_2 : Ref sig .tc := ⟨.hbm, 28, rfl⟩
abbrev main_c_3 : Ref sig .tc := ⟨.hbm, 29, rfl⟩
abbrev main_c_4 : Ref sig .tc := ⟨.hbm, 30, rfl⟩
abbrev main_c_5 : Ref sig .tc := ⟨.hbm, 31, rfl⟩
abbrev main_c_6 : Ref sig .tc := ⟨.hbm, 32, rfl⟩
abbrev main_c_7 : Ref sig .tc := ⟨.hbm, 33, rfl⟩
abbrev main_c_8 : Ref sig .tc := ⟨.hbm, 34, rfl⟩
abbrev main_c_9 : Ref sig .tc := ⟨.hbm, 35, rfl⟩
abbrev main_c_10 : Ref sig .tc := ⟨.hbm, 36, rfl⟩
abbrev main_c_11 : Ref sig .tc := ⟨.hbm, 37, rfl⟩
abbrev main_c_12 : Ref sig .tc := ⟨.hbm, 38, rfl⟩
abbrev main_c_13 : Ref sig .tc := ⟨.hbm, 39, rfl⟩
abbrev main_c_14 : Ref sig .tc := ⟨.hbm, 40, rfl⟩
abbrev main_c_15 : Ref sig .tc := ⟨.hbm, 41, rfl⟩
abbrev main_c_16 : Ref sig .tc := ⟨.hbm, 42, rfl⟩
abbrev main_v0 : Ref sig .tc := ⟨.hbm, 43, rfl⟩
abbrev main_cst : Ref sig .tc := ⟨.hbm, 44, rfl⟩
abbrev main_v1 : Ref sig .tc := ⟨.hbm, 45, rfl⟩
abbrev main_v2 : Ref sig .tc := ⟨.hbm, 46, rfl⟩
abbrev main_cst_17 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_c_18 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_19 : Ref sig .tc := ⟨.hbm, 68, rfl⟩
abbrev main_v17 : Ref sig .tc := ⟨.hbm, 69, rfl⟩
abbrev main_v18 : Ref sig .tc := ⟨.hbm, 70, rfl⟩
abbrev main_cst_20 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_c_21 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_cst_22 : Ref sig .tc := ⟨.hbm, 92, rfl⟩
abbrev main_v33 : Ref sig .tc := ⟨.hbm, 93, rfl⟩
abbrev main_v34 : Ref sig .tc := ⟨.hbm, 94, rfl⟩
abbrev main_cst_23 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_c_24 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_25 : Ref sig .tc := ⟨.hbm, 116, rfl⟩
abbrev main_v49 : Ref sig .tc := ⟨.hbm, 117, rfl⟩
abbrev main_v50 : Ref sig .tc := ⟨.hbm, 118, rfl⟩
abbrev main_cst_26 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_c_27 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_28 : Ref sig .tc := ⟨.hbm, 140, rfl⟩
abbrev main_v65 : Ref sig .tc := ⟨.hbm, 141, rfl⟩
abbrev main_v66 : Ref sig .tc := ⟨.hbm, 142, rfl⟩
abbrev main_cst_29 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_c_30 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_31 : Ref sig .tc := ⟨.hbm, 164, rfl⟩
abbrev main_v81 : Ref sig .tc := ⟨.hbm, 165, rfl⟩
abbrev main_v82 : Ref sig .tc := ⟨.hbm, 166, rfl⟩
abbrev main_cst_32 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_c_33 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_cst_34 : Ref sig .tc := ⟨.hbm, 188, rfl⟩
abbrev main_v97 : Ref sig .tc := ⟨.hbm, 189, rfl⟩
abbrev main_v98 : Ref sig .tc := ⟨.hbm, 190, rfl⟩
abbrev main_cst_35 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_c_36 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_cst_37 : Ref sig .tc := ⟨.hbm, 212, rfl⟩
abbrev main_v113 : Ref sig .tc := ⟨.hbm, 213, rfl⟩
abbrev main_v114 : Ref sig .tc := ⟨.hbm, 214, rfl⟩
abbrev main_cst_38 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_c_39 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_call7_v0 : Ref sig .tc := ⟨.hbm, 225, rfl⟩
abbrev main_call7_v1 : Ref sig .tc := ⟨.hbm, 226, rfl⟩
abbrev main_call7_v2 : Ref sig .tc := ⟨.hbm, 227, rfl⟩
abbrev main_call7_v3 : Ref sig .tc := ⟨.hbm, 228, rfl⟩
abbrev main_call7_v4 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_cst_40 : Ref sig .tc := ⟨.hbm, 236, rfl⟩
abbrev main_v129 : Ref sig .tc := ⟨.hbm, 237, rfl⟩
abbrev main_v130 : Ref sig .tc := ⟨.hbm, 238, rfl⟩
abbrev main_cst_41 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_c_42 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_call8_v0 : Ref sig .tc := ⟨.hbm, 249, rfl⟩
abbrev main_call8_v1 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_cst_43 : Ref sig .tc := ⟨.hbm, 260, rfl⟩
abbrev main_v145 : Ref sig .tc := ⟨.hbm, 261, rfl⟩
abbrev main_c_44 : Ref sig .tc := ⟨.hbm, 262, rfl⟩
abbrev main_v146 : Ref sig .tc := ⟨.hbm, 263, rfl⟩
abbrev main_v147 : Ref sig .tc := ⟨.hbm, 264, rfl⟩
abbrev main_cst_45 : Ref sig .tc := ⟨.hbm, 265, rfl⟩
abbrev main_v148 : Ref sig .tc := ⟨.hbm, 266, rfl⟩
abbrev main_c_46 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_c_47 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_call9_v0 : Ref sig .tc := ⟨.hbm, 277, rfl⟩
abbrev main_call9_v1 : Ref sig .tc := ⟨.hbm, 278, rfl⟩
abbrev main_call9_v2 : Ref sig .tc := ⟨.hbm, 279, rfl⟩
abbrev main_call9_v3 : Ref sig .tc := ⟨.hbm, 280, rfl⟩
abbrev main_call9_v4 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_48 : Ref sig .tc := ⟨.hbm, 288, rfl⟩
abbrev main_v163 : Ref sig .tc := ⟨.hbm, 289, rfl⟩
abbrev main_c_49 : Ref sig .tc := ⟨.hbm, 290, rfl⟩
abbrev main_v164 : Ref sig .tc := ⟨.hbm, 291, rfl⟩
abbrev main_c_50 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_cst_51 : Ref sig .tc := ⟨.hbm, 296, rfl⟩
abbrev main_v168 : Ref sig .tc := ⟨.hbm, 297, rfl⟩
abbrev main_c_52 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_c_53 : Ref sig .tc := ⟨.hbm, 303, rfl⟩
abbrev main_v173 : Ref sig .tc := ⟨.hbm, 304, rfl⟩
abbrev main_v174 : Ref sig .tc := ⟨.hbm, 305, rfl⟩
abbrev main_v175 : Ref sig .tc := ⟨.hbm, 306, rfl⟩
abbrev main_v176 : Ref sig .tc := ⟨.hbm, 307, rfl⟩
abbrev main_call10_v0 : Ref sig .tc := ⟨.hbm, 308, rfl⟩
abbrev main_call10_v1 : Ref sig .tc := ⟨.hbm, 309, rfl⟩
abbrev main_call10_v2 : Ref sig .tc := ⟨.hbm, 310, rfl⟩
abbrev main_call10_v3 : Ref sig .tc := ⟨.hbm, 311, rfl⟩
abbrev main_call10_v4 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_cst_54 : Ref sig .tc := ⟨.hbm, 319, rfl⟩
abbrev main_v183 : Ref sig .tc := ⟨.hbm, 320, rfl⟩
abbrev main_c_55 : Ref sig .tc := ⟨.hbm, 321, rfl⟩
abbrev main_v184 : Ref sig .tc := ⟨.hbm, 322, rfl⟩
abbrev main_c_56 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_cst_57 : Ref sig .tc := ⟨.hbm, 327, rfl⟩
abbrev main_v188 : Ref sig .tc := ⟨.hbm, 328, rfl⟩
abbrev main_c_58 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_c_59 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_call11_v0 : Ref sig .tc := ⟨.hbm, 339, rfl⟩
abbrev main_call11_v1 : Ref sig .tc := ⟨.hbm, 340, rfl⟩
abbrev main_call11_v2 : Ref sig .tc := ⟨.hbm, 341, rfl⟩
abbrev main_call11_v3 : Ref sig .tc := ⟨.hbm, 342, rfl⟩
abbrev main_call11_v4 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S4096x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  hz_S0 : S0.numel = 0
  transposes_S8x8_S8x8_1_0 : S8x8.Transposes [1, 0] S8x8
  bcast_S_S8x8 : S_.BroadcastsInDim S8x8 (![] : Fin 0 → Fin S8x8.rank)
  bcast_S_S8 : S_.BroadcastsInDim S8 (![] : Fin 0 → Fin S8.rank)
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S8x8_S1x8x1x8_1_3 : S8x8.BroadcastsInDim S1x8x1x8 (![1, 3] : Fin 2 → Fin S1x8x1x8.rank)
  bcast_S16x1x16x1_S16x8x16x8_0_1_2_3 : S16x1x16x1.BroadcastsInDim S16x8x16x8 (![0, 1, 2, 3] : Fin 4 → Fin S16x8x16x8.rank)
  bcast_S1x8x1x8_S16x8x16x8_0_1_2_3 : S1x8x1x8.BroadcastsInDim S16x8x16x8 (![0, 1, 2, 3] : Fin 4 → Fin S16x8x16x8.rank)
  shapeCasts_S16x8x16x8_S128x128 : S16x8x16x8.ShapeCasts S128x128
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S1x128 : S128.ShapeCasts S1x128
  transposes_S5x8_S8x5_1_0 : S5x8.Transposes [1, 0] S8x5
  bcast_S_S1 : S_.BroadcastsInDim S1 (![] : Fin 0 → Fin S1.rank)
  transposes_S3x5_S5x3_1_0 : S3x5.Transposes [1, 0] S5x3
  concatenates_S1_S1_S2_d0 : Shape.Concatenates [S1, S1] S2 0
  transposes_S1x3_S3x1_1_0 : S1x3.Transposes [1, 0] S3x1
  shapeCasts_S4194304x8_S262144x128 : S4194304x8.ShapeCasts S262144x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S262144x128_S4194304x8 : S262144x128.ShapeCasts S4194304x8
  slices_S4194304x8_S4194304x1_0_0 : S4194304x8.Slices ![0, 0] S4194304x1
  scatter_S8x8_S0_S8x8_01_n_n_0_wf : ScatterDims.WF S8x8 S0 S8x8 [0, 1] [] [] 0
  scatter_S8_S0_S8_0_n_n_0_wf : ScatterDims.WF S8 S0 S8 [0] [] [] 0
  scatter_S8x8_S1_S8x5_01_n_1_0_wf : ScatterDims.WF S8x8 S1 S8x5 [0, 1] [] [1] 0
  scatter_S8_S1_S5_0_n_0_0_wf : ScatterDims.WF S8 S1 S5 [0] [] [0] 0
  scatter_S8x8_S2_S5x3_01_n_01_0_wf : ScatterDims.WF S8x8 S2 S5x3 [0, 1] [] [0, 1] 0
  scatter_S8_S1_S3_0_n_0_0_wf : ScatterDims.WF S8 S1 S3 [0] [] [0] 0
  scatter_S8x8_S2_S3x1_01_n_01_0_wf : ScatterDims.WF S8x8 S2 S3x1 [0, 1] [] [0, 1] 0
  scatter_S8_S1_S1_0_n_0_0_wf : ScatterDims.WF S8 S1 S1 [0] [] [0] 0
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x128.size a ≤ S128x128.size a
  hwx0_23 : ∀ i : grid0.Coords, EltTy.bits .f32 = 32 ∨ (Rect.block (s := S128x128) S128x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S4096x128.size a ≤ S262144x128.size a
  hwx0_25 : ∀ i : grid0.Coords, EltTy.bits .f32 = 32 ∨ (Rect.block (s := S262144x128) S4096x128.size (cc0_transform_25 i) (hinb0_25 i)).WholeWords (EltTy.packing .f32)

variable [Facts₀]

def scatter_S8x8_S0_S8x8_01_n_n_0 : ScatterDims S8x8 S0 S8x8 where
  updateWindowDims := [0, 1]
  insertedWindowDims := []
  scatterDimsToOperandDims := []
  indexVectorDim := 0
  wf := scatter_S8x8_S0_S8x8_01_n_n_0_wf
def scatter_S8_S0_S8_0_n_n_0 : ScatterDims S8 S0 S8 where
  updateWindowDims := [0]
  insertedWindowDims := []
  scatterDimsToOperandDims := []
  indexVectorDim := 0
  wf := scatter_S8_S0_S8_0_n_n_0_wf
def scatter_S8x8_S1_S8x5_01_n_1_0 : ScatterDims S8x8 S1 S8x5 where
  updateWindowDims := [0, 1]
  insertedWindowDims := []
  scatterDimsToOperandDims := [1]
  indexVectorDim := 0
  wf := scatter_S8x8_S1_S8x5_01_n_1_0_wf
def scatter_S8_S1_S5_0_n_0_0 : ScatterDims S8 S1 S5 where
  updateWindowDims := [0]
  insertedWindowDims := []
  scatterDimsToOperandDims := [0]
  indexVectorDim := 0
  wf := scatter_S8_S1_S5_0_n_0_0_wf
def scatter_S8x8_S2_S5x3_01_n_01_0 : ScatterDims S8x8 S2 S5x3 where
  updateWindowDims := [0, 1]
  insertedWindowDims := []
  scatterDimsToOperandDims := [0, 1]
  indexVectorDim := 0
  wf := scatter_S8x8_S2_S5x3_01_n_01_0_wf
def scatter_S8_S1_S3_0_n_0_0 : ScatterDims S8 S1 S3 where
  updateWindowDims := [0]
  insertedWindowDims := []
  scatterDimsToOperandDims := [0]
  indexVectorDim := 0
  wf := scatter_S8_S1_S3_0_n_0_0_wf
def scatter_S8x8_S2_S3x1_01_n_01_0 : ScatterDims S8x8 S2 S3x1 where
  updateWindowDims := [0, 1]
  insertedWindowDims := []
  scatterDimsToOperandDims := [0, 1]
  indexVectorDim := 0
  wf := scatter_S8x8_S2_S3x1_01_n_01_0_wf
def scatter_S8_S1_S1_0_n_0_0 : ScatterDims S8 S1 S1 where
  updateWindowDims := [0]
  insertedWindowDims := []
  scatterDimsToOperandDims := [0]
  indexVectorDim := 0
  wf := scatter_S8_S1_S1_0_n_0_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v202) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v75) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v79) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v91) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v95) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v107) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v111) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v123) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v127) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v139) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v143) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v157) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v161) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v177) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v181) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v197) S128x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v201) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v203) S4096x128.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S8x8 : Shape := ⟨2, ![8, 8]⟩
abbrev S8 : Shape := ⟨1, ![8]⟩
abbrev S5x8 : Shape := ⟨2, ![5, 8]⟩
abbrev S5 : Shape := ⟨1, ![5]⟩
abbrev S3x5 : Shape := ⟨2, ![3, 5]⟩
abbrev S3 : Shape := ⟨1, ![3]⟩
abbrev S1x3 : Shape := ⟨2, ![1, 3]⟩
abbrev S1 : Shape := ⟨1, ![1]⟩
abbrev S1x8 : Shape := ⟨2, ![1, 8]⟩
abbrev S8x5 : Shape := ⟨2, ![8, 5]⟩
abbrev S4194304x5 : Shape := ⟨2, ![4194304, 5]⟩
abbrev S1x5 : Shape := ⟨2, ![1, 5]⟩
abbrev S5x3 : Shape := ⟨2, ![5, 3]⟩
abbrev S4194304x3 : Shape := ⟨2, ![4194304, 3]⟩
abbrev S3x1 : Shape := ⟨2, ![3, 1]⟩
abbrev S4194304x1 : Shape := ⟨2, ![4194304, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S8x8, .f32⟩
  | .hbm, ⟨14, _⟩ => ⟨S8, .f32⟩
  | .hbm, ⟨15, _⟩ => ⟨S8x8, .f32⟩
  | .hbm, ⟨16, _⟩ => ⟨S8, .f32⟩
  | .hbm, ⟨17, _⟩ => ⟨S8x8, .f32⟩
  | .hbm, ⟨18, _⟩ => ⟨S8, .f32⟩
  | .hbm, ⟨19, _⟩ => ⟨S5x8, .f32⟩
  | .hbm, ⟨20, _⟩ => ⟨S5, .f32⟩
  | .hbm, ⟨21, _⟩ => ⟨S3x5, .f32⟩
  | .hbm, ⟨22, _⟩ => ⟨S3, .f32⟩
  | .hbm, ⟨23, _⟩ => ⟨S1x3, .f32⟩
  | .hbm, ⟨24, _⟩ => ⟨S1, .f32⟩
  | .hbm, ⟨25, _⟩ => ⟨S8x8, .f32⟩
  | .hbm, ⟨26, _⟩ => ⟨S4194304x8, .f32⟩
  | .hbm, ⟨27, _⟩ => ⟨S1x8, .f32⟩
  | .hbm, ⟨28, _⟩ => ⟨S4194304x8, .f32⟩
  | .hbm, ⟨29, _⟩ => ⟨S4194304x8, .f32⟩
  | .hbm, ⟨30, _⟩ => ⟨S4194304x8, .f32⟩
  | .hbm, ⟨31, _⟩ => ⟨S8x8, .f32⟩
  | .hbm, ⟨32, _⟩ => ⟨S4194304x8, .f32⟩
  | .hbm, ⟨33, _⟩ => ⟨S1x8, .f32⟩
  | .hbm, ⟨34, _⟩ => ⟨S4194304x8, .f32⟩
  | .hbm, ⟨35, _⟩ => ⟨S4194304x8, .f32⟩
  | .hbm, ⟨36, _⟩ => ⟨S4194304x8, .f32⟩
  | .hbm, ⟨37, _⟩ => ⟨S8x8, .f32⟩
  | .hbm, ⟨38, _⟩ => ⟨S4194304x8, .f32⟩
  | .hbm, ⟨39, _⟩ => ⟨S1x8, .f32⟩
  | .hbm, ⟨40, _⟩ => ⟨S4194304x8, .f32⟩
  | .hbm, ⟨41, _⟩ => ⟨S4194304x8, .f32⟩
  | .hbm, ⟨42, _⟩ => ⟨S4194304x8, .f32⟩
  | .hbm, ⟨43, _⟩ => ⟨S8x8, .f32⟩
  | .hbm, ⟨44, _⟩ => ⟨S4194304x8, .f32⟩
  | .hbm, ⟨45, _⟩ => ⟨S1x8, .f32⟩
  | .hbm, ⟨46, _⟩ => ⟨S4194304x8, .f32⟩
  | .hbm, ⟨47, _⟩ => ⟨S4194304x8, .f32⟩
  | .hbm, ⟨48, _⟩ => ⟨S4194304x8, .f32⟩
  | .hbm, ⟨49, _⟩ => ⟨S8x8, .f32⟩
  | .hbm, ⟨50, _⟩ => ⟨S4194304x8, .f32⟩
  | .hbm, ⟨51, _⟩ => ⟨S1x8, .f32⟩
  | .hbm, ⟨52, _⟩ => ⟨S4194304x8, .f32⟩
  | .hbm, ⟨53, _⟩ => ⟨S4194304x8, .f32⟩
  | .hbm, ⟨54, _⟩ => ⟨S4194304x8, .f32⟩
  | .hbm, ⟨55, _⟩ => ⟨S4194304x8, .f32⟩
  | .hbm, ⟨56, _⟩ => ⟨S8x8, .f32⟩
  | .hbm, ⟨57, _⟩ => ⟨S4194304x8, .f32⟩
  | .hbm, ⟨58, _⟩ => ⟨S1x8, .f32⟩
  | .hbm, ⟨59, _⟩ => ⟨S4194304x8, .f32⟩
  | .hbm, ⟨60, _⟩ => ⟨S4194304x8, .f32⟩
  | .hbm, ⟨61, _⟩ => ⟨S4194304x8, .f32⟩
  | .hbm, ⟨62, _⟩ => ⟨S8x8, .f32⟩
  | .hbm, ⟨63, _⟩ => ⟨S4194304x8, .f32⟩
  | .hbm, ⟨64, _⟩ => ⟨S1x8, .f32⟩
  | .hbm, ⟨65, _⟩ => ⟨S4194304x8, .f32⟩
  | .hbm, ⟨66, _⟩ => ⟨S4194304x8, .f32⟩
  | .hbm, ⟨67, _⟩ => ⟨S4194304x8, .f32⟩
  | .hbm, ⟨68, _⟩ => ⟨S4194304x8, .f32⟩
  | .hbm, ⟨69, _⟩ => ⟨S8x8, .f32⟩
  | .hbm, ⟨70, _⟩ => ⟨S4194304x8, .f32⟩
  | .hbm, ⟨71, _⟩ => ⟨S1x8, .f32⟩
  | .hbm, ⟨72, _⟩ => ⟨S4194304x8, .f32⟩
  | .hbm, ⟨73, _⟩ => ⟨S4194304x8, .f32⟩
  | .hbm, ⟨74, _⟩ => ⟨S4194304x8, .f32⟩
  | .hbm, ⟨75, _⟩ => ⟨S8x8, .f32⟩
  | .hbm, ⟨76, _⟩ => ⟨S4194304x8, .f32⟩
  | .hbm, ⟨77, _⟩ => ⟨S1x8, .f32⟩
  | .hbm, ⟨78, _⟩ => ⟨S4194304x8, .f32⟩
  | .hbm, ⟨79, _⟩ => ⟨S4194304x8, .f32⟩
  | .hbm, ⟨80, _⟩ => ⟨S4194304x8, .f32⟩
  | .hbm, ⟨81, _⟩ => ⟨S4194304x8, .f32⟩
  | .hbm, ⟨82, _⟩ => ⟨S8x5, .f32⟩
  | .hbm, ⟨83, _⟩ => ⟨S4194304x5, .f32⟩
  | .hbm, ⟨84, _⟩ => ⟨S1x5, .f32⟩
  | .hbm, ⟨85, _⟩ => ⟨S4194304x5, .f32⟩
  | .hbm, ⟨86, _⟩ => ⟨S4194304x5, .f32⟩
  | .hbm, ⟨87, _⟩ => ⟨S4194304x5, .f32⟩
  | .hbm, ⟨88, _⟩ => ⟨S5x3, .f32⟩
  | .hbm, ⟨89, _⟩ => ⟨S4194304x3, .f32⟩
  | .hbm, ⟨90, _⟩ => ⟨S1x3, .f32⟩
  | .hbm, ⟨91, _⟩ => ⟨S4194304x3, .f32⟩
  | .hbm, ⟨92, _⟩ => ⟨S4194304x3, .f32⟩
  | .hbm, ⟨93, _⟩ => ⟨S4194304x3, .f32⟩
  | .hbm, ⟨94, _⟩ => ⟨S3x1, .f32⟩
  | .hbm, ⟨95, _⟩ => ⟨S4194304x1, .f32⟩
  | .hbm, ⟨96, _⟩ => ⟨S1x1, .f32⟩
  | .hbm, ⟨97, _⟩ => ⟨S4194304x1, .f32⟩
  | .hbm, ⟨98, _⟩ => ⟨S4194304x1, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  transposes_S8x8_S8x8_1_0 : S8x8.Transposes [1, 0] S8x8
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  transposes_S5x8_S8x5_1_0 : S5x8.Transposes [1, 0] S8x5
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  transposes_S3x5_S5x3_1_0 : S3x5.Transposes [1, 0] S5x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  transposes_S1x3_S3x1_1_0 : S1x3.Transposes [1, 0] S3x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  dot_S4194304x8_S8x8_S4194304x8_1_0_0_1_n_n_wf : DotDims.WF S4194304x8 S8x8 S4194304x8 [1] [0] [0] [1] [] []
  dot_S4194304x8_S8x5_S4194304x5_1_0_0_1_n_n_wf : DotDims.WF S4194304x8 S8x5 S4194304x5 [1] [0] [0] [1] [] []
  dot_S4194304x5_S5x3_S4194304x3_1_0_0_1_n_n_wf : DotDims.WF S4194304x5 S5x3 S4194304x3 [1] [0] [0] [1] [] []
  dot_S4194304x3_S3x1_S4194304x1_1_0_0_1_n_n_wf : DotDims.WF S4194304x3 S3x1 S4194304x1 [1] [0] [0] [1] [] []

variable [Facts₀]

def dot_S4194304x8_S8x8_S4194304x8_1_0_0_1_n_n : DotDims S4194304x8 S8x8 S4194304x8 where
  lhsContracting := [1]
  rhsContracting := [0]
  lhsNonContracting := [0]
  rhsNonContracting := [1]
  lhsBatch := []
  rhsBatch := []
  wf := dot_S4194304x8_S8x8_S4194304x8_1_0_0_1_n_n_wf
def dot_S4194304x8_S8x5_S4194304x5_1_0_0_1_n_n : DotDims S4194304x8 S8x5 S4194304x5 where
  lhsContracting := [1]
  rhsContracting := [0]
  lhsNonContracting := [0]
  rhsNonContracting := [1]
  lhsBatch := []
  rhsBatch := []
  wf := dot_S4194304x8_S8x5_S4194304x5_1_0_0_1_n_n_wf
def dot_S4194304x5_S5x3_S4194304x3_1_0_0_1_n_n : DotDims S4194304x5 S5x3 S4194304x3 where
  lhsContracting := [1]
  rhsContracting := [0]
  lhsNonContracting := [0]
  rhsNonContracting := [1]
  lhsBatch := []
  rhsBatch := []
  wf := dot_S4194304x5_S5x3_S4194304x3_1_0_0_1_n_n_wf
def dot_S4194304x3_S3x1_S4194304x1_1_0_0_1_n_n : DotDims S4194304x3 S3x1 S4194304x1 where
  lhsContracting := [1]
  rhsContracting := [0]
  lhsNonContracting := [0]
  rhsNonContracting := [1]
  lhsBatch := []
  rhsBatch := []
  wf := dot_S4194304x3_S3x1_S4194304x1_1_0_0_1_n_n_wf

class Facts : Prop extends Facts₀ where

variable [Facts]
-- ==== Proof.MlpSpec.lean ====
/-
  A twelve-layer perceptron on row vectors of extended reals, in the three forms the two programs use.

  * `mlp`: the layers at their true widths 8 → 8 (nine times) → 5 → 3 → 1, each `y j = Σ_i v i · W j i + b j`,
    a `tanh` after every layer but the last, and the outputs of layers 2, 5, 7 added to the pre-activations of
    layers 5, 7, 9.
  * `chain` at eight lanes with zero-padded weights (`pad2`, `pad1`): the padded lanes carry junk that the
    next layer multiplies by a zero weight, so the true lanes are those of `mlp` (`chain8_pad`).
  * `chain` at 128 lanes with the Kronecker product of the 16 × 16 identity and an 8 × 8 block as weight: the
    sum over 128 lanes keeps only the eight lanes of the entry's own group, because `x · 0 = 0` for every
    extended real, so each of the sixteen groups of eight lanes goes through the eight-lane perceptron by
    itself (`rowLin_grp`).
  The three are tied by one statement about `chain`: a map that commutes with every layer, with `tanh` and
  with the sum commutes with the whole chain (`chain_map`).
-/
import Idealize.ShloMosaic.PureOps.Ideal
import Idealize.ShloMosaic.Lib.ValueIdx

noncomputable section

open scoped BigOperators

namespace Cert.Mlp

open Idealize.ShloMosaic

/-! ## The chain of twelve layers over any vector type -/

section chain
variable {V : Type}

/-- Layers 1, 2: `tanh (L2 (tanh (L1 x)))`. -/
def c2 (L1 L2 : V → V) (T : V → V) (x : V) : V := T (L2 (T (L1 x)))

/-- Through layer 5, whose pre-activation takes layer 2's output. -/
def c5 (L1 L2 L3 L4 L5 : V → V) (T : V → V) (A : V → V → V) (x : V) : V :=
  T (A (L5 (T (L4 (T (L3 (c2 L1 L2 T x)))))) (c2 L1 L2 T x))

/-- Through layer 7, whose pre-activation takes layer 5's output. -/
def c7 (L1 L2 L3 L4 L5 L6 L7 : V → V) (T : V → V) (A : V → V → V) (x : V) : V :=
  T (A (L7 (T (L6 (c5 L1 L2 L3 L4 L5 T A x)))) (c5 L1 L2 L3 L4 L5 T A x))

/-- Through layer 9, whose pre-activation takes layer 7's output. -/
def c9 (L1 L2 L3 L4 L5 L6 L7 L8 L9 : V → V) (T : V → V) (A : V → V → V) (x : V) : V :=
  T (A (L9 (T (L8 (c7 L1 L2 L3 L4 L5 L6 L7 T A x)))) (c7 L1 L2 L3 L4 L5 L6 L7 T A x))

/-- All twelve layers; no `tanh` after the last. -/
def chain (L1 L2 L3 L4 L5 L6 L7 L8 L9 L10 L11 L12 : V → V) (T : V → V) (A : V → V → V) (x : V) : V :=
  L12 (T (L11 (T (L10 (c9 L1 L2 L3 L4 L5 L6 L7 L8 L9 T A x)))))

variable {V' : Type}

/-- A map commuting with each layer, with `T` and with `A` commutes with the chain. -/
theorem chain_map (g : V → V')
    {L1 L2 L3 L4 L5 L6 L7 L8 L9 L10 L11 L12 : V → V} {T : V → V} {A : V → V → V}
    {M1 M2 M3 M4 M5 M6 M7 M8 M9 M10 M11 M12 : V' → V'} {T' : V' → V'} {A' : V' → V' → V'}
    (h1 : ∀ v, g (L1 v) = M1 (g v)) (h2 : ∀ v, g (L2 v) = M2 (g v)) (h3 : ∀ v, g (L3 v) = M3 (g v))
    (h4 : ∀ v, g (L4 v) = M4 (g v)) (h5 : ∀ v, g (L5 v) = M5 (g v)) (h6 : ∀ v, g (L6 v) = M6 (g v))
    (h7 : ∀ v, g (L7 v) = M7 (g v)) (h8 : ∀ v, g (L8 v) = M8 (g v)) (h9 : ∀ v, g (L9 v) = M9 (g v))
    (h10 : ∀ v, g (L10 v) = M10 (g v)) (h11 : ∀ v, g (L11 v) = M11 (g v)) (h12 : ∀ v, g (L12 v) = M12 (g v))
    (hT : ∀ v, g (T v) = T' (g v)) (hA : ∀ v w, g (A v w) = A' (g v) (g w)) (x : V) :
    g (chain L1 L2 L3 L4 L5 L6 L7 L8 L9 L10 L11 L12 T A x)
      = chain M1 M2 M3 M4 M5 M6 M7 M8 M9 M10 M11 M12 T' A' (g x) := by
  simp only [chain, c9, c7, c5, c2, h1, h2, h3, h4, h5, h6, h7, h8, h9, h10, h11, h12, hT, hA]

end chain

/-! ## Layers on row vectors -/

/-- `tanh` of every entry. -/
def th {ι : Type} (v : ι → EReal) : ι → EReal := fun j => Ideal.tanh (v j)

/-- The entrywise sum. -/
def vadd {ι : Type} (v w : ι → EReal) : ι → EReal := fun j => v j + w j

/-- A layer with its weight stored output-major: `y j = Σ_i v i · W j i + b j`. -/
def lin {n o : ℕ} (W : Fin o → Fin n → EReal) (b : Fin o → EReal) (v : Fin n → EReal) : Fin o → EReal :=
  fun j => (∑ i, v i * W j i) + b j

/-- A square layer with its weight stored input-major: `y j = Σ_i v i · P i j + q j`. -/
def linT {n : ℕ} (P : Fin n → Fin n → EReal) (q : Fin n → EReal) (v : Fin n → EReal) : Fin n → EReal :=
  fun j => (∑ i, v i * P i j) + q j

/-- The product alone: `y j = Σ_i v i · P i j`. -/
def matT {n : ℕ} (P : Fin n → Fin n → EReal) (v : Fin n → EReal) : Fin n → EReal :=
  fun j => ∑ i, v i * P i j

theorem linT_eq {n : ℕ} (P : Fin n → Fin n → EReal) (q v : Fin n → EReal) : linT P q v = vadd (matT P v) q := rfl

/-! ## Zero padding to eight lanes -/

/-- The transposed weight in the top-left corner of an 8 × 8 block of zeros. -/
def pad2 {n o : ℕ} (W : Fin o → Fin n → EReal) : Fin 8 → Fin 8 → EReal :=
  fun i j => if h : i.val < n ∧ j.val < o then W ⟨j.val, h.2⟩ ⟨i.val, h.1⟩ else 0

/-- The bias followed by zeros. -/
def pad1 {o : ℕ} (b : Fin o → EReal) : Fin 8 → EReal :=
  fun j => if h : j.val < o then b ⟨j.val, h⟩ else 0

/-- A padded layer on a vector whose first `n` lanes are `v` gives, on its first `o` lanes, the layer of `v`:
    the other lanes of the input meet zero weights. -/
theorem linT_pad {n o : ℕ} (hn : n ≤ 8) (ho : o ≤ 8) (W : Fin o → Fin n → EReal) (b : Fin o → EReal)
    (v8 : Fin 8 → EReal) (v : Fin n → EReal) (hv : ∀ i : Fin n, v8 (Fin.castLE hn i) = v i) (j : Fin o) :
    linT (pad2 W) (pad1 b) v8 (Fin.castLE ho j) = lin W b v j := by
  unfold linT lin
  congr 1
  · have hsub : (Finset.univ.map (Fin.castLEEmb hn)) ⊆ (Finset.univ : Finset (Fin 8)) := Finset.subset_univ _
    rw [← Finset.sum_subset hsub, Finset.sum_map]
    · refine Finset.sum_congr rfl fun i _ => ?_
      have hi : (Fin.castLE hn i).val < n ∧ (Fin.castLE ho j).val < o := ⟨i.isLt, j.isLt⟩
      show v8 (Fin.castLE hn i) * pad2 W (Fin.castLE hn i) (Fin.castLE ho j) = _
      rw [hv i]
      unfold pad2
      rw [dif_pos hi]
      rfl
    · intro i _ hi
      have hlt : ¬ i.val < n := by
        intro h
        exact hi (Finset.mem_map.2 ⟨⟨i.val, h⟩, Finset.mem_univ _, Fin.ext rfl⟩)
      unfold pad2
      rw [dif_neg (fun h => hlt h.1), mul_zero]
  · unfold pad1
    rw [dif_pos (show (Fin.castLE ho j).val < o from j.isLt)]
    rfl

/-- At full width nothing is padded. -/
theorem linT_pad_full (W : Fin 8 → Fin 8 → EReal) (b v : Fin 8 → EReal) :
    linT (pad2 W) (pad1 b) v = lin W b v :=
  funext fun j => linT_pad (le_refl 8) (le_refl 8) W b v v (fun _ => rfl) j

/-! ## The perceptron at its true widths, and at eight padded lanes -/

/-- The weights and biases, output-major as the module stores them. -/
structure Params where
  W1 : Fin 8 → Fin 8 → EReal
  b1 : Fin 8 → EReal
  W2 : Fin 8 → Fin 8 → EReal
  b2 : Fin 8 → EReal
  W3 : Fin 8 → Fin 8 → EReal
  b3 : Fin 8 → EReal
  W4 : Fin 8 → Fin 8 → EReal
  b4 : Fin 8 → EReal
  W5 : Fin 8 → Fin 8 → EReal
  b5 : Fin 8 → EReal
  W6 : Fin 8 → Fin 8 → EReal
  b6 : Fin 8 → EReal
  W7 : Fin 8 → Fin 8 → EReal
  b7 : Fin 8 → EReal
  W8 : Fin 8 → Fin 8 → EReal
  b8 : Fin 8 → EReal
  W9 : Fin 8 → Fin 8 → EReal
  b9 : Fin 8 → EReal
  W10 : Fin 5 → Fin 8 → EReal
  b10 : Fin 5 → EReal
  W11 : Fin 3 → Fin 5 → EReal
  b11 : Fin 3 → EReal
  W12 : Fin 1 → Fin 3 → EReal
  b12 : Fin 1 → EReal

/-- The first nine layers, all 8 → 8. -/
def head (θ : Params) (x : Fin 8 → EReal) : Fin 8 → EReal :=
  c9 (lin θ.W1 θ.b1) (lin θ.W2 θ.b2) (lin θ.W3 θ.b3) (lin θ.W4 θ.b4) (lin θ.W5 θ.b5) (lin θ.W6 θ.b6)
    (lin θ.W7 θ.b7) (lin θ.W8 θ.b8) (lin θ.W9 θ.b9) th vadd x

/-- The perceptron: nine square layers, then 8 → 5 → 3 → 1. -/
def mlp (θ : Params) (x : Fin 8 → EReal) : Fin 1 → EReal :=
  lin θ.W12 θ.b12 (th (lin θ.W11 θ.b11 (th (lin θ.W10 θ.b10 (head θ x)))))

/-- The same at eight lanes, every weight zero-padded. -/
def mlp8 (θ : Params) (x : Fin 8 → EReal) : Fin 8 → EReal :=
  chain (linT (pad2 θ.W1) (pad1 θ.b1)) (linT (pad2 θ.W2) (pad1 θ.b2)) (linT (pad2 θ.W3) (pad1 θ.b3))
    (linT (pad2 θ.W4) (pad1 θ.b4)) (linT (pad2 θ.W5) (pad1 θ.b5)) (linT (pad2 θ.W6) (pad1 θ.b6))
    (linT (pad2 θ.W7) (pad1 θ.b7)) (linT (pad2 θ.W8) (pad1 θ.b8)) (linT (pad2 θ.W9) (pad1 θ.b9))
    (linT (pad2 θ.W10) (pad1 θ.b10)) (linT (pad2 θ.W11) (pad1 θ.b11)) (linT (pad2 θ.W12) (pad1 θ.b12)) th vadd x

/-- Lane 0 of the padded perceptron is the perceptron's one output. -/
theorem mlp8_zero (θ : Params) (x : Fin 8 → EReal) : mlp8 θ x 0 = mlp θ x 0 := by
  have h9 : c9 (linT (pad2 θ.W1) (pad1 θ.b1)) (linT (pad2 θ.W2) (pad1 θ.b2)) (linT (pad2 θ.W3) (pad1 θ.b3))
      (linT (pad2 θ.W4) (pad1 θ.b4)) (linT (pad2 θ.W5) (pad1 θ.b5)) (linT (pad2 θ.W6) (pad1 θ.b6))
      (linT (pad2 θ.W7) (pad1 θ.b7)) (linT (pad2 θ.W8) (pad1 θ.b8)) (linT (pad2 θ.W9) (pad1 θ.b9)) th vadd x
      = head θ x := by
    unfold head
    have e : ∀ (W : Fin 8 → Fin 8 → EReal) (b : Fin 8 → EReal), linT (pad2 W) (pad1 b) = lin W b :=
      fun W b => funext fun v => linT_pad_full W b v
    simp only [e]
  unfold mlp8 chain mlp
  rw [h9]
  have h10 : ∀ i : Fin 5, th (linT (pad2 θ.W10) (pad1 θ.b10) (head θ x)) (Fin.castLE (by decide : 5 ≤ 8) i)
      = th (lin θ.W10 θ.b10 (head θ x)) i := fun i =>
    congrArg Ideal.tanh (linT_pad (le_refl 8) (by decide) θ.W10 θ.b10 _ _ (fun _ => rfl) i)
  have h11 : ∀ i : Fin 3, th (linT (pad2 θ.W11) (pad1 θ.b11) (th (linT (pad2 θ.W10) (pad1 θ.b10) (head θ x))))
      (Fin.castLE (by decide : 3 ≤ 8) i) = th (lin θ.W11 θ.b11 (th (lin θ.W10 θ.b10 (head θ x)))) i := fun i =>
    congrArg Ideal.tanh (linT_pad (by decide) (by decide) θ.W11 θ.b11 _ _ h10 i)
  exact linT_pad (by decide) (by decide) θ.W12 θ.b12 _ _ h11 (0 : Fin 1)

/-! ## Sixteen groups of eight lanes -/

/-- Lane `d` of group `c`. -/
abbrev lane (c : Fin 16) (d : Fin 8) : Fin 128 := ⟨8 * c.val + d.val, by omega⟩

/-- Group `c` of a 128-lane vector. -/
def grp (v : Fin 128 → EReal) (c : Fin 16) : Fin 8 → EReal := fun d => v (lane c d)

theorem grp_th (v : Fin 128 → EReal) (c : Fin 16) : grp (th v) c = th (grp v c) := rfl
theorem grp_vadd (v w : Fin 128 → EReal) (c : Fin 16) : grp (vadd v w) c = vadd (grp v c) (grp w c) := rfl

/-- A sum over the 128 lanes, group by group. -/
theorem sum_lanes {M : Type} [AddCommMonoid M] (f : Fin 128 → M) :
    ∑ k, f k = ∑ a : Fin 16, ∑ b : Fin 8, f (lane a b) := by
  rw [← Fintype.sum_prod_type', ← Equiv.sum_comp (finProdFinEquiv (m := 16) (n := 8)) f]
  refine Finset.sum_congr rfl fun p _ => congrArg f (Fin.ext ?_)
  show p.2.val + 8 * p.1.val = 8 * p.1.val + p.2.val
  omega

/-- `W` is the Kronecker product of the 16 × 16 identity with `P`. -/
def IsKron (W : Fin 128 → Fin 128 → EReal) (P : Fin 8 → Fin 8 → EReal) : Prop :=
  ∀ a b c d, W (lane a b) (lane c d) = (if a = c then (1 : EReal) else 0) * P b d

/-- `B` is `q` repeated sixteen times. -/
def IsTile (B : Fin 128 → EReal) (q : Fin 8 → EReal) : Prop := ∀ c d, B (lane c d) = q d

/-- The product with a Kronecker weight acts on each group by the block. -/
theorem matT_grp {W : Fin 128 → Fin 128 → EReal} {P : Fin 8 → Fin 8 → EReal} (hW : IsKron W P)
    (v : Fin 128 → EReal) (c : Fin 16) : grp (matT W v) c = matT P (grp v c) := by
  funext d
  show ∑ k, v k * W k (lane c d) = ∑ b, v (lane c b) * P b d
  rw [sum_lanes, Finset.sum_eq_single c]
  · refine Finset.sum_congr rfl fun b _ => ?_
    rw [hW, if_pos rfl, one_mul]
  · intro a _ hac
    refine Finset.sum_eq_zero fun b _ => ?_
    rw [hW, if_neg hac, zero_mul, mul_zero]
  · intro h; exact absurd (Finset.mem_univ c) h

/-- A layer with a Kronecker weight and a tiled bias acts on each group by the block and the bias. -/
theorem linT_grp {W : Fin 128 → Fin 128 → EReal} {P : Fin 8 → Fin 8 → EReal} {B : Fin 128 → EReal}
    {q : Fin 8 → EReal} (hW : IsKron W P) (hB : IsTile B q) (v : Fin 128 → EReal) (c : Fin 16) :
    grp (linT W B v) c = linT P q (grp v c) := by
  rw [linT_eq, linT_eq, grp_vadd, matT_grp hW]
  exact congrArg (vadd _) (funext fun d => hB c d)

end Cert.Mlp

end
-- ==== Proof.MlpParams.lean ====
/-
  The perceptron's weights and biases as read off the twenty-four argument arrays: weight `W` of a layer at
  `(j, i)` is its `[out, in]` array at `(j, i)`, bias `b` at `j` its `[out]` array at `j`.
-/
import proofs.«141723_j17222818857346_2_alg».proof.Proof.MlpSpec

noncomputable section

namespace Cert.Mlp

open Idealize.ShloMosaic Idealize.ShloMosaic.ValueIdx

def paramsOf
    (a1 : (⟨2, ![8, 8]⟩ : Shape).Idx → EReal) (a2 : (⟨1, ![8]⟩ : Shape).Idx → EReal)
    (a3 : (⟨2, ![8, 8]⟩ : Shape).Idx → EReal) (a4 : (⟨1, ![8]⟩ : Shape).Idx → EReal)
    (a5 : (⟨2, ![8, 8]⟩ : Shape).Idx → EReal) (a6 : (⟨1, ![8]⟩ : Shape).Idx → EReal)
    (a7 : (⟨2, ![8, 8]⟩ : Shape).Idx → EReal) (a8 : (⟨1, ![8]⟩ : Shape).Idx → EReal)
    (a9 : (⟨2, ![8, 8]⟩ : Shape).Idx → EReal) (a10 : (⟨1, ![8]⟩ : Shape).Idx → EReal)
    (a11 : (⟨2, ![8, 8]⟩ : Shape).Idx → EReal) (a12 : (⟨1, ![8]⟩ : Shape).Idx → EReal)
    (a13 : (⟨2, ![8, 8]⟩ : Shape).Idx → EReal) (a14 : (⟨1, ![8]⟩ : Shape).Idx → EReal)
    (a15 : (⟨2, ![8, 8]⟩ : Shape).Idx → EReal) (a16 : (⟨1, ![8]⟩ : Shape).Idx → EReal)
    (a17 : (⟨2, ![8, 8]⟩ : Shape).Idx → EReal) (a18 : (⟨1, ![8]⟩ : Shape).Idx → EReal)
    (a19 : (⟨2, ![5, 8]⟩ : Shape).Idx → EReal) (a20 : (⟨1, ![5]⟩ : Shape).Idx → EReal)
    (a21 : (⟨2, ![3, 5]⟩ : Shape).Idx → EReal) (a22 : (⟨1, ![3]⟩ : Shape).Idx → EReal)
    (a23 : (⟨2, ![1, 3]⟩ : Shape).Idx → EReal) (a24 : (⟨1, ![1]⟩ : Shape).Idx → EReal) : Params where
    W1 := fun j i => a1 (ix2 j i)
    b1 := fun j => a2 (ix1 j)
    W2 := fun j i => a3 (ix2 j i)
    b2 := fun j => a4 (ix1 j)
    W3 := fun j i => a5 (ix2 j i)
    b3 := fun j => a6 (ix1 j)
    W4 := fun j i => a7 (ix2 j i)
    b4 := fun j => a8 (ix1 j)
    W5 := fun j i => a9 (ix2 j i)
    b5 := fun j => a10 (ix1 j)
    W6 := fun j i => a11 (ix2 j i)
    b6 := fun j => a12 (ix1 j)
    W7 := fun j i => a13 (ix2 j i)
    b7 := fun j => a14 (ix1 j)
    W8 := fun j i => a15 (ix2 j i)
    b8 := fun j => a16 (ix1 j)
    W9 := fun j i => a17 (ix2 j i)
    b9 := fun j => a18 (ix1 j)
    W10 := fun j i => a19 (ix2 j i)
    b10 := fun j => a20 (ix1 j)
    W11 := fun j i => a21 (ix2 j i)
    b11 := fun j => a22 (ix1 j)
    W12 := fun j i => a23 (ix2 j i)
    b12 := fun j => a24 (ix1 j)

/-- A layer is its product followed by the bias. -/
def matO {n o : ℕ} (W : Fin o → Fin n → EReal) (v : Fin n → EReal) : Fin o → EReal := fun j => ∑ i, v i * W j i

theorem lin_eq {n o : ℕ} (W : Fin o → Fin n → EReal) (b : Fin o → EReal) (v : Fin n → EReal) :
    lin W b v = vadd (matO W v) b := rfl

end Cert.Mlp

end
-- ==== Proof.LibHostDot.lean ====
/-
  The host's `dot_general` of an `[m, k]` by a `[k, n]` matrix (the left operand's second axis contracted with the
  right operand's first, no batch axes), at the ideal values, read at an entry: the sum over the contracted
  coordinate of the products of the entries. General in the extents.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

theorem dotGeneral_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    Host.dotGeneral (⟨[1], [0], [0], [1], [], [], w⟩ : DotDims ⟨2, ![m, k]⟩ ⟨2, ![k, n]⟩ ⟨2, ![m, n]⟩) prec A B (ix2 p j)
      = ∑ c : Fin k, A (ix2 p c) * B (ix2 c j) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.RefValue.lean ====
/-
  The reference's result, one row at a time, layer by layer: row `r` of each of its layers depends on row `r` of the layer's input
  only (a product with the transposed weight, the bias broadcast over the rows, `tanh`, the skip sums), so row
  `r` of the result is the perceptron of row `r` of `x`, with the weights read off the argument arrays.
-/
import proofs.«141723_j17222818857346_2_alg».proof.Proof.Gen.ReferenceIdeal.Read
import proofs.«141723_j17222818857346_2_alg».proof.Proof.MlpParams
import proofs.«141723_j17222818857346_2_alg».proof.Proof.LibHostDot
import Idealize.ShloMosaic.Lib.ValueLayout
import Idealize.ShloMosaic.Lib.Pipeline.Value

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.ReferenceIdeal.Read Cert.Mlp

/-- Row `r` of a two-axis array. -/
def rowR {B n : ℕ} (X : (⟨2, ![B, n]⟩ : Shape).Idx → EReal) (r : Fin B) : Fin n → EReal := fun i => X (ix2 r i)

theorem rowR_tanh {B n : ℕ} (Y : FVec Ideal ⟨2, ![B, n]⟩ .f32) (r : Fin B) : rowR (Host.tanh Y) r = th (rowR Y r) := rfl

theorem rowR_addf {B n : ℕ} (Y Z : FVec Ideal ⟨2, ![B, n]⟩ .f32) (r : Fin B) :
    rowR (addf Y Z) r = vadd (rowR Y r) (rowR Z r) := rfl

/-- An `[o]` vector made a `[1, o]` row and repeated over `B` rows reads, at `(r, j)`, the vector at `j`. -/
theorem bias_apply {B o : ℕ} {α : Type} (h1 : (⟨1, ![o]⟩ : Shape).BroadcastsInDim ⟨2, ![1, o]⟩ ![1])
    (h2 : (⟨2, ![1, o]⟩ : Shape).BroadcastsInDim ⟨2, ![B, o]⟩ ![0, 1]) (b : (⟨1, ![o]⟩ : Shape).Idx → α)
    (r : Fin B) (j : Fin o) :
    broadcastInDim ⟨2, ![B, o]⟩ ![0, 1] h2 (broadcastInDim ⟨2, ![1, o]⟩ ![1] h1 b) (ix2 r j) = b (ix1 j) := by
  rw [broadcastInDim_apply _ h2 _ (ix2 r j) (ix2 (0 : Fin 1) j) (fun ax => match ax with
      | ⟨0, _⟩ => by show 0 = if (1 : Nat) = 1 then 0 else r.val; rw [if_pos rfl]
      | ⟨1, _⟩ => by
        show j.val = if o = 1 then 0 else j.val
        split
        · have := j.isLt; omega
        · rfl),
    broadcastInDim_apply _ h1 b (ix2 (0 : Fin 1) j) (ix1 j) (fun ax => match ax with
      | ⟨0, _⟩ => by
        show j.val = if o = 1 then 0 else j.val
        split
        · have := j.isLt; omega
        · rfl)]

/-- Row `r` of the reference's product of a `[rows, 8]` array with the transposed `[8, 8]` weight. -/
theorem rowR_dot_8_8 (X : FVec Ideal S4194304x8 .f32) (W : FVec Ideal S8x8 .f32) (r : Fin 4194304) :
    rowR (Host.dotGeneral dot_S4194304x8_S8x8_S4194304x8_1_0_0_1_n_n none X (transpose S8x8 [1, 0] W transposes_S8x8_S8x8_1_0)) r
      = matO (fun j i => W (ix2 j i)) (rowR X r) := by
  funext j
  refine (Cert.LibHostDot.dotGeneral_apply _ none X _ r j).trans ?_
  refine Finset.sum_congr rfl fun i _ => ?_
  rw [transpose_ix2_apply]
  rfl

/-- Every row of the `[8]` bias broadcast over the rows is the bias. -/
theorem rowR_bias_8 (b : FVec Ideal S8 .f32) (r : Fin 4194304) :
    rowR (broadcastInDim S4194304x8 ![0, 1] bcast_S1x8_S4194304x8_0_1 (broadcastInDim S1x8 ![1] bcast_S8_S1x8_1 b)) r = fun j => b (ix1 j) :=
  funext fun j => bias_apply bcast_S8_S1x8_1 bcast_S1x8_S4194304x8_0_1 b r j

/-- Row `r` of the reference's product of a `[rows, 8]` array with the transposed `[5, 8]` weight. -/
theorem rowR_dot_8_5 (X : FVec Ideal S4194304x8 .f32) (W : FVec Ideal S5x8 .f32) (r : Fin 4194304) :
    rowR (Host.dotGeneral dot_S4194304x8_S8x5_S4194304x5_1_0_0_1_n_n none X (transpose S8x5 [1, 0] W transposes_S5x8_S8x5_1_0)) r
      = matO (fun j i => W (ix2 j i)) (rowR X r) := by
  funext j
  refine (Cert.LibHostDot.dotGeneral_apply _ none X _ r j).trans ?_
  refine Finset.sum_congr rfl fun i _ => ?_
  rw [transpose_ix2_apply]
  rfl

/-- Every row of the `[5]` bias broadcast over the rows is the bias. -/
theorem rowR_bias_5 (b : FVec Ideal S5 .f32) (r : Fin 4194304) :
    rowR (broadcastInDim S4194304x5 ![0, 1] bcast_S1x5_S4194304x5_0_1 (broadcastInDim S1x5 ![1] bcast_S5_S1x5_1 b)) r = fun j => b (ix1 j) :=
  funext fun j => bias_apply bcast_S5_S1x5_1 bcast_S1x5_S4194304x5_0_1 b r j

/-- Row `r` of the reference's product of a `[rows, 5]` array with the transposed `[3, 5]` weight. -/
theorem rowR_dot_5_3 (X : FVec Ideal S4194304x5 .f32) (W : FVec Ideal S3x5 .f32) (r : Fin 4194304) :
    rowR (Host.dotGeneral dot_S4194304x5_S5x3_S4194304x3_1_0_0_1_n_n none X (transpose S5x3 [1, 0] W transposes_S3x5_S5x3_1_0)) r
      = matO (fun j i => W (ix2 j i)) (rowR X r) := by
  funext j
  refine (Cert.LibHostDot.dotGeneral_apply _ none X _ r j).trans ?_
  refine Finset.sum_congr rfl fun i _ => ?_
  rw [transpose_ix2_apply]
  rfl

/-- Every row of the `[3]` bias broadcast over the rows is the bias. -/
theorem rowR_bias_3 (b : FVec Ideal S3 .f32) (r : Fin 4194304) :
    rowR (broadcastInDim S4194304x3 ![0, 1] bcast_S1x3_S4194304x3_0_1 (broadcastInDim S1x3 ![1] bcast_S3_S1x3_1 b)) r = fun j => b (ix1 j) :=
  funext fun j => bias_apply bcast_S3_S1x3_1 bcast_S1x3_S4194304x3_0_1 b r j

/-- Row `r` of the reference's product of a `[rows, 3]` array with the transposed `[1, 3]` weight. -/
theorem rowR_dot_3_1 (X : FVec Ideal S4194304x3 .f32) (W : FVec Ideal S1x3 .f32) (r : Fin 4194304) :
    rowR (Host.dotGeneral dot_S4194304x3_S3x1_S4194304x1_1_0_0_1_n_n none X (transpose S3x1 [1, 0] W transposes_S1x3_S3x1_1_0)) r
      = matO (fun j i => W (ix2 j i)) (rowR X r) := by
  funext j
  refine (Cert.LibHostDot.dotGeneral_apply _ none X _ r j).trans ?_
  refine Finset.sum_congr rfl fun i _ => ?_
  rw [transpose_ix2_apply]
  rfl

/-- Every row of the `[1]` bias broadcast over the rows is the bias. -/
theorem rowR_bias_1 (b : FVec Ideal S1 .f32) (r : Fin 4194304) :
    rowR (broadcastInDim S4194304x1 ![0, 1] bcast_S1x1_S4194304x1_0_1 (broadcastInDim S1x1 ![1] bcast_S1_S1x1_1 b)) r = fun j => b (ix1 j) :=
  funext fun j => bias_apply bcast_S1_S1x1_1 bcast_S1x1_S4194304x1_0_1 b r j

/-- A layer with its weight and bias read off their arrays. -/
abbrev hl {n o : ℕ} (W : (⟨2, ![o, n]⟩ : Shape).Idx → EReal) (b : (⟨1, ![o]⟩ : Shape).Idx → EReal) :
    (Fin n → EReal) → Fin o → EReal :=
  lin (fun j i => W (ix2 j i)) (fun j => b (ix1 j))

/-- Row `r` after layer 1. -/
theorem st1 (x0 : (⟨S4194304x8, .f32⟩ : BufTy).Contents (Elt Ideal)) (x1 : (⟨S8x8, .f32⟩ : BufTy).Contents (Elt Ideal)) (x2 : (⟨S8, .f32⟩ : BufTy).Contents (Elt Ideal)) (r : Fin 4194304) :
    rowR (val_main_v5 (F := Ideal) x0 x1 x2) r = th (hl x1 x2 (rowR x0 r)) := by
  unfold val_main_v5 val_main_v4 val_main_v3 val_main_v2 val_main_v1 val_main_v0
  simp only [rowR_tanh, rowR_addf]
  rw [rowR_dot_8_8, rowR_bias_8]
  rfl

/-- Row `r` after layer 2. -/
theorem st2 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (r : Fin 4194304) :
    rowR (val_main_v11 (F := Ideal) x0 x1 x2 x3 x4) r = c2 (hl x1 x2) (hl x3 x4) th (rowR x0 r) := by
  unfold val_main_v11 val_main_v10 val_main_v9 val_main_v8 val_main_v7 val_main_v6
  simp only [rowR_tanh, rowR_addf]
  rw [rowR_dot_8_8, rowR_bias_8, st1]
  unfold c2
  rfl

/-- Row `r` after layer 3. -/
theorem st3 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (r : Fin 4194304) :
    rowR (val_main_v17 (F := Ideal) x0 x1 x2 x3 x4 x5 x6) r = th (hl x5 x6 (c2 (hl x1 x2) (hl x3 x4) th (rowR x0 r))) := by
  unfold val_main_v17 val_main_v16 val_main_v15 val_main_v14 val_main_v13 val_main_v12
  simp only [rowR_tanh, rowR_addf]
  rw [rowR_dot_8_8, rowR_bias_8, st2]
  rfl

/-- Row `r` after layer 4. -/
theorem st4 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (r : Fin 4194304) :
    rowR (val_main_v23 (F := Ideal) x0 x1 x2 x3 x4 x5 x6 x7 x8) r = th (hl x7 x8 (th (hl x5 x6 (c2 (hl x1 x2) (hl x3 x4) th (rowR x0 r))))) := by
  unfold val_main_v23 val_main_v22 val_main_v21 val_main_v20 val_main_v19 val_main_v18
  simp only [rowR_tanh, rowR_addf]
  rw [rowR_dot_8_8, rowR_bias_8, st3]
  rfl

/-- Row `r` after layer 5. -/
theorem st5 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (r : Fin 4194304) :
    rowR (val_main_v30 (F := Ideal) x0 x1 x2 x3 x4 x5 x6 x7 x8 x9 x10) r = c5 (hl x1 x2) (hl x3 x4) (hl x5 x6) (hl x7 x8) (hl x9 x10) th vadd (rowR x0 r) := by
  unfold val_main_v30 val_main_v29 val_main_v28 val_main_v27 val_main_v26 val_main_v25 val_main_v24
  simp only [rowR_tanh, rowR_addf]
  rw [rowR_dot_8_8, rowR_bias_8, st4, st2]
  unfold c5
  rfl

/-- Row `r` after layer 6. -/
theorem st6 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (r : Fin 4194304) :
    rowR (val_main_v36 (F := Ideal) x0 x1 x2 x3 x4 x5 x6 x7 x8 x9 x10 x11 x12) r = th (hl x11 x12 (c5 (hl x1 x2) (hl x3 x4) (hl x5 x6) (hl x7 x8) (hl x9 x10) th vadd (rowR x0 r))) := by
  unfold val_main_v36 val_main_v35 val_main_v34 val_main_v33 val_main_v32 val_main_v31
  simp only [rowR_tanh, rowR_addf]
  rw [rowR_dot_8_8, rowR_bias_8, st5]
  rfl

/-- Row `r` after layer 7. -/
theorem st7 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (x13 : (⟨S8x8, .f32⟩ : BufTy).Contents (Elt Ideal)) (x14 : (⟨S8, .f32⟩ : BufTy).Contents (Elt Ideal)) (r : Fin 4194304) :
    rowR (val_main_v43 (F := Ideal) x0 x1 x2 x3 x4 x5 x6 x7 x8 x9 x10 x11 x12 x13 x14) r = c7 (hl x1 x2) (hl x3 x4) (hl x5 x6) (hl x7 x8) (hl x9 x10) (hl x11 x12) (hl x13 x14) th vadd (rowR x0 r) := by
  unfold val_main_v43 val_main_v42 val_main_v41 val_main_v40 val_main_v39 val_main_v38 val_main_v37
  simp only [rowR_tanh, rowR_addf]
  rw [rowR_dot_8_8, rowR_bias_8, st6, st5]
  unfold c7
  rfl

/-- Row `r` after layer 8. -/
theorem st8 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (x13 : (⟨S8x8, .f32⟩ : BufTy).Contents (Elt Ideal)) (x14 : (⟨S8, .f32⟩ : BufTy).Contents (Elt Ideal)) (x15 : (⟨S8x8, .f32⟩ : BufTy).Contents (Elt Ideal)) (x16 : (⟨S8, .f32⟩ : BufTy).Contents (Elt Ideal)) (r : Fin 4194304) :
    rowR (val_main_v49 (F := Ideal) x0 x1 x2 x3 x4 x5 x6 x7 x8 x9 x10 x11 x12 x13 x14 x15 x16) r = th (hl x15 x16 (c7 (hl x1 x2) (hl x3 x4) (hl x5 x6) (hl x7 x8) (hl x9 x10) (hl x11 x12) (hl x13 x14) th vadd (rowR x0 r))) := by
  unfold val_main_v49 val_main_v48 val_main_v47 val_main_v46 val_main_v45 val_main_v44
  simp only [rowR_tanh, rowR_addf]
  rw [rowR_dot_8_8, rowR_bias_8, st7]
  rfl

/-- Row `r` after layer 9. -/
theorem st9 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (x13 : (⟨S8x8, .f32⟩ : BufTy).Contents (Elt Ideal)) (x14 : (⟨S8, .f32⟩ : BufTy).Contents (Elt Ideal)) (x15 : (⟨S8x8, .f32⟩ : BufTy).Contents (Elt Ideal)) (x16 : (⟨S8, .f32⟩ : BufTy).Contents (Elt Ideal)) (x17 : (⟨S8x8, .f32⟩ : BufTy).Contents (Elt Ideal)) (x18 : (⟨S8, .f32⟩ : BufTy).Contents (Elt Ideal)) (r : Fin 4194304) :
    rowR (val_main_v56 (F := Ideal) x0 x1 x2 x3 x4 x5 x6 x7 x8 x9 x10 x11 x12 x13 x14 x15 x16 x17 x18) r = c9 (hl x1 x2) (hl x3 x4) (hl x5 x6) (hl x7 x8) (hl x9 x10) (hl x11 x12) (hl x13 x14) (hl x15 x16) (hl x17 x18) th vadd (rowR x0 r) := by
  unfold val_main_v56 val_main_v55 val_main_v54 val_main_v53 val_main_v52 val_main_v51 val_main_v50
  simp only [rowR_tanh, rowR_addf]
  rw [rowR_dot_8_8, rowR_bias_8, st8, st7]
  unfold c9
  rfl

/-- Row `r` after layer 10. -/
theorem st10 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (x13 : (⟨S8x8, .f32⟩ : BufTy).Contents (Elt Ideal)) (x14 : (⟨S8, .f32⟩ : BufTy).Contents (Elt Ideal)) (x15 : (⟨S8x8, .f32⟩ : BufTy).Contents (Elt Ideal)) (x16 : (⟨S8, .f32⟩ : BufTy).Contents (Elt Ideal)) (x17 : (⟨S8x8, .f32⟩ : BufTy).Contents (Elt Ideal)) (x18 : (⟨S8, .f32⟩ : BufTy).Contents (Elt Ideal)) (x19 : (⟨S5x8, .f32⟩ : BufTy).Contents (Elt Ideal)) (x20 : (⟨S5, .f32⟩ : BufTy).Contents (Elt Ideal)) (r : Fin 4194304) :
    rowR (val_main_v62 (F := Ideal) x0 x1 x2 x3 x4 x5 x6 x7 x8 x9 x10 x11 x12 x13 x14 x15 x16 x17 x18 x19 x20) r = th (hl x19 x20 (c9 (hl x1 x2) (hl x3 x4) (hl x5 x6) (hl x7 x8) (hl x9 x10) (hl x11 x12) (hl x13 x14) (hl x15 x16) (hl x17 x18) th vadd (rowR x0 r))) := by
  unfold val_main_v62 val_main_v61 val_main_v60 val_main_v59 val_main_v58 val_main_v57
  simp only [rowR_tanh, rowR_addf]
  rw [rowR_dot_8_5, rowR_bias_5, st9]
  rfl

/-- Row `r` after layer 11. -/
theorem st11 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (x13 : (⟨S8x8, .f32⟩ : BufTy).Contents (Elt Ideal)) (x14 : (⟨S8, .f32⟩ : BufTy).Contents (Elt Ideal)) (x15 : (⟨S8x8, .f32⟩ : BufTy).Contents (Elt Ideal)) (x16 : (⟨S8, .f32⟩ : BufTy).Contents (Elt Ideal)) (x17 : (⟨S8x8, .f32⟩ : BufTy).Contents (Elt Ideal)) (x18 : (⟨S8, .f32⟩ : BufTy).Contents (Elt Ideal)) (x19 : (⟨S5x8, .f32⟩ : BufTy).Contents (Elt Ideal)) (x20 : (⟨S5, .f32⟩ : BufTy).Contents (Elt Ideal)) (x21 : (⟨S3x5, .f32⟩ : BufTy).Contents (Elt Ideal)) (x22 : (⟨S3, .f32⟩ : BufTy).Contents (Elt Ideal)) (r : Fin 4194304) :
    rowR (val_main_v68 (F := Ideal) x0 x1 x2 x3 x4 x5 x6 x7 x8 x9 x10 x11 x12 x13 x14 x15 x16 x17 x18 x19 x20 x21 x22) r = th (hl x21 x22 (th (hl x19 x20 (c9 (hl x1 x2) (hl x3 x4) (hl x5 x6) (hl x7 x8) (hl x9 x10) (hl x11 x12) (hl x13 x14) (hl x15 x16) (hl x17 x18) th vadd (rowR x0 r))))) := by
  unfold val_main_v68 val_main_v67 val_main_v66 val_main_v65 val_main_v64 val_main_v63
  simp only [rowR_tanh, rowR_addf]
  rw [rowR_dot_5_3, rowR_bias_3, st10]
  rfl

/-- Row `r` after layer 12. -/
theorem st12 (x0 : (⟨S4194304x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x8, .f32⟩ : BufTy).Contents (Elt Ideal)) (x12 : (⟨S8, .f32⟩ : BufTy).Contents (Elt Ideal)) (x13 : (⟨S8x8, .f32⟩ : BufTy).Contents (Elt Ideal)) (x14 : (⟨S8, .f32⟩ : BufTy).Contents (Elt Ideal)) (x15 : (⟨S8x8, .f32⟩ : BufTy).Contents (Elt Ideal)) (x16 : (⟨S8, .f32⟩ : BufTy).Contents (Elt Ideal)) (x17 : (⟨S8x8, .f32⟩ : BufTy).Contents (Elt Ideal)) (x18 : (⟨S8, .f32⟩ : BufTy).Contents (Elt Ideal)) (x19 : (⟨S5x8, .f32⟩ : BufTy).Contents (Elt Ideal)) (x20 : (⟨S5, .f32⟩ : BufTy).Contents (Elt Ideal)) (x21 : (⟨S3x5, .f32⟩ : BufTy).Contents (Elt Ideal)) (x22 : (⟨S3, .f32⟩ : BufTy).Contents (Elt Ideal)) (x23 : (⟨S1x3, .f32⟩ : BufTy).Contents (Elt Ideal)) (x24 : (⟨S1, .f32⟩ : BufTy).Contents (Elt Ideal)) (r : Fin 4194304) :
    rowR (val_main_v73 (F := Ideal) x0 x1 x2 x3 x4 x5 x6 x7 x8 x9 x10 x11 x12 x13 x14 x15 x16 x17 x18 x19 x20 x21 x22 x23 x24) r = hl x23 x24 (th (hl x21 x22 (th (hl x19 x20 (c9 (hl x1 x2) (hl x3 x4) (hl x5 x6) (hl x7 x8) (hl x9 x10) (hl x11 x12) (hl x13 x14) (hl x15 x16) (hl x17 x18) th vadd (rowR x0 r)))))) := by
  unfold val_main_v73 val_main_v72 val_main_v71 val_main_v70 val_main_v69
  simp only [rowR_tanh, rowR_addf]
  rw [rowR_dot_3_1, rowR_bias_1, st11]
  rfl

/-- Row `r` of the reference's result is the perceptron of row `r` of `x`. -/
theorem res_row (m : (ℓ : Loc nD τ sig) → Buf (Elt Ideal) ℓ) (c : Dev nD) (r : Fin 4194304) :
    rowR (res_main_v73 (F := Ideal) m c) r
      = mlp (paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))) (rowR (m ((c.tc : Thread nD τ).loc main_arg0)) r) := by
  rw [Cert.ReferenceIdeal.Read.val_main_v73_eq, st12]
  rfl

end Cert.ReferenceIdeal.RefValue

end
-- ==== Proof.WinIdx.lean ====
/-
  Where each window's block sits at a grid point. The grid has 64 points; point `t` takes block row `t` of the
  packed input and of the packed output, and each weight or bias window sits at block (0, 0) at every point.
-/
import proofs.«141723_j17222818857346_2_alg».proof.Proof.Gen.KernelIdeal.Frame

noncomputable section

namespace Cert.KernelIdeal.WinIdx

open Idealize.ShloMosaic Idealize.ShloMosaic.TcCoe Idealize.SL.Sem
open Cert.KernelIdeal Cert.KernelIdeal.Gen

theorem hz : (![0, 0] : Fin 2 → Nat) = fun _ => 0 := funext fun a => by fin_cases a <;> rfl

theorem idx_x : ∀ t : Fin cfg0.N, win0_0.index t (0 : Fin 2) = t.val ∧ win0_0.index t (1 : Fin 2) = 0 :=
  (by decide +kernel : ∀ t : Fin grid0.N, _)
theorem idx_out : ∀ t : Fin cfg0.N, win0_25.index t (0 : Fin 2) = t.val ∧ win0_25.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 2) = 0 ∧ win0_18.index t (1 : Fin 2) = 0 :=
  (by decide +kernel : ∀ t : Fin grid0.N, _)
theorem idx_w19 : ∀ t : Fin cfg0.N, win0_19.index t (0 : Fin 2) = 0 ∧ win0_19.index t (1 : Fin 2) = 0 :=
  (by decide +kernel : ∀ t : Fin grid0.N, _)
theorem idx_w20 : ∀ t : Fin cfg0.N, win0_20.index t (0 : Fin 2) = 0 ∧ win0_20.index t (1 : Fin 2) = 0 :=
  (by decide +kernel : ∀ t : Fin grid0.N, _)
theorem idx_w21 : ∀ t : Fin cfg0.N, win0_21.index t (0 : Fin 2) = 0 ∧ win0_21.index t (1 : Fin 2) = 0 :=
  (by decide +kernel : ∀ t : Fin grid0.N, _)
theorem idx_w22 : ∀ t : Fin cfg0.N, win0_22.index t (0 : Fin 2) = 0 ∧ win0_22.index t (1 : Fin 2) = 0 :=
  (by decide +kernel : ∀ t : Fin grid0.N, _)
theorem idx_w23 : ∀ t : Fin cfg0.N, win0_23.index t (0 : Fin 2) = 0 ∧ win0_23.index t (1 : Fin 2) = 0 :=
  (by decide +kernel : ∀ t : Fin grid0.N, _)
theorem idx_w24 : ∀ t : Fin cfg0.N, win0_24.index t (0 : Fin 2) = 0 ∧ win0_24.index t (1 : Fin 2) = 0 :=
  (by decide +kernel : ∀ t : Fin grid0.N, _)

theorem lt_N (t : Fin cfg0.N) : t.val < 64 := Nat.lt_of_lt_of_eq t.isLt (N_0 : cfg0.N = 64)

end Cert.KernelIdeal.WinIdx

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.KernelBody.lean ====
/-
  The kernel body's arithmetic, one row of the block at a time.

  The body is twelve layers on a [4096, 128] block: a product with a [128, 128] weight accumulated into zeros
  (both operands first changed to a narrower format, which is the identity on extended reals), a [1, 128] bias
  row added to every row, `tanh`, and three skip sums. Row `r` of each layer's result depends on row `r` of its
  input only, so row `r` of the block the body stores is the twelve-layer chain of `MlpSpec` applied to row `r`
  of the block it loads, with the weights and biases read as plain functions of their coordinates.
-/
import proofs.«141723_j17222818857346_2_alg».proof.Proof.Gen.KernelIdeal.Skeleton
import proofs.«141723_j17222818857346_2_alg».proof.Proof.MlpSpec
import proofs.«141723_j17222818857346_2_alg».proof.Proof.LibKernelIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.Mlp

/-- Row `r` of a block. -/
def rowOf (A : S4096x128.Idx → EReal) (r : Fin 4096) : Fin 128 → EReal := fun k => A (ix2 r k)

/-- A weight as a function of its two coordinates. -/
def mat (W : S128x128.Idx → EReal) : Fin 128 → Fin 128 → EReal := fun k l => W (ix2 k l)

/-- A bias row as a function of the lane. -/
def vec (B : S1x128.Idx → EReal) : Fin 128 → EReal := fun l => B (ix2 (0 : Fin 1) l)

theorem rowOf_tanh (Y : FVec Ideal S4096x128 .f32) (r : Fin 4096) : rowOf (tanh Y) r = th (rowOf Y r) := rfl

theorem rowOf_addf (Y Z : FVec Ideal S4096x128 .f32) (r : Fin 4096) :
    rowOf (addf Y Z) r = vadd (rowOf Y r) (rowOf Z r) := rfl

/-- Row `r` of the product into zeros: the row times the weight. -/
theorem rowOf_matmul (cur : FVec Ideal S4096x128 .f32) (W : Vec Ideal S128x128 .f32) (r : Fin 4096) :
    rowOf (matmul dot_S4096x128_S128x128_S4096x128_1_0_0_1_n_n none (truncf .bf16 cur bitsLt_bf16_f32)
        (truncf .bf16 W bitsLt_bf16_f32) (constant S4096x128 .f32 0x00000000#32)) r
      = matT (mat W) (rowOf cur r) := by
  funext l
  exact Cert.LibKernelIdx.matmul_zero_apply _ none _ _ r l

/-- Every row of the broadcast bias is the bias row. -/
theorem rowOf_bcast (B : Vec Ideal S1x128 .f32) (r : Fin 4096) :
    rowOf (broadcastTo S4096x128 B broadcasts_S1x128_S4096x128) r = vec B :=
  funext fun l => broadcastTo_1b_ab_apply B broadcasts_S1x128_S4096x128 r l

/-- Row `r` after the bias row is added to every row. -/
theorem rowOf_bias (Y : FVec Ideal S4096x128 .f32) (B : Vec Ideal S1x128 .f32) (r : Fin 4096) :
    rowOf (addf Y (broadcastTo S4096x128 B broadcasts_S1x128_S4096x128)) r = vadd (rowOf Y r) (vec B) := by
  funext l
  show Y (ix2 r l) + broadcastTo S4096x128 B broadcasts_S1x128_S4096x128 (ix2 r l) = Y (ix2 r l) + B (ix2 (0 : Fin 1) l)
  rw [broadcastTo_1b_ab_apply]

/-- Row `r` of what the body stores is the chain of twelve layers of row `r` of what it loads. -/
theorem rowOf_body (x0 : Vec Ideal S4096x128 .f32) (w1 : Vec Ideal S128x128 .f32) (b1 : Vec Ideal S1x128 .f32) (w2 : Vec Ideal S128x128 .f32) (b2 : Vec Ideal S1x128 .f32) (w3 : Vec Ideal S128x128 .f32) (b3 : Vec Ideal S1x128 .f32) (w4 : Vec Ideal S128x128 .f32) (b4 : Vec Ideal S1x128 .f32) (w5 : Vec Ideal S128x128 .f32) (b5 : Vec Ideal S1x128 .f32) (w6 : Vec Ideal S128x128 .f32) (b6 : Vec Ideal S1x128 .f32) (w7 : Vec Ideal S128x128 .f32) (b7 : Vec Ideal S1x128 .f32) (w8 : Vec Ideal S128x128 .f32) (b8 : Vec Ideal S1x128 .f32) (w9 : Vec Ideal S128x128 .f32) (b9 : Vec Ideal S1x128 .f32) (w10 : Vec Ideal S128x128 .f32) (b10 : Vec Ideal S1x128 .f32) (w11 : Vec Ideal S128x128 .f32) (b11 : Vec Ideal S1x128 .f32) (w12 : Vec Ideal S128x128 .f32) (b12 : Vec Ideal S1x128 .f32) (r : Fin 4096) :
    rowOf (k0_pay1 (k0_pay6 w12)
        (k0_pay7 (k0_pay4 (k0_pay2 x0 w1 b1 w2 b2) (k0_pay3 x0 w1 b1 w2 b2 w3 b3 w4) b4 w5 b5 w6 b6 w7 b7)
          (k0_pay5 (k0_pay2 x0 w1 b1 w2 b2) (k0_pay3 x0 w1 b1 w2 b2 w3 b3 w4) b4 w5 b5 w6 b6 w7 b7 w8)
          b8 w9 b9 w10 b10 w11 b11)
        (constant S4096x128 .f32 0x00000000#32) b12) r
      = chain (linT (mat w1) (vec b1)) (linT (mat w2) (vec b2)) (linT (mat w3) (vec b3)) (linT (mat w4) (vec b4)) (linT (mat w5) (vec b5)) (linT (mat w6) (vec b6)) (linT (mat w7) (vec b7)) (linT (mat w8) (vec b8)) (linT (mat w9) (vec b9)) (linT (mat w10) (vec b10)) (linT (mat w11) (vec b11)) (linT (mat w12) (vec b12)) th vadd (rowOf x0 r) := by
  unfold k0_pay1 k0_pay7 k0_pay6 k0_pay5 k0_pay4 k0_pay3 k0_pay2 chain c9 c7 c5 c2
  simp only [shapeCast_self, rowOf_tanh, rowOf_bias, rowOf_addf, rowOf_bcast, rowOf_matmul, linT_eq]

end Cert.KernelIdeal.Body

end
-- ==== Proof.WinRead.lean ====
/-
  The loaded blocks read back off the arrays the region finds: point `t` loads rows `4096 t … 4096 t + 4095` of
  the packed input, and each of the twenty-four weight and bias windows holds its whole array at every point. Each
  fact is first stated for any contents of the window's array.
-/
import proofs.«141723_j17222818857346_2_alg».proof.Proof.WinIdx
import proofs.«141723_j17222818857346_2_alg».proof.Proof.KernelBody

noncomputable section

namespace Cert.KernelIdeal.WinRead

open Idealize.ShloMosaic Idealize.ShloMosaic.TcCoe Idealize.ShloMosaic.ValueIdx Idealize.SL.Sem
open Cert.KernelIdeal Cert.KernelIdeal.Gen Cert.KernelIdeal.Body Cert.KernelIdeal.WinIdx Cert.Mlp

variable (m : (ℓ : Loc nD τ sig) → Buf (Elt Ideal) ℓ)

/-- Row `p` of the input window's block at point `t` is row `4096 t + p` of its array. -/
theorem read_x (A : S262144x128.Idx → EReal) (t : Fin cfg0.N) (p : Fin 4096) (k : Fin 128) :
    ((cfg0.win 0).blk t).view.read (Elt Ideal) A (ix2 p k)
      = A (ix2 (⟨4096 * t.val + p.val, by have := lt_N t; omega⟩ : Fin 262144) k) := by
  show A (((cfg0.win 0).blk t).view.emb (ix2 p k)) = A (ix2 _ k)
  obtain ⟨e0, e1⟩ := idx_x t
  refine congrArg A (funext fun a => Fin.ext ?_)
  match a with
  | ⟨0, _⟩ => show win0_0.index t (0 : Fin 2) * 4096 + 1 * p.val = 4096 * t.val + p.val; omega
  | ⟨1, _⟩ => show win0_0.index t (1 : Fin 2) * 128 + 1 * k.val = k.val; omega

theorem row_iblk_0 (c : Dev nD) (t : Fin cfg0.N) (p : Fin 4096) :
    rowOf (iblk m c 0 t) p
      = fun k => V m c (Pipeline.arrRef spec0 0) (ix2 (⟨4096 * t.val + p.val, by have := lt_N t; omega⟩ : Fin 262144) k) :=
  funext fun k => read_x (V m c (Pipeline.arrRef spec0 0)) t p k

/-- Window 1's block at any point is its whole [128, 128] array. -/
theorem read_w1 (A : S128x128.Idx → EReal) (t : Fin cfg0.N) (k l : Fin 128) :
    ((cfg0.win 1).blk t).view.read (Elt Ideal) A (ix2 k l) = A (ix2 k l) := by
  show A (((cfg0.win 1).blk t).view.emb (ix2 k l)) = A (ix2 k l)
  obtain ⟨e0, e1⟩ := idx_w1 t
  refine congrArg A (funext fun a => Fin.ext ?_)
  match a with
  | ⟨0, _⟩ => show win0_1.index t (0 : Fin 2) * 128 + 1 * k.val = k.val; omega
  | ⟨1, _⟩ => show win0_1.index t (1 : Fin 2) * 128 + 1 * l.val = l.val; omega

theorem mat_iblk_1 (c : Dev nD) (t : Fin cfg0.N) :
    mat (iblk m c 1 t) = mat (V m c (Pipeline.arrRef spec0 1)) :=
  funext fun k => funext fun l => read_w1 (V m c (Pipeline.arrRef spec0 1)) t k l

/-- Window 2's block at any point is its whole [1, 128] array. -/
theorem read_w2 (A : S1x128.Idx → EReal) (t : Fin cfg0.N) (l : Fin 128) :
    ((cfg0.win 2).blk t).view.read (Elt Ideal) A (ix2 (0 : Fin 1) l) = A (ix2 (0 : Fin 1) l) := by
  show A (((cfg0.win 2).blk t).view.emb (ix2 (0 : Fin 1) l)) = A (ix2 (0 : Fin 1) l)
  obtain ⟨e0, e1⟩ := idx_w2 t
  refine congrArg A (funext fun a => Fin.ext ?_)
  match a with
  | ⟨0, _⟩ => show win0_2.index t (0 : Fin 2) * 1 + 1 * 0 = 0; omega
  | ⟨1, _⟩ => show win0_2.index t (1 : Fin 2) * 128 + 1 * l.val = l.val; omega

theorem vec_iblk_2 (c : Dev nD) (t : Fin cfg0.N) :
    vec (iblk m c 2 t) = vec (V m c (Pipeline.arrRef spec0 2)) :=
  funext fun l => read_w2 (V m c (Pipeline.arrRef spec0 2)) t l

/-- Window 3's block at any point is its whole [128, 128] array. -/
theorem read_w3 (A : S128x128.Idx → EReal) (t : Fin cfg0.N) (k l : Fin 128) :
    ((cfg0.win 3).blk t).view.read (Elt Ideal) A (ix2 k l) = A (ix2 k l) := by
  show A (((cfg0.win 3).blk t).view.emb (ix2 k l)) = A (ix2 k l)
  obtain ⟨e0, e1⟩ := idx_w3 t
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * l.val = l.val; omega

theorem mat_iblk_3 (c : Dev nD) (t : Fin cfg0.N) :
    mat (iblk m c 3 t) = mat (V m c (Pipeline.arrRef spec0 3)) :=
  funext fun k => funext fun l => read_w3 (V m c (Pipeline.arrRef spec0 3)) t k l

/-- Window 4's block at any point is its whole [1, 128] array. -/
theorem read_w4 (A : S1x128.Idx → EReal) (t : Fin cfg0.N) (l : Fin 128) :
    ((cfg0.win 4).blk t).view.read (Elt Ideal) A (ix2 (0 : Fin 1) l) = A (ix2 (0 : Fin 1) l) := by
  show A (((cfg0.win 4).blk t).view.emb (ix2 (0 : Fin 1) l)) = A (ix2 (0 : Fin 1) l)
  obtain ⟨e0, e1⟩ := idx_w4 t
  refine congrArg A (funext fun a => Fin.ext ?_)
  match a with
  | ⟨0, _⟩ => show win0_4.index t (0 : Fin 2) * 1 + 1 * 0 = 0; omega
  | ⟨1, _⟩ => show win0_4.index t (1 : Fin 2) * 128 + 1 * l.val = l.val; omega

theorem vec_iblk_4 (c : Dev nD) (t : Fin cfg0.N) :
    vec (iblk m c 4 t) = vec (V m c (Pipeline.arrRef spec0 4)) :=
  funext fun l => read_w4 (V m c (Pipeline.arrRef spec0 4)) t l

/-- Window 5's block at any point is its whole [128, 128] array. -/
theorem read_w5 (A : S128x128.Idx → EReal) (t : Fin cfg0.N) (k l : Fin 128) :
    ((cfg0.win 5).blk t).view.read (Elt Ideal) A (ix2 k l) = A (ix2 k l) := by
  show A (((cfg0.win 5).blk t).view.emb (ix2 k l)) = A (ix2 k l)
  obtain ⟨e0, e1⟩ := idx_w5 t
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * l.val = l.val; omega

theorem mat_iblk_5 (c : Dev nD) (t : Fin cfg0.N) :
    mat (iblk m c 5 t) = mat (V m c (Pipeline.arrRef spec0 5)) :=
  funext fun k => funext fun l => read_w5 (V m c (Pipeline.arrRef spec0 5)) t k l

/-- Window 6's block at any point is its whole [1, 128] array. -/
theorem read_w6 (A : S1x128.Idx → EReal) (t : Fin cfg0.N) (l : Fin 128) :
    ((cfg0.win 6).blk t).view.read (Elt Ideal) A (ix2 (0 : Fin 1) l) = A (ix2 (0 : Fin 1) l) := by
  show A (((cfg0.win 6).blk t).view.emb (ix2 (0 : Fin 1) l)) = A (ix2 (0 : Fin 1) l)
  obtain ⟨e0, e1⟩ := idx_w6 t
  refine congrArg A (funext fun a => Fin.ext ?_)
  match a with
  | ⟨0, _⟩ => show win0_6.index t (0 : Fin 2) * 1 + 1 * 0 = 0; omega
  | ⟨1, _⟩ => show win0_6.index t (1 : Fin 2) * 128 + 1 * l.val = l.val; omega

theorem vec_iblk_6 (c : Dev nD) (t : Fin cfg0.N) :
    vec (iblk m c 6 t) = vec (V m c (Pipeline.arrRef spec0 6)) :=
  funext fun l => read_w6 (V m c (Pipeline.arrRef spec0 6)) t l

/-- Window 7's block at any point is its whole [128, 128] array. -/
theorem read_w7 (A : S128x128.Idx → EReal) (t : Fin cfg0.N) (k l : Fin 128) :
    ((cfg0.win 7).blk t).view.read (Elt Ideal) A (ix2 k l) = A (ix2 k l) := by
  show A (((cfg0.win 7).blk t).view.emb (ix2 k l)) = A (ix2 k l)
  obtain ⟨e0, e1⟩ := idx_w7 t
  refine congrArg A (funext fun a => Fin.ext ?_)
  match a with
  | ⟨0, _⟩ => show win0_7.index t (0 : Fin 2) * 128 + 1 * k.val = k.val; omega
  | ⟨1, _⟩ => show win0_7.index t (1 : Fin 2) * 128 + 1 * l.val = l.val; omega

theorem mat_iblk_7 (c : Dev nD) (t : Fin cfg0.N) :
    mat (iblk m c 7 t) = mat (V m c (Pipeline.arrRef spec0 7)) :=
  funext fun k => funext fun l => read_w7 (V m c (Pipeline.arrRef spec0 7)) t k l

/-- Window 8's block at any point is its whole [1, 128] array. -/
theorem read_w8 (A : S1x128.Idx → EReal) (t : Fin cfg0.N) (l : Fin 128) :
    ((cfg0.win 8).blk t).view.read (Elt Ideal) A (ix2 (0 : Fin 1) l) = A (ix2 (0 : Fin 1) l) := by
  show A (((cfg0.win 8).blk t).view.emb (ix2 (0 : Fin 1) l)) = A (ix2 (0 : Fin 1) l)
  obtain ⟨e0, e1⟩ := idx_w8 t
  refine congrArg A (funext fun a => Fin.ext ?_)
  match a with
  | ⟨0, _⟩ => show win0_8.index t (0 : Fin 2) * 1 + 1 * 0 = 0; omega
  | ⟨1, _⟩ => show win0_8.index t (1 : Fin 2) * 128 + 1 * l.val = l.val; omega

theorem vec_iblk_8 (c : Dev nD) (t : Fin cfg0.N) :
    vec (iblk m c 8 t) = vec (V m c (Pipeline.arrRef spec0 8)) :=
  funext fun l => read_w8 (V m c (Pipeline.arrRef spec0 8)) t l

/-- Window 9's block at any point is its whole [128, 128] array. -/
theorem read_w9 (A : S128x128.Idx → EReal) (t : Fin cfg0.N) (k l : Fin 128) :
    ((cfg0.win 9).blk t).view.read (Elt Ideal) A (ix2 k l) = A (ix2 k l) := by
  show A (((cfg0.win 9).blk t).view.emb (ix2 k l)) = A (ix2 k l)
  obtain ⟨e0, e1⟩ := idx_w9 t
  refine congrArg A (funext fun a => Fin.ext ?_)
  match a with
  | ⟨0, _⟩ => show win0_9.index t (0 : Fin 2) * 128 + 1 * k.val = k.val; omega
  | ⟨1, _⟩ => show win0_9.index t (1 : Fin 2) * 128 + 1 * l.val = l.val; omega

theorem mat_iblk_9 (c : Dev nD) (t : Fin cfg0.N) :
    mat (iblk m c 9 t) = mat (V m c (Pipeline.arrRef spec0 9)) :=
  funext fun k => funext fun l => read_w9 (V m c (Pipeline.arrRef spec0 9)) t k l

/-- Window 10's block at any point is its whole [1, 128] array. -/
theorem read_w10 (A : S1x128.Idx → EReal) (t : Fin cfg0.N) (l : Fin 128) :
    ((cfg0.win 10).blk t).view.read (Elt Ideal) A (ix2 (0 : Fin 1) l) = A (ix2 (0 : Fin 1) l) := by
  show A (((cfg0.win 10).blk t).view.emb (ix2 (0 : Fin 1) l)) = A (ix2 (0 : Fin 1) l)
  obtain ⟨e0, e1⟩ := idx_w10 t
  refine congrArg A (funext fun a => Fin.ext ?_)
  match a with
  | ⟨0, _⟩ => show win0_10.index t (0 : Fin 2) * 1 + 1 * 0 = 0; omega
  | ⟨1, _⟩ => show win0_10.index t (1 : Fin 2) * 128 + 1 * l.val = l.val; omega

theorem vec_iblk_10 (c : Dev nD) (t : Fin cfg0.N) :
    vec (iblk m c 10 t) = vec (V m c (Pipeline.arrRef spec0 10)) :=
  funext fun l => read_w10 (V m c (Pipeline.arrRef spec0 10)) t l

/-- Window 11's block at any point is its whole [128, 128] array. -/
theorem read_w11 (A : S128x128.Idx → EReal) (t : Fin cfg0.N) (k l : Fin 128) :
    ((cfg0.win 11).blk t).view.read (Elt Ideal) A (ix2 k l) = A (ix2 k l) := by
  show A (((cfg0.win 11).blk t).view.emb (ix2 k l)) = A (ix2 k l)
  obtain ⟨e0, e1⟩ := idx_w11 t
  refine congrArg A (funext fun a => Fin.ext ?_)
  match a with
  | ⟨0, _⟩ => show win0_11.index t (0 : Fin 2) * 128 + 1 * k.val = k.val; omega
  | ⟨1, _⟩ => show win0_11.index t (1 : Fin 2) * 128 + 1 * l.val = l.val; omega

theorem mat_iblk_11 (c : Dev nD) (t : Fin cfg0.N) :
    mat (iblk m c 11 t) = mat (V m c (Pipeline.arrRef spec0 11)) :=
  funext fun k => funext fun l => read_w11 (V m c (Pipeline.arrRef spec0 11)) t k l

/-- Window 12's block at any point is its whole [1, 128] array. -/
theorem read_w12 (A : S1x128.Idx → EReal) (t : Fin cfg0.N) (l : Fin 128) :
    ((cfg0.win 12).blk t).view.read (Elt Ideal) A (ix2 (0 : Fin 1) l) = A (ix2 (0 : Fin 1) l) := by
  show A (((cfg0.win 12).blk t).view.emb (ix2 (0 : Fin 1) l)) = A (ix2 (0 : Fin 1) l)
  obtain ⟨e0, e1⟩ := idx_w12 t
  refine congrArg A (funext fun a => Fin.ext ?_)
  match a with
  | ⟨0, _⟩ => show win0_12.index t (0 : Fin 2) * 1 + 1 * 0 = 0; omega
  | ⟨1, _⟩ => show win0_12.index t (1 : Fin 2) * 128 + 1 * l.val = l.val; omega

theorem vec_iblk_12 (c : Dev nD) (t : Fin cfg0.N) :
    vec (iblk m c 12 t) = vec (V m c (Pipeline.arrRef spec0 12)) :=
  funext fun l => read_w12 (V m c (Pipeline.arrRef spec0 12)) t l

/-- Window 13's block at any point is its whole [128, 128] array. -/
theorem read_w13 (A : S128x128.Idx → EReal) (t : Fin cfg0.N) (k l : Fin 128) :
    ((cfg0.win 13).blk t).view.read (Elt Ideal) A (ix2 k l) = A (ix2 k l) := by
  show A (((cfg0.win 13).blk t).view.emb (ix2 k l)) = A (ix2 k l)
  obtain ⟨e0, e1⟩ := idx_w13 t
  refine congrArg A (funext fun a => Fin.ext ?_)
  match a with
  | ⟨0, _⟩ => show win0_13.index t (0 : Fin 2) * 128 + 1 * k.val = k.val; omega
  | ⟨1, _⟩ => show win0_13.index t (1 : Fin 2) * 128 + 1 * l.val = l.val; omega

theorem mat_iblk_13 (c : Dev nD) (t : Fin cfg0.N) :
    mat (iblk m c 13 t) = mat (V m c (Pipeline.arrRef spec0 13)) :=
  funext fun k => funext fun l => read_w13 (V m c (Pipeline.arrRef spec0 13)) t k l

/-- Window 14's block at any point is its whole [1, 128] array. -/
theorem read_w14 (A : S1x128.Idx → EReal) (t : Fin cfg0.N) (l : Fin 128) :
    ((cfg0.win 14).blk t).view.read (Elt Ideal) A (ix2 (0 : Fin 1) l) = A (ix2 (0 : Fin 1) l) := by
  show A (((cfg0.win 14).blk t).view.emb (ix2 (0 : Fin 1) l)) = A (ix2 (0 : Fin 1) l)
  obtain ⟨e0, e1⟩ := idx_w14 t
  refine congrArg A (funext fun a => Fin.ext ?_)
  match a with
  | ⟨0, _⟩ => show win0_14.index t (0 : Fin 2) * 1 + 1 * 0 = 0; omega
  | ⟨1, _⟩ => show win0_14.index t (1 : Fin 2) * 128 + 1 * l.val = l.val; omega

theorem vec_iblk_14 (c : Dev nD) (t : Fin cfg0.N) :
    vec (iblk m c 14 t) = vec (V m c (Pipeline.arrRef spec0 14)) :=
  funext fun l => read_w14 (V m c (Pipeline.arrRef spec0 14)) t l

/-- Window 15's block at any point is its whole [128, 128] array. -/
theorem read_w15 (A : S128x128.Idx → EReal) (t : Fin cfg0.N) (k l : Fin 128) :
    ((cfg0.win 15).blk t).view.read (Elt Ideal) A (ix2 k l) = A (ix2 k l) := by
  show A (((cfg0.win 15).blk t).view.emb (ix2 k l)) = A (ix2 k l)
  obtain ⟨e0, e1⟩ := idx_w15 t
  refine congrArg A (funext fun a => Fin.ext ?_)
  match a with
  | ⟨0, _⟩ => show win0_15.index t (0 : Fin 2) * 128 + 1 * k.val = k.val; omega
  | ⟨1, _⟩ => show win0_15.index t (1 : Fin 2) * 128 + 1 * l.val = l.val; omega

theorem mat_iblk_15 (c : Dev nD) (t : Fin cfg0.N) :
    mat (iblk m c 15 t) = mat (V m c (Pipeline.arrRef spec0 15)) :=
  funext fun k => funext fun l => read_w15 (V m c (Pipeline.arrRef spec0 15)) t k l

/-- Window 16's block at any point is its whole [1, 128] array. -/
theorem read_w16 (A : S1x128.Idx → EReal) (t : Fin cfg0.N) (l : Fin 128) :
    ((cfg0.win 16).blk t).view.read (Elt Ideal) A (ix2 (0 : Fin 1) l) = A (ix2 (0 : Fin 1) l) := by
  show A (((cfg0.win 16).blk t).view.emb (ix2 (0 : Fin 1) l)) = A (ix2 (0 : Fin 1) l)
  obtain ⟨e0, e1⟩ := idx_w16 t
  refine congrArg A (funext fun a => Fin.ext ?_)
  match a with
  | ⟨0, _⟩ => show win0_16.index t (0 : Fin 2) * 1 + 1 * 0 = 0; omega
  | ⟨1, _⟩ => show win0_16.index t (1 : Fin 2) * 128 + 1 * l.val = l.val; omega

theorem vec_iblk_16 (c : Dev nD) (t : Fin cfg0.N) :
    vec (iblk m c 16 t) = vec (V m c (Pipeline.arrRef spec0 16)) :=
  funext fun l => read_w16 (V m c (Pipeline.arrRef spec0 16)) t l

/-- Window 17's block at any point is its whole [128, 128] array. -/
theorem read_w17 (A : S128x128.Idx → EReal) (t : Fin cfg0.N) (k l : Fin 128) :
    ((cfg0.win 17).blk t).view.read (Elt Ideal) A (ix2 k l) = A (ix2 k l) := by
  show A (((cfg0.win 17).blk t).view.emb (ix2 k l)) = A (ix2 k l)
  obtain ⟨e0, e1⟩ := idx_w17 t
  refine congrArg A (funext fun a => Fin.ext ?_)
  match a with
  | ⟨0, _⟩ => show win0_17.index t (0 : Fin 2) * 128 + 1 * k.val = k.val; omega
  | ⟨1, _⟩ => show win0_17.index t (1 : Fin 2) * 128 + 1 * l.val = l.val; omega

theorem mat_iblk_17 (c : Dev nD) (t : Fin cfg0.N) :
    mat (iblk m c 17 t) = mat (V m c (Pipeline.arrRef spec0 17)) :=
  funext fun k => funext fun l => read_w17 (V m c (Pipeline.arrRef spec0 17)) t k l

/-- Window 18's block at any point is its whole [1, 128] array. -/
theorem read_w18 (A : S1x128.Idx → EReal) (t : Fin cfg0.N) (l : Fin 128) :
    ((cfg0.win 18).blk t).view.read (Elt Ideal) A (ix2 (0 : Fin 1) l) = A (ix2 (0 : Fin 1) l) := by
  show A (((cfg0.win 18).blk t).view.emb (ix2 (0 : Fin 1) l)) = A (ix2 (0 : Fin 1) l)
  obtain ⟨e0, e1⟩ := idx_w18 t
  refine congrArg A (funext fun a => Fin.ext ?_)
  match a with
  | ⟨0, _⟩ => show win0_18.index t (0 : Fin 2) * 1 + 1 * 0 = 0; omega
  | ⟨1, _⟩ => show win0_18.index t (1 : Fin 2) * 128 + 1 * l.val = l.val; omega

theorem vec_iblk_18 (c : Dev nD) (t : Fin cfg0.N) :
    vec (iblk m c 18 t) = vec (V m c (Pipeline.arrRef spec0 18)) :=
  funext fun l => read_w18 (V m c (Pipeline.arrRef spec0 18)) t l

/-- Window 19's block at any point is its whole [128, 128] array. -/
theorem read_w19 (A : S128x128.Idx → EReal) (t : Fin cfg0.N) (k l : Fin 128) :
    ((cfg0.win 19).blk t).view.read (Elt Ideal) A (ix2 k l) = A (ix2 k l) := by
  show A (((cfg0.win 19).blk t).view.emb (ix2 k l)) = A (ix2 k l)
  obtain ⟨e0, e1⟩ := idx_w19 t
  refine congrArg A (funext fun a => Fin.ext ?_)
  match a with
  | ⟨0, _⟩ => show win0_19.index t (0 : Fin 2) * 128 + 1 * k.val = k.val; omega
  | ⟨1, _⟩ => show win0_19.index t (1 : Fin 2) * 128 + 1 * l.val = l.val; omega

theorem mat_iblk_19 (c : Dev nD) (t : Fin cfg0.N) :
    mat (iblk m c 19 t) = mat (V m c (Pipeline.arrRef spec0 19)) :=
  funext fun k => funext fun l => read_w19 (V m c (Pipeline.arrRef spec0 19)) t k l

/-- Window 20's block at any point is its whole [1, 128] array. -/
theorem read_w20 (A : S1x128.Idx → EReal) (t : Fin cfg0.N) (l : Fin 128) :
    ((cfg0.win 20).blk t).view.read (Elt Ideal) A (ix2 (0 : Fin 1) l) = A (ix2 (0 : Fin 1) l) := by
  show A (((cfg0.win 20).blk t).view.emb (ix2 (0 : Fin 1) l)) = A (ix2 (0 : Fin 1) l)
  obtain ⟨e0, e1⟩ := idx_w20 t
  refine congrArg A (funext fun a => Fin.ext ?_)
  match a with
  | ⟨0, _⟩ => show win0_20.index t (0 : Fin 2) * 1 + 1 * 0 = 0; omega
  | ⟨1, _⟩ => show win0_20.index t (1 : Fin 2) * 128 + 1 * l.val = l.val; omega

theorem vec_iblk_20 (c : Dev nD) (t : Fin cfg0.N) :
    vec (iblk m c 20 t) = vec (V m c (Pipeline.arrRef spec0 20)) :=
  funext fun l => read_w20 (V m c (Pipeline.arrRef spec0 20)) t l

/-- Window 21's block at any point is its whole [128, 128] array. -/
theorem read_w21 (A : S128x128.Idx → EReal) (t : Fin cfg0.N) (k l : Fin 128) :
    ((cfg0.win 21).blk t).view.read (Elt Ideal) A (ix2 k l) = A (ix2 k l) := by
  show A (((cfg0.win 21).blk t).view.emb (ix2 k l)) = A (ix2 k l)
  obtain ⟨e0, e1⟩ := idx_w21 t
  refine congrArg A (funext fun a => Fin.ext ?_)
  match a with
  | ⟨0, _⟩ => show win0_21.index t (0 : Fin 2) * 128 + 1 * k.val = k.val; omega
  | ⟨1, _⟩ => show win0_21.index t (1 : Fin 2) * 128 + 1 * l.val = l.val; omega

theorem mat_iblk_21 (c : Dev nD) (t : Fin cfg0.N) :
    mat (iblk m c 21 t) = mat (V m c (Pipeline.arrRef spec0 21)) :=
  funext fun k => funext fun l => read_w21 (V m c (Pipeline.arrRef spec0 21)) t k l

/-- Window 22's block at any point is its whole [1, 128] array. -/
theorem read_w22 (A : S1x128.Idx → EReal) (t : Fin cfg0.N) (l : Fin 128) :
    ((cfg0.win 22).blk t).view.read (Elt Ideal) A (ix2 (0 : Fin 1) l) = A (ix2 (0 : Fin 1) l) := by
  show A (((cfg0.win 22).blk t).view.emb (ix2 (0 : Fin 1) l)) = A (ix2 (0 : Fin 1) l)
  obtain ⟨e0, e1⟩ := idx_w22 t
  refine congrArg A (funext fun a => Fin.ext ?_)
  match a with
  | ⟨0, _⟩ => show win0_22.index t (0 : Fin 2) * 1 + 1 * 0 = 0; omega
  | ⟨1, _⟩ => show win0_22.index t (1 : Fin 2) * 128 + 1 * l.val = l.val; omega

theorem vec_iblk_22 (c : Dev nD) (t : Fin cfg0.N) :
    vec (iblk m c 22 t) = vec (V m c (Pipeline.arrRef spec0 22)) :=
  funext fun l => read_w22 (V m c (Pipeline.arrRef spec0 22)) t l

/-- Window 23's block at any point is its whole [128, 128] array. -/
theorem read_w23 (A : S128x128.Idx → EReal) (t : Fin cfg0.N) (k l : Fin 128) :
    ((cfg0.win 23).blk t).view.read (Elt Ideal) A (ix2 k l) = A (ix2 k l) := by
  show A (((cfg0.win 23).blk t).view.emb (ix2 k l)) = A (ix2 k l)
  obtain ⟨e0, e1⟩ := idx_w23 t
  refine congrArg A (funext fun a => Fin.ext ?_)
  match a with
  | ⟨0, _⟩ => show win0_23.index t (0 : Fin 2) * 128 + 1 * k.val = k.val; omega
  | ⟨1, _⟩ => show win0_23.index t (1 : Fin 2) * 128 + 1 * l.val = l.val; omega

theorem mat_iblk_23 (c : Dev nD) (t : Fin cfg0.N) :
    mat (iblk m c 23 t) = mat (V m c (Pipeline.arrRef spec0 23)) :=
  funext fun k => funext fun l => read_w23 (V m c (Pipeline.arrRef spec0 23)) t k l

/-- Window 24's block at any point is its whole [1, 128] array. -/
theorem read_w24 (A : S1x128.Idx → EReal) (t : Fin cfg0.N) (l : Fin 128) :
    ((cfg0.win 24).blk t).view.read (Elt Ideal) A (ix2 (0 : Fin 1) l) = A (ix2 (0 : Fin 1) l) := by
  show A (((cfg0.win 24).blk t).view.emb (ix2 (0 : Fin 1) l)) = A (ix2 (0 : Fin 1) l)
  obtain ⟨e0, e1⟩ := idx_w24 t
  refine congrArg A (funext fun a => Fin.ext ?_)
  match a with
  | ⟨0, _⟩ => show win0_24.index t (0 : Fin 2) * 1 + 1 * 0 = 0; omega
  | ⟨1, _⟩ => show win0_24.index t (1 : Fin 2) * 128 + 1 * l.val = l.val; omega

theorem vec_iblk_24 (c : Dev nD) (t : Fin cfg0.N) :
    vec (iblk m c 24 t) = vec (V m c (Pipeline.arrRef spec0 24)) :=
  funext fun l => read_w24 (V m c (Pipeline.arrRef spec0 24)) t l

/-- Entry `(p, q)` of the output block at point `t` is entry `(4096 t + p, q)` of the packed output. -/
theorem emb_out (t : Fin cfg0.N) (p : Fin 4096) (q : Fin 128) :
    ((cfg0.win 25).blk t).view.emb (ix2 p q)
      = ix2 (⟨4096 * t.val + p.val, by have := lt_N t; omega⟩ : Fin 262144) q := by
  obtain ⟨e0, e1⟩ := idx_out t
  refine funext fun a => Fin.ext ?_
  match a with
  | ⟨0, _⟩ => show win0_25.index t (0 : Fin 2) * 4096 + 1 * p.val = 4096 * t.val + p.val; omega
  | ⟨1, _⟩ => show win0_25.index t (1 : Fin 2) * 128 + 1 * q.val = q.val; omega

end Cert.KernelIdeal.WinRead

end
-- ==== Proof.KernelValue.lean ====
/-
  The packed output array after the region. Row `r` of it is the twelve-layer chain of row `r` of the packed
  input, the weights and biases being the arrays the region finds: each grid point writes back rows
  `4096 t … 4096 t + 4095` of exactly this function (the body acts row by row), and the 64 points cover all
  262144 rows.
-/
import proofs.«141723_j17222818857346_2_alg».proof.Proof.WinRead
import Idealize.ShloMosaic.Lib.Pipeline.Value

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Body Cert.KernelIdeal.WinIdx Cert.KernelIdeal.WinRead Cert.Mlp

/-- The chain of twelve packed layers applied to every row of `X`. -/
def packedG (X : S262144x128.Idx → EReal) (w1 : S128x128.Idx → EReal) (b1 : S1x128.Idx → EReal) (w2 : S128x128.Idx → EReal) (b2 : S1x128.Idx → EReal) (w3 : S128x128.Idx → EReal) (b3 : S1x128.Idx → EReal) (w4 : S128x128.Idx → EReal) (b4 : S1x128.Idx → EReal) (w5 : S128x128.Idx → EReal) (b5 : S1x128.Idx → EReal) (w6 : S128x128.Idx → EReal) (b6 : S1x128.Idx → EReal) (w7 : S128x128.Idx → EReal) (b7 : S1x128.Idx → EReal) (w8 : S128x128.Idx → EReal) (b8 : S1x128.Idx → EReal) (w9 : S128x128.Idx → EReal) (b9 : S1x128.Idx → EReal) (w10 : S128x128.Idx → EReal) (b10 : S1x128.Idx → EReal) (w11 : S128x128.Idx → EReal) (b11 : S1x128.Idx → EReal) (w12 : S128x128.Idx → EReal) (b12 : S1x128.Idx → EReal) : S262144x128.Idx → EReal := fun i =>
  chain (linT (mat w1) (vec b1)) (linT (mat w2) (vec b2)) (linT (mat w3) (vec b3)) (linT (mat w4) (vec b4)) (linT (mat w5) (vec b5)) (linT (mat w6) (vec b6)) (linT (mat w7) (vec b7)) (linT (mat w8) (vec b8)) (linT (mat w9) (vec b9)) (linT (mat w10) (vec b10)) (linT (mat w11) (vec b11)) (linT (mat w12) (vec b12)) th vadd (fun k => X (ix2 (i 0) k)) (i 1)

variable (m : (ℓ : Loc nD τ sig) → Buf (Elt Ideal) ℓ)

/-- The packed output as a function of the arrays the region finds. -/
def result (c : Dev nD) : S262144x128.Idx → EReal :=
  packedG (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24))

/-- Equal layers and equal inputs give equal chains. -/
theorem chain_congr {V : Type} {L1 L2 L3 L4 L5 L6 L7 L8 L9 L10 L11 L12 M1 M2 M3 M4 M5 M6 M7 M8 M9 M10 M11 M12 : V → V}
    {T : V → V} {A : V → V → V} {x y : V}
    (h1 : L1 = M1) (h2 : L2 = M2) (h3 : L3 = M3) (h4 : L4 = M4) (h5 : L5 = M5) (h6 : L6 = M6) (h7 : L7 = M7)
    (h8 : L8 = M8) (h9 : L9 = M9) (h10 : L10 = M10) (h11 : L11 = M11) (h12 : L12 = M12) (hx : x = y) :
    chain L1 L2 L3 L4 L5 L6 L7 L8 L9 L10 L11 L12 T A x = chain M1 M2 M3 M4 M5 M6 M7 M8 M9 M10 M11 M12 T A y := by
  subst h1 h2 h3 h4 h5 h6 h7 h8 h9 h10 h11 h12 hx
  rfl

/-- What the body stores, at `(p, q)`, for any loaded blocks: the chain of row `p` of the input block, at `q`. -/
theorem out_block_apply (x0 : Vec Ideal S4096x128 .f32) (x1 : Vec Ideal S128x128 .f32) (x2 : Vec Ideal S1x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S128x128 .f32) (x22 : Vec Ideal S1x128 .f32) (x23 : Vec Ideal S128x128 .f32) (x24 : Vec Ideal S1x128 .f32) (p : Fin 4096) (q : Fin 128) :
    out0_25 x0 x1 x2 x3 x4 x5 x6 x7 x8 x9 x10 x11 x12 x13 x14 x15 x16 x17 x18 x19 x20 x21 x22 x23 x24 (ix2 p q) = chain (linT (mat x1) (vec x2)) (linT (mat x3) (vec x4)) (linT (mat x5) (vec x6)) (linT (mat x7) (vec x8)) (linT (mat x9) (vec x10)) (linT (mat x11) (vec x12)) (linT (mat x13) (vec x14)) (linT (mat x15) (vec x16)) (linT (mat x17) (vec x18)) (linT (mat x19) (vec x20)) (linT (mat x21) (vec x22)) (linT (mat x23) (vec x24)) th vadd (rowOf x0 p) q := by
  unfold out0_25
  rw [View.canon_unit_zero hz]
  simp only [View.ld_unit_zero (S := S4096x128) hz, View.ld_unit_zero (S := S128x128) hz, View.ld_unit_zero (S := S1x128) hz]
  exact congrFun (rowOf_body x0 x1 x2 x3 x4 x5 x6 x7 x8 x9 x10 x11 x12 x13 x14 x15 x16 x17 x18 x19 x20 x21 x22 x23 x24 p) q

/-- The output window is written back whole. -/
theorem cut_id (t : Fin cfg0.N) (Z : Vec Ideal S4096x128 .f32) : (cfg0.win 25).cut (grid0.coords t) Z = Z := rfl

set_option maxHeartbeats 4000000 in
/-- What point `t` writes back is block `t` of `result`. -/
theorem flushed_eq (c : Dev nD) (t : Fin cfg0.N) :
    (dats m 0 c).flushed 25 t = ((cfg0.win 25).blk t).view.read (Elt Ideal) (result m c) := by
  show (cfg0.win 25).cut (grid0.coords t) ((dats m 0 c).after 25 t) = _
  rw [after0_25]
  funext y
  obtain ⟨p, q, rfl⟩ : ∃ (p : Fin 4096) (q : Fin 128), y = ix2 p q := ⟨y 0, y 1, eq_ix2 y⟩
  refine (congrFun (cut_id t _) (ix2 p q)).trans ?_
  refine (out_block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p q).trans ?_
  have hchain : chain (linT (mat (iblk m c 1 t)) (vec (iblk m c 2 t))) (linT (mat (iblk m c 3 t)) (vec (iblk m c 4 t))) (linT (mat (iblk m c 5 t)) (vec (iblk m c 6 t))) (linT (mat (iblk m c 7 t)) (vec (iblk m c 8 t))) (linT (mat (iblk m c 9 t)) (vec (iblk m c 10 t))) (linT (mat (iblk m c 11 t)) (vec (iblk m c 12 t))) (linT (mat (iblk m c 13 t)) (vec (iblk m c 14 t))) (linT (mat (iblk m c 15 t)) (vec (iblk m c 16 t))) (linT (mat (iblk m c 17 t)) (vec (iblk m c 18 t))) (linT (mat (iblk m c 19 t)) (vec (iblk m c 20 t))) (linT (mat (iblk m c 21 t)) (vec (iblk m c 22 t))) (linT (mat (iblk m c 23 t)) (vec (iblk m c 24 t))) th vadd (rowOf (iblk m c 0 t) p) q
      = chain (linT (mat (V m c (Pipeline.arrRef spec0 1))) (vec (V m c (Pipeline.arrRef spec0 2)))) (linT (mat (V m c (Pipeline.arrRef spec0 3))) (vec (V m c (Pipeline.arrRef spec0 4)))) (linT (mat (V m c (Pipeline.arrRef spec0 5))) (vec (V m c (Pipeline.arrRef spec0 6)))) (linT (mat (V m c (Pipeline.arrRef spec0 7))) (vec (V m c (Pipeline.arrRef spec0 8)))) (linT (mat (V m c (Pipeline.arrRef spec0 9))) (vec (V m c (Pipeline.arrRef spec0 10)))) (linT (mat (V m c (Pipeline.arrRef spec0 11))) (vec (V m c (Pipeline.arrRef spec0 12)))) (linT (mat (V m c (Pipeline.arrRef spec0 13))) (vec (V m c (Pipeline.arrRef spec0 14)))) (linT (mat (V m c (Pipeline.arrRef spec0 15))) (vec (V m c (Pipeline.arrRef spec0 16)))) (linT (mat (V m c (Pipeline.arrRef spec0 17))) (vec (V m c (Pipeline.arrRef spec0 18)))) (linT (mat (V m c (Pipeline.arrRef spec0 19))) (vec (V m c (Pipeline.arrRef spec0 20)))) (linT (mat (V m c (Pipeline.arrRef spec0 21))) (vec (V m c (Pipeline.arrRef spec0 22)))) (linT (mat (V m c (Pipeline.arrRef spec0 23))) (vec (V m c (Pipeline.arrRef spec0 24)))) th vadd
          (fun k => V m c (Pipeline.arrRef spec0 0) (ix2 (⟨4096 * t.val + p.val, by have := lt_N t; omega⟩ : Fin 262144) k)) q :=
    congrFun (chain_congr
      (h1 := by rw [mat_iblk_1 m c t, vec_iblk_2 m c t])
      (h2 := by rw [mat_iblk_3 m c t, vec_iblk_4 m c t])
      (h3 := by rw [mat_iblk_5 m c t, vec_iblk_6 m c t])
      (h4 := by rw [mat_iblk_7 m c t, vec_iblk_8 m c t])
      (h5 := by rw [mat_iblk_9 m c t, vec_iblk_10 m c t])
      (h6 := by rw [mat_iblk_11 m c t, vec_iblk_12 m c t])
      (h7 := by rw [mat_iblk_13 m c t, vec_iblk_14 m c t])
      (h8 := by rw [mat_iblk_15 m c t, vec_iblk_16 m c t])
      (h9 := by rw [mat_iblk_17 m c t, vec_iblk_18 m c t])
      (h10 := by rw [mat_iblk_19 m c t, vec_iblk_20 m c t])
      (h11 := by rw [mat_iblk_21 m c t, vec_iblk_22 m c t])
      (h12 := by rw [mat_iblk_23 m c t, vec_iblk_24 m c t])
      (hx := row_iblk_0 m c t p)) q
  refine hchain.trans ?_
  show _ = result m c (((cfg0.win 25).blk t).view.emb (ix2 p q))
  rw [emb_out t p q]
  rfl

/-- An index of the packed output is in point `t`'s block iff each coordinate is in the block's range. -/
theorem mem_blk (t : Fin cfg0.N) (i : S262144x128.Idx) :
    i ∈ ((cfg0.win 25).blk t).view.set ↔ ∀ a : Fin 2, win0_25.index t a * S4096x128.size a ≤ (i a).val
      ∧ (i a).val < win0_25.index t a * S4096x128.size a + S4096x128.size a := by
  show i ∈ ((View.whole main_v203).slice (win0_25.rect t)).set ↔ _
  rw [View.set_slice_whole, Rect.mem_set_unit]
  exact Iff.rfl

/-- Row `r` is written back by point `r / 4096`. -/
theorem cover (i : S262144x128.Idx) :
    ∃ t : Fin cfg0.N, (cfg0.win 25).flush t = true ∧ i ∈ ((cfg0.win 25).blk t).view.set := by
  have hi0 : (i 0).val < 262144 := (i 0).isLt
  have hi1 : (i 1).val < 128 := (i 1).isLt
  have hN : (i 0).val / 4096 < cfg0.N := by rw [show cfg0.N = 64 from N_0]; omega
  refine ⟨⟨(i 0).val / 4096, hN⟩, flush0_25 _, ?_⟩
  rw [mem_blk]
  obtain ⟨e0, e1⟩ := idx_out ⟨(i 0).val / 4096, hN⟩
  have e0' : win0_25.index ⟨(i 0).val / 4096, hN⟩ (0 : Fin 2) = (i 0).val / 4096 := e0
  intro a
  match a with
  | ⟨0, _⟩ =>
    show win0_25.index ⟨(i 0).val / 4096, hN⟩ (0 : Fin 2) * 4096 ≤ (i 0).val
      ∧ (i 0).val < win0_25.index ⟨(i 0).val / 4096, hN⟩ (0 : Fin 2) * 4096 + 4096
    omega
  | ⟨1, _⟩ =>
    show win0_25.index ⟨(i 0).val / 4096, hN⟩ (1 : Fin 2) * 128 ≤ (i 1).val
      ∧ (i 1).val < win0_25.index ⟨(i 0).val / 4096, hN⟩ (1 : Fin 2) * 128 + 128
    omega

/-- The packed output array after the run. -/
theorem final (c : Dev nD) : (dats m 0 c).arrAt 25 cfg0.N = result m c :=
  (dats m 0 c).arrAt_eq_of_cover 25 (result m c) (fun t _ => flushed_eq m c t) cover

end Cert.KernelIdeal.KernelValue

end
-- ==== Proof.KernelRun.lean ====
/-
  The kernel program's run with its result named. After the region the host regroups the packed output back to
  [4194304, 8] and keeps column 0; the packed output is `KernelValue.result`, so the program's one result is that
  function regrouped and sliced, and the argument arrays end unchanged.
-/
import proofs.«141723_j17222818857346_2_alg».proof.Proof.KernelValue
import Idealize.ShloMosaic.Lib.StableHlo.Run

noncomputable section

namespace Cert.KernelIdeal.KernelRun

open Idealize.ShloMosaic Idealize.ShloMosaic.TcCoe Idealize.ShloMosaic.ValueIdx Idealize.SL.Sem Idealize.ShloMosaic.StableHlo
open Cert.KernelIdeal Cert.KernelIdeal.Gen Cert.KernelIdeal.KernelValue

/-- The host operations after the region, on any contents: regroup, keep column 0. -/
theorem tail_apply (Wv : Valuation τ sig (Elt Ideal)) :
    StableHlo.after hostOps1 Wv (Proc.devRef .tc main_v205)
      = extractStridedSlice S4194304x1 ![0, 0]
          (shapeCast S4194304x8 (Wv (Proc.devRef .tc main_v203)) shapeCasts_S262144x128_S4194304x8)
          slices_S4194304x8_S4194304x1_0_0 := by
  simp only [hostOps1]
  after_results
  rfl

variable (m : (ℓ : Loc nD τ sig) → Buf (Elt Ideal) ℓ) (ρ : Dev nD → PrngReg)

/-- The program's result: the packed output regrouped to [4194304, 8], column 0. -/
def outOf (c : Dev nD) : S4194304x1.Idx → EReal :=
  extractStridedSlice S4194304x1 ![0, 0]
    (shapeCast S4194304x8 (result m c) shapeCasts_S262144x128_S4194304x8) slices_S4194304x8_S4194304x1_0_0

theorem tail_eq (c : Dev nD) :
    Pipeline.afterTail₀ cfgs (dats m) 0 (V0 m) [hostOps1] c main_v205 = outOf m c := by
  have hW : Pipeline.withArrays (cfgs 0).spec c (V0 m c) (fun w => (dats m 0 c).arrAt w (cfgs 0).N)
      (Proc.devRef .tc main_v203) = result m c :=
    (Pipeline.withArrays_arr spec0 launch0.win.arr_inj c _ _ 25).trans (final m c)
  unfold Pipeline.afterTail₀
  show StableHlo.after hostOps1 _ (Proc.devRef .tc main_v205) = _
  rw [tail_apply, hW]
  rfl

/-- Every weakly fair execution ends with the result at `outOf` and the arguments unchanged. -/
theorem run : θ_run defs (onTc (τ := τ) (main (F := Ideal))) ⟨m, fun _ => 0, ρ⟩ (fun r => ∀ c : Dev nD,
      r.2.mem ((c.tc : Thread nD τ).loc main_v205) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_v205 (Pipeline.mem_restRefs_of main_v205 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c))⟩)
    (run_main m ρ)

end Cert.KernelIdeal.KernelRun

end
-- ==== Proof.HostWrites.lean ====
/-
  The host operations before the region, stretch by stretch (a stretch is a run of @main's own operations, or the
  body of one call of the Kronecker-product function): the references each stretch writes.
-/
import proofs.«141723_j17222818857346_2_alg».proof.Proof.Gen.KernelIdeal.Frame
import Idealize.ShloMosaic.Lib.StableHlo.Run

noncomputable section

namespace Cert.KernelIdeal.HostWrites

open Idealize.ShloMosaic Idealize.ShloMosaic.TcCoe Idealize.SL.Sem Idealize.ShloMosaic.StableHlo
open Cert.KernelIdeal Cert.KernelIdeal.Gen

variable {F : FTy → Type} [FloatOps F]

/-- Each operation of the stretch writes one reference, and it is on the list. -/
macro "stretch_writes" h:ident : tactic =>
  `(tactic| (simp only [$h:ident, List.Forall, StableHlo.nullary_writes, StableHlo.unary_writes, StableHlo.binary_writes,
      StableHlo.ternary_writes, StableHlo.reshape_writes, Finset.singleton_subset_iff]
             repeat' apply And.intro
             all_goals exact List.mem_toFinset.2 (List.mem_map.2 ⟨_, by decide, rfl⟩)))

/-- What stretch 0 writes. -/
def W0 : List (Ref sig .tc) := [main_c, main_c_0, main_c_1, main_c_2, main_c_3, main_c_4, main_c_5, main_c_6, main_c_7, main_c_8, main_c_9, main_c_10, main_c_11, main_c_12, main_c_13, main_c_14, main_c_15, main_c_16, main_v0, main_cst, main_v1, main_v2, main_cst_17, main_v3, main_v4, main_v5, main_v6, main_c_18, main_v7, main_v8, main_v9, main_v10]

theorem writes0 : (hostOps0 : List (HloOp τ sig (Elt F))).Forall fun op =>
    op.writes ⊆ ((W0).map (Proc.devRef (τ := τ) .tc)).toFinset := by
  stretch_writes hostOps0

/-- What stretch 1 writes. -/
def W1 : List (Ref sig .tc) := [main_call0_v0, main_call0_v1, main_call0_v2, main_call0_v3, main_call0_v4, main_v11]

theorem writes1 : (hostOps0_1 : List (HloOp τ sig (Elt F))).Forall fun op =>
    op.writes ⊆ ((W1).map (Proc.devRef (τ := τ) .tc)).toFinset := by
  stretch_writes hostOps0_1

/-- What stretch 2 writes. -/
def W2 : List (Ref sig .tc) := [main_v12, main_v13, main_v14, main_v15, main_v16, main_cst_19, main_v17, main_v18, main_cst_20, main_v19, main_v20, main_v21, main_v22, main_c_21, main_v23, main_v24, main_v25, main_v26]

theorem writes2 : (hostOps0_2 : List (HloOp τ sig (Elt F))).Forall fun op =>
    op.writes ⊆ ((W2).map (Proc.devRef (τ := τ) .tc)).toFinset := by
  stretch_writes hostOps0_2

/-- What stretch 3 writes. -/
def W3 : List (Ref sig .tc) := [main_call1_v0, main_call1_v1, main_call1_v2, main_call1_v3, main_call1_v4, main_v27]

theorem writes3 : (hostOps0_3 : List (HloOp τ sig (Elt F))).Forall fun op =>
    op.writes ⊆ ((W3).map (Proc.devRef (τ := τ) .tc)).toFinset := by
  stretch_writes hostOps0_3

/-- What stretch 4 writes. -/
def W4 : List (Ref sig .tc) := [main_v28, main_v29, main_v30, main_v31, main_v32, main_cst_22, main_v33, main_v34, main_cst_23, main_v35, main_v36, main_v37, main_v38, main_c_24, main_v39, main_v40, main_v41, main_v42]

theorem writes4 : (hostOps0_4 : List (HloOp τ sig (Elt F))).Forall fun op =>
    op.writes ⊆ ((W4).map (Proc.devRef (τ := τ) .tc)).toFinset := by
  stretch_writes hostOps0_4

/-- What stretch 5 writes. -/
def W5 : List (Ref sig .tc) := [main_call2_v0, main_call2_v1, main_call2_v2, main_call2_v3, main_call2_v4, main_v43]

theorem writes5 : (hostOps0_5 : List (HloOp τ sig (Elt F))).Forall fun op =>
    op.writes ⊆ ((W5).map (Proc.devRef (τ := τ) .tc)).toFinset := by
  stretch_writes hostOps0_5

/-- What stretch 6 writes. -/
def W6 : List (Ref sig .tc) := [main_v44, main_v45, main_v46, main_v47, main_v48, main_cst_25, main_v49, main_v50, main_cst_26, main_v51, main_v52, main_v53, main_v54, main_c_27, main_v55, main_v56, main_v57, main_v58]

theorem writes6 : (hostOps0_6 : List (HloOp τ sig (Elt F))).Forall fun op =>
    op.writes ⊆ ((W6).map (Proc.devRef (τ := τ) .tc)).toFinset := by
  stretch_writes hostOps0_6

/-- What stretch 7 writes. -/
def W7 : List (Ref sig .tc) := [main_call3_v0, main_call3_v1, main_call3_v2, main_call3_v3, main_call3_v4, main_v59]

theorem writes7 : (hostOps0_7 : List (HloOp τ sig (Elt F))).Forall fun op =>
    op.writes ⊆ ((W7).map (Proc.devRef (τ := τ) .tc)).toFinset := by
  stretch_writes hostOps0_7

/-- What stretch 8 writes. -/
def W8 : List (Ref sig .tc) := [main_v60, main_v61, main_v62, main_v63, main_v64, main_cst_28, main_v65, main_v66, main_cst_29, main_v67, main_v68, main_v69, main_v70, main_c_30, main_v71, main_v72, main_v73, main_v74]

theorem writes8 : (hostOps0_8 : List (HloOp τ sig (Elt F))).Forall fun op =>
    op.writes ⊆ ((W8).map (Proc.devRef (τ := τ) .tc)).toFinset := by
  stretch_writes hostOps0_8

/-- What stretch 9 writes. -/
def W9 : List (Ref sig .tc) := [main_call4_v0, main_call4_v1, main_call4_v2, main_call4_v3, main_call4_v4, main_v75]

theorem writes9 : (hostOps0_9 : List (HloOp τ sig (Elt F))).Forall fun op =>
    op.writes ⊆ ((W9).map (Proc.devRef (τ := τ) .tc)).toFinset := by
  stretch_writes hostOps0_9

/-- What stretch 10 writes. -/
def W10 : List (Ref sig .tc) := [main_v76, main_v77, main_v78, main_v79, main_v80, main_cst_31, main_v81, main_v82, main_cst_32, main_v83, main_v84, main_v85, main_v86, main_c_33, main_v87, main_v88, main_v89, main_v90]

theorem writes10 : (hostOps0_10 : List (HloOp τ sig (Elt F))).Forall fun op =>
    op.writes ⊆ ((W10).map (Proc.devRef (τ := τ) .tc)).toFinset := by
  stretch_writes hostOps0_10

/-- What stretch 11 writes. -/
def W11 : List (Ref sig .tc) := [main_call5_v0, main_call5_v1, main_call5_v2, main_call5_v3, main_call5_v4, main_v91]

theorem writes11 : (hostOps0_11 : List (HloOp τ sig (Elt F))).Forall fun op =>
    op.writes ⊆ ((W11).map (Proc.devRef (τ := τ) .tc)).toFinset := by
  stretch_writes hostOps0_11

/-- What stretch 12 writes. -/
def W12 : List (Ref sig .tc) := [main_v92, main_v93, main_v94, main_v95, main_v96, main_cst_34, main_v97, main_v98, main_cst_35, main_v99, main_v100, main_v101, main_v102, main_c_36, main_v103, main_v104, main_v105, main_v106]

theorem writes12 : (hostOps0_12 : List (HloOp τ sig (Elt F))).Forall fun op =>
    op.writes ⊆ ((W12).map (Proc.devRef (τ := τ) .tc)).toFinset := by
  stretch_writes hostOps0_12

/-- What stretch 13 writes. -/
def W13 : List (Ref sig .tc) := [main_call6_v0, main_call6_v1, main_call6_v2, main_call6_v3, main_call6_v4, main_v107]

theorem writes13 : (hostOps0_13 : List (HloOp τ sig (Elt F))).Forall fun op =>
    op.writes ⊆ ((W13).map (Proc.devRef (τ := τ) .tc)).toFinset := by
  stretch_writes hostOps0_13

/-- What stretch 14 writes. -/
def W14 : List (Ref sig .tc) := [main_v108, main_v109, main_v110, main_v111, main_v112, main_cst_37, main_v113, main_v114, main_cst_38, main_v115, main_v116, main_v117, main_v118, main_c_39, main_v119, main_v120, main_v121, main_v122]

theorem writes14 : (hostOps0_14 : List (HloOp τ sig (Elt F))).Forall fun op =>
    op.writes ⊆ ((W14).map (Proc.devRef (τ := τ) .tc)).toFinset := by
  stretch_writes hostOps0_14

/-- What stretch 15 writes. -/
def W15 : List (Ref sig .tc) := [main_call7_v0, main_call7_v1, main_call7_v2, main_call7_v3, main_call7_v4, main_v123]

theorem writes15 : (hostOps0_15 : List (HloOp τ sig (Elt F))).Forall fun op =>
    op.writes ⊆ ((W15).map (Proc.devRef (τ := τ) .tc)).toFinset := by
  stretch_writes hostOps0_15

/-- What stretch 16 writes. -/
def W16 : List (Ref sig .tc) := [main_v124, main_v125, main_v126, main_v127, main_v128, main_cst_40, main_v129, main_v130, main_cst_41, main_v131, main_v132, main_v133, main_v134, main_c_42, main_v135, main_v136, main_v137, main_v138]

theorem writes16 : (hostOps0_16 : List (HloOp τ sig (Elt F))).Forall fun op =>
    op.writes ⊆ ((W16).map (Proc.devRef (τ := τ) .tc)).toFinset := by
  stretch_writes hostOps0_16

/-- What stretch 17 writes. -/
def W17 : List (Ref sig .tc) := [main_call8_v0, main_call8_v1, main_call8_v2, main_call8_v3, main_call8_v4, main_v139]

theorem writes17 : (hostOps0_17 : List (HloOp τ sig (Elt F))).Forall fun op =>
    op.writes ⊆ ((W17).map (Proc.devRef (τ := τ) .tc)).toFinset := by
  stretch_writes hostOps0_17

/-- What stretch 18 writes. -/
def W18 : List (Ref sig .tc) := [main_v140, main_v141, main_v142, main_v143, main_v144, main_cst_43, main_v145, main_c_44, main_v146, main_v147, main_cst_45, main_v148, main_c_46, main_v149, main_v150, main_v151, main_v152, main_c_47, main_v153, main_v154, main_v155, main_v156]

theorem writes18 : (hostOps0_18 : List (HloOp τ sig (Elt F))).Forall fun op =>
    op.writes ⊆ ((W18).map (Proc.devRef (τ := τ) .tc)).toFinset := by
  stretch_writes hostOps0_18

/-- What stretch 19 writes. -/
def W19 : List (Ref sig .tc) := [main_call9_v0, main_call9_v1, main_call9_v2, main_call9_v3, main_call9_v4, main_v157]

theorem writes19 : (hostOps0_19 : List (HloOp τ sig (Elt F))).Forall fun op =>
    op.writes ⊆ ((W19).map (Proc.devRef (τ := τ) .tc)).toFinset := by
  stretch_writes hostOps0_19

/-- What stretch 20 writes. -/
def W20 : List (Ref sig .tc) := [main_v158, main_v159, main_v160, main_v161, main_v162, main_cst_48, main_v163, main_c_49, main_v164, main_c_50, main_v165, main_v166, main_v167, main_cst_51, main_v168, main_c_52, main_v169, main_v170, main_v171, main_v172, main_c_53, main_v173, main_v174, main_v175, main_v176]

theorem writes20 : (hostOps0_20 : List (HloOp τ sig (Elt F))).Forall fun op =>
    op.writes ⊆ ((W20).map (Proc.devRef (τ := τ) .tc)).toFinset := by
  stretch_writes hostOps0_20

/-- What stretch 21 writes. -/
def W21 : List (Ref sig .tc) := [main_call10_v0, main_call10_v1, main_call10_v2, main_call10_v3, main_call10_v4, main_v177]

theorem writes21 : (hostOps0_21 : List (HloOp τ sig (Elt F))).Forall fun op =>
    op.writes ⊆ ((W21).map (Proc.devRef (τ := τ) .tc)).toFinset := by
  stretch_writes hostOps0_21

/-- What stretch 22 writes. -/
def W22 : List (Ref sig .tc) := [main_v178, main_v179, main_v180, main_v181, main_v182, main_cst_54, main_v183, main_c_55, main_v184, main_c_56, main_v185, main_v186, main_v187, main_cst_57, main_v188, main_c_58, main_v189, main_v190, main_v191, main_v192, main_c_59, main_v193, main_v194, main_v195, main_v196]

theorem writes22 : (hostOps0_22 : List (HloOp τ sig (Elt F))).Forall fun op =>
    op.writes ⊆ ((W22).map (Proc.devRef (τ := τ) .tc)).toFinset := by
  stretch_writes hostOps0_22

/-- What stretch 23 writes. -/
def W23 : List (Ref sig .tc) := [main_call11_v0, main_call11_v1, main_call11_v2, main_call11_v3, main_call11_v4, main_v197]

theorem writes23 : (hostOps0_23 : List (HloOp τ sig (Elt F))).Forall fun op =>
    op.writes ⊆ ((W23).map (Proc.devRef (τ := τ) .tc)).toFinset := by
  stretch_writes hostOps0_23

/-- What stretch 24 writes. -/
def W24 : List (Ref sig .tc) := [main_v198, main_v199, main_v200, main_v201, main_v202]

theorem writes24 : (hostOps0_24 : List (HloOp τ sig (Elt F))).Forall fun op =>
    op.writes ⊆ ((W24).map (Proc.devRef (τ := τ) .tc)).toFinset := by
  stretch_writes hostOps0_24

end Cert.KernelIdeal.HostWrites

end
-- ==== Proof.HostChain.lean ====
/-
  The buffers' contents after each stretch of host operations, as a chain of valuations from the contents as
  launched to the contents the region finds; across a stretch, a reference the stretch does not write keeps its
  contents.
-/
import proofs.«141723_j17222818857346_2_alg».proof.Proof.HostWrites

noncomputable section

namespace Cert.KernelIdeal.HostChain

open Idealize.ShloMosaic Idealize.ShloMosaic.TcCoe Idealize.SL.Sem Idealize.ShloMosaic.StableHlo
open Cert.KernelIdeal Cert.KernelIdeal.Gen Cert.KernelIdeal.HostWrites

variable {F : FTy → Type} [FloatOps F]

/-- The operations of two lists in a row: the second list's from what the first leaves. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons op l ih => exact ih _

theorem after_flatten_cons (l : List (HloOp τ sig (Elt F))) (ls : List (List (HloOp τ sig (Elt F))))
    (V : Valuation τ sig (Elt F)) :
    StableHlo.after (List.flatten (l :: ls)) V = StableHlo.after (List.flatten ls) (StableHlo.after l V) := by
  rw [List.flatten_cons, after_append]

variable (m : (ℓ : Loc nD τ sig) → Buf (Elt F) ℓ)

/-- The buffers as launched. -/
def U0 (c : Dev nD) : Valuation τ sig (Elt F) := fun b => m (c, b)

/-- The buffers after stretches 0 … 0. -/
def U1 (c : Dev nD) : Valuation τ sig (Elt F) := StableHlo.after hostOps0 (U0 m c)

/-- A reference stretch 0 does not write is as before it. -/
theorem skip0 (c : Dev nD) (b : Ref sig .tc) (hb : b ∉ W0) :
    U1 m c (Proc.devRef .tc b) = U0 m c (Proc.devRef .tc b) :=
  StableHlo.after_of_writes_sub hostOps0 _ writes0 hb

/-- The buffers after stretches 0 … 1. -/
def U2 (c : Dev nD) : Valuation τ sig (Elt F) := StableHlo.after hostOps0_1 (U1 m c)

/-- A reference stretch 1 does not write is as before it. -/
theorem skip1 (c : Dev nD) (b : Ref sig .tc) (hb : b ∉ W1) :
    U2 m c (Proc.devRef .tc b) = U1 m c (Proc.devRef .tc b) :=
  StableHlo.after_of_writes_sub hostOps0_1 _ writes1 hb

/-- The buffers after stretches 0 … 2. -/
def U3 (c : Dev nD) : Valuation τ sig (Elt F) := StableHlo.after hostOps0_2 (U2 m c)

/-- A reference stretch 2 does not write is as before it. -/
theorem skip2 (c : Dev nD) (b : Ref sig .tc) (hb : b ∉ W2) :
    U3 m c (Proc.devRef .tc b) = U2 m c (Proc.devRef .tc b) :=
  StableHlo.after_of_writes_sub hostOps0_2 _ writes2 hb

/-- The buffers after stretches 0 … 3. -/
def U4 (c : Dev nD) : Valuation τ sig (Elt F) := StableHlo.after hostOps0_3 (U3 m c)

/-- A reference stretch 3 does not write is as before it. -/
theorem skip3 (c : Dev nD) (b : Ref sig .tc) (hb : b ∉ W3) :
    U4 m c (Proc.devRef .tc b) = U3 m c (Proc.devRef .tc b) :=
  StableHlo.after_of_writes_sub hostOps0_3 _ writes3 hb

/-- The buffers after stretches 0 … 4. -/
def U5 (c : Dev nD) : Valuation τ sig (Elt F) := StableHlo.after hostOps0_4 (U4 m c)

/-- A reference stretch 4 does not write is as before it. -/
theorem skip4 (c : Dev nD) (b : Ref sig .tc) (hb : b ∉ W4) :
    U5 m c (Proc.devRef .tc b) = U4 m c (Proc.devRef .tc b) :=
  StableHlo.after_of_writes_sub hostOps0_4 _ writes4 hb

/-- The buffers after stretches 0 … 5. -/
def U6 (c : Dev nD) : Valuation τ sig (Elt F) := StableHlo.after hostOps0_5 (U5 m c)

/-- A reference stretch 5 does not write is as before it. -/
theorem skip5 (c : Dev nD) (b : Ref sig .tc) (hb : b ∉ W5) :
    U6 m c (Proc.devRef .tc b) = U5 m c (Proc.devRef .tc b) :=
  StableHlo.after_of_writes_sub hostOps0_5 _ writes5 hb

/-- The buffers after stretches 0 … 6. -/
def U7 (c : Dev nD) : Valuation τ sig (Elt F) := StableHlo.after hostOps0_6 (U6 m c)

/-- A reference stretch 6 does not write is as before it. -/
theorem skip6 (c : Dev nD) (b : Ref sig .tc) (hb : b ∉ W6) :
    U7 m c (Proc.devRef .tc b) = U6 m c (Proc.devRef .tc b) :=
  StableHlo.after_of_writes_sub hostOps0_6 _ writes6 hb

/-- The buffers after stretches 0 … 7. -/
def U8 (c : Dev nD) : Valuation τ sig (Elt F) := StableHlo.after hostOps0_7 (U7 m c)

/-- A reference stretch 7 does not write is as before it. -/
theorem skip7 (c : Dev nD) (b : Ref sig .tc) (hb : b ∉ W7) :
    U8 m c (Proc.devRef .tc b) = U7 m c (Proc.devRef .tc b) :=
  StableHlo.after_of_writes_sub hostOps0_7 _ writes7 hb

/-- The buffers after stretches 0 … 8. -/
def U9 (c : Dev nD) : Valuation τ sig (Elt F) := StableHlo.after hostOps0_8 (U8 m c)

/-- A reference stretch 8 does not write is as before it. -/
theorem skip8 (c : Dev nD) (b : Ref sig .tc) (hb : b ∉ W8) :
    U9 m c (Proc.devRef .tc b) = U8 m c (Proc.devRef .tc b) :=
  StableHlo.after_of_writes_sub hostOps0_8 _ writes8 hb

/-- The buffers after stretches 0 … 9. -/
def U10 (c : Dev nD) : Valuation τ sig (Elt F) := StableHlo.after hostOps0_9 (U9 m c)

/-- A reference stretch 9 does not write is as before it. -/
theorem skip9 (c : Dev nD) (b : Ref sig .tc) (hb : b ∉ W9) :
    U10 m c (Proc.devRef .tc b) = U9 m c (Proc.devRef .tc b) :=
  StableHlo.after_of_writes_sub hostOps0_9 _ writes9 hb

/-- The buffers after stretches 0 … 10. -/
def U11 (c : Dev nD) : Valuation τ sig (Elt F) := StableHlo.after hostOps0_10 (U10 m c)

/-- A reference stretch 10 does not write is as before it. -/
theorem skip10 (c : Dev nD) (b : Ref sig .tc) (hb : b ∉ W10) :
    U11 m c (Proc.devRef .tc b) = U10 m c (Proc.devRef .tc b) :=
  StableHlo.after_of_writes_sub hostOps0_10 _ writes10 hb

/-- The buffers after stretches 0 … 11. -/
def U12 (c : Dev nD) : Valuation τ sig (Elt F) := StableHlo.after hostOps0_11 (U11 m c)

/-- A reference stretch 11 does not write is as before it. -/
theorem skip11 (c : Dev nD) (b : Ref sig .tc) (hb : b ∉ W11) :
    U12 m c (Proc.devRef .tc b) = U11 m c (Proc.devRef .tc b) :=
  StableHlo.after_of_writes_sub hostOps0_11 _ writes11 hb

/-- The buffers after stretches 0 … 12. -/
def U13 (c : Dev nD) : Valuation τ sig (Elt F) := StableHlo.after hostOps0_12 (U12 m c)

/-- A reference stretch 12 does not write is as before it. -/
theorem skip12 (c : Dev nD) (b : Ref sig .tc) (hb : b ∉ W12) :
    U13 m c (Proc.devRef .tc b) = U12 m c (Proc.devRef .tc b) :=
  StableHlo.after_of_writes_sub hostOps0_12 _ writes12 hb

/-- The buffers after stretches 0 … 13. -/
def U14 (c : Dev nD) : Valuation τ sig (Elt F) := StableHlo.after hostOps0_13 (U13 m c)

/-- A reference stretch 13 does not write is as before it. -/
theorem skip13 (c : Dev nD) (b : Ref sig .tc) (hb : b ∉ W13) :
    U14 m c (Proc.devRef .tc b) = U13 m c (Proc.devRef .tc b) :=
  StableHlo.after_of_writes_sub hostOps0_13 _ writes13 hb

/-- The buffers after stretches 0 … 14. -/
def U15 (c : Dev nD) : Valuation τ sig (Elt F) := StableHlo.after hostOps0_14 (U14 m c)

/-- A reference stretch 14 does not write is as before it. -/
theorem skip14 (c : Dev nD) (b : Ref sig .tc) (hb : b ∉ W14) :
    U15 m c (Proc.devRef .tc b) = U14 m c (Proc.devRef .tc b) :=
  StableHlo.after_of_writes_sub hostOps0_14 _ writes14 hb

/-- The buffers after stretches 0 … 15. -/
def U16 (c : Dev nD) : Valuation τ sig (Elt F) := StableHlo.after hostOps0_15 (U15 m c)

/-- A reference stretch 15 does not write is as before it. -/
theorem skip15 (c : Dev nD) (b : Ref sig .tc) (hb : b ∉ W15) :
    U16 m c (Proc.devRef .tc b) = U15 m c (Proc.devRef .tc b) :=
  StableHlo.after_of_writes_sub hostOps0_15 _ writes15 hb

/-- The buffers after stretches 0 … 16. -/
def U17 (c : Dev nD) : Valuation τ sig (Elt F) := StableHlo.after hostOps0_16 (U16 m c)

/-- A reference stretch 16 does not write is as before it. -/
theorem skip16 (c : Dev nD) (b : Ref sig .tc) (hb : b ∉ W16) :
    U17 m c (Proc.devRef .tc b) = U16 m c (Proc.devRef .tc b) :=
  StableHlo.after_of_writes_sub hostOps0_16 _ writes16 hb

/-- The buffers after stretches 0 … 17. -/
def U18 (c : Dev nD) : Valuation τ sig (Elt F) := StableHlo.after hostOps0_17 (U17 m c)

/-- A reference stretch 17 does not write is as before it. -/
theorem skip17 (c : Dev nD) (b : Ref sig .tc) (hb : b ∉ W17) :
    U18 m c (Proc.devRef .tc b) = U17 m c (Proc.devRef .tc b) :=
  StableHlo.after_of_writes_sub hostOps0_17 _ writes17 hb

/-- The buffers after stretches 0 … 18. -/
def U19 (c : Dev nD) : Valuation τ sig (Elt F) := StableHlo.after hostOps0_18 (U18 m c)

/-- A reference stretch 18 does not write is as before it. -/
theorem skip18 (c : Dev nD) (b : Ref sig .tc) (hb : b ∉ W18) :
    U19 m c (Proc.devRef .tc b) = U18 m c (Proc.devRef .tc b) :=
  StableHlo.after_of_writes_sub hostOps0_18 _ writes18 hb

/-- The buffers after stretches 0 … 19. -/
def U20 (c : Dev nD) : Valuation τ sig (Elt F) := StableHlo.after hostOps0_19 (U19 m c)

/-- A reference stretch 19 does not write is as before it. -/
theorem skip19 (c : Dev nD) (b : Ref sig .tc) (hb : b ∉ W19) :
    U20 m c (Proc.devRef .tc b) = U19 m c (Proc.devRef .tc b) :=
  StableHlo.after_of_writes_sub hostOps0_19 _ writes19 hb

/-- The buffers after stretches 0 … 20. -/
def U21 (c : Dev nD) : Valuation τ sig (Elt F) := StableHlo.after hostOps0_20 (U20 m c)

/-- A reference stretch 20 does not write is as before it. -/
theorem skip20 (c : Dev nD) (b : Ref sig .tc) (hb : b ∉ W20) :
    U21 m c (Proc.devRef .tc b) = U20 m c (Proc.devRef .tc b) :=
  StableHlo.after_of_writes_sub hostOps0_20 _ writes20 hb

/-- The buffers after stretches 0 … 21. -/
def U22 (c : Dev nD) : Valuation τ sig (Elt F) := StableHlo.after hostOps0_21 (U21 m c)

/-- A reference stretch 21 does not write is as before it. -/
theorem skip21 (c : Dev nD) (b : Ref sig .tc) (hb : b ∉ W21) :
    U22 m c (Proc.devRef .tc b) = U21 m c (Proc.devRef .tc b) :=
  StableHlo.after_of_writes_sub hostOps0_21 _ writes21 hb

/-- The buffers after stretches 0 … 22. -/
def U23 (c : Dev nD) : Valuation τ sig (Elt F) := StableHlo.after hostOps0_22 (U22 m c)

/-- A reference stretch 22 does not write is as before it. -/
theorem skip22 (c : Dev nD) (b : Ref sig .tc) (hb : b ∉ W22) :
    U23 m c (Proc.devRef .tc b) = U22 m c (Proc.devRef .tc b) :=
  StableHlo.after_of_writes_sub hostOps0_22 _ writes22 hb

/-- The buffers after stretches 0 … 23. -/
def U24 (c : Dev nD) : Valuation τ sig (Elt F) := StableHlo.after hostOps0_23 (U23 m c)

/-- A reference stretch 23 does not write is as before it. -/
theorem skip23 (c : Dev nD) (b : Ref sig .tc) (hb : b ∉ W23) :
    U24 m c (Proc.devRef .tc b) = U23 m c (Proc.devRef .tc b) :=
  StableHlo.after_of_writes_sub hostOps0_23 _ writes23 hb

/-- The buffers after stretches 0 … 24. -/
def U25 (c : Dev nD) : Valuation τ sig (Elt F) := StableHlo.after hostOps0_24 (U24 m c)

/-- A reference stretch 24 does not write is as before it. -/
theorem skip24 (c : Dev nD) (b : Ref sig .tc) (hb : b ∉ W24) :
    U25 m c (Proc.devRef .tc b) = U24 m c (Proc.devRef .tc b) :=
  StableHlo.after_of_writes_sub hostOps0_24 _ writes24 hb

/-- The chain ends at what the region finds. -/
theorem V0_eq (c : Dev nD) : V0 m c = U25 m c := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (U0 m c) = U25 m c
  simp only [after_flatten_cons, List.flatten_nil, StableHlo.after_nil]
  rfl

end Cert.KernelIdeal.HostChain

end
-- ==== Proof.HostRead.lean ====
/-
  The host's layout operations of the packed perceptron read at an index given by coordinates.

  * the Kronecker product of a 16 × 16 matrix `E` and an 8 × 8 matrix `P` as the host spells it (both broadcast
    to [16, 8, 16, 8], multiplied, cast to [128, 128]): at `(8a + b, 8c + d)` it is `E (a, c) · P (b, d)`;
  * the identity as a compare of two iotas converted to a float: `1` on the diagonal, `0` off it;
  * an 8-vector repeated sixteen times into a [1, 128] row: at lane `8c + d` it is the vector at `d`;
  * the [4194304, 8] array regrouped to [262144, 128] and back: row `r`, lane `8c + b` is row `16r + c`,
    column `b`; and column 0 of row `n` after regrouping back is row `n / 16`, lane `8 (n % 16)`.
-/
import Idealize.ShloMosaic.Lib.Pipeline.Value
import Idealize.ShloMosaic.Lib.ValueIdx
import Idealize.ShloMosaic.Lib.ValueLayout
import Idealize.ShloMosaic.PureOps.Ideal.Laws
import proofs.«141723_j17222818857346_2_alg».proof.Proof.MlpSpec

noncomputable section

namespace Cert.HostRead

open Idealize.ShloMosaic Idealize.ShloMosaic.ValueIdx Cert.Mlp

/-! ## The Kronecker product -/

theorem kron_apply
    (h0 : (⟨2, ![16, 16]⟩ : Shape).BroadcastsInDim ⟨4, ![16, 1, 16, 1]⟩ ![0, 2])
    (h1 : (⟨2, ![8, 8]⟩ : Shape).BroadcastsInDim ⟨4, ![1, 8, 1, 8]⟩ ![1, 3])
    (h2 : (⟨4, ![16, 1, 16, 1]⟩ : Shape).BroadcastsInDim ⟨4, ![16, 8, 16, 8]⟩ ![0, 1, 2, 3])
    (h3 : (⟨4, ![1, 8, 1, 8]⟩ : Shape).BroadcastsInDim ⟨4, ![16, 8, 16, 8]⟩ ![0, 1, 2, 3])
    (hc : (⟨4, ![16, 8, 16, 8]⟩ : Shape).ShapeCasts ⟨2, ![128, 128]⟩)
    (E : FVec Ideal ⟨2, ![16, 16]⟩ .f32) (P : FVec Ideal ⟨2, ![8, 8]⟩ .f32) (a c : Fin 16) (b d : Fin 8) :
    shapeCast ⟨2, ![128, 128]⟩
        (mulf (broadcastInDim ⟨4, ![16, 8, 16, 8]⟩ ![0, 1, 2, 3] h2 (broadcastInDim ⟨4, ![16, 1, 16, 1]⟩ ![0, 2] h0 E))
          (broadcastInDim ⟨4, ![16, 8, 16, 8]⟩ ![0, 1, 2, 3] h3 (broadcastInDim ⟨4, ![1, 8, 1, 8]⟩ ![1, 3] h1 P)))
        hc (ix2 (lane a b) (lane c d))
      = E (ix2 a c) * P (ix2 b d) := by
  rw [shapeCast_apply _ hc _ (ix4 a b c d) (by
    rw [Shape.rowMajor_val_four, Shape.rowMajor_val_two]
    show ((a.val * 8 + b.val) * 16 + c.val) * 8 + d.val = (8 * a.val + b.val) * 128 + (8 * c.val + d.val)
    omega)]
  show broadcastInDim _ _ h2 _ (ix4 a b c d) * broadcastInDim _ _ h3 _ (ix4 a b c d) = _
  rw [broadcastInDim_apply _ h2 _ (ix4 a b c d) (ix4 a (0 : Fin 1) c (0 : Fin 1)) (fun ax => match ax with
      | ⟨0, _⟩ => by show a.val = if (16 : Nat) = 1 then 0 else a.val; rw [if_neg (by decide)]
      | ⟨1, _⟩ => by show 0 = if (1 : Nat) = 1 then 0 else b.val; rw [if_pos rfl]
      | ⟨2, _⟩ => by show c.val = if (16 : Nat) = 1 then 0 else c.val; rw [if_neg (by decide)]
      | ⟨3, _⟩ => by show 0 = if (1 : Nat) = 1 then 0 else d.val; rw [if_pos rfl]),
    broadcastInDim_apply _ h3 _ (ix4 a b c d) (ix4 (0 : Fin 1) b (0 : Fin 1) d) (fun ax => match ax with
      | ⟨0, _⟩ => by show 0 = if (1 : Nat) = 1 then 0 else a.val; rw [if_pos rfl]
      | ⟨1, _⟩ => by show b.val = if (8 : Nat) = 1 then 0 else b.val; rw [if_neg (by decide)]
      | ⟨2, _⟩ => by show 0 = if (1 : Nat) = 1 then 0 else c.val; rw [if_pos rfl]
      | ⟨3, _⟩ => by show d.val = if (8 : Nat) = 1 then 0 else d.val; rw [if_neg (by decide)]),
    broadcastInDim_apply _ h0 E (ix4 a (0 : Fin 1) c (0 : Fin 1)) (ix2 a c) (fun ax => match ax with
      | ⟨0, _⟩ => by show a.val = if (16 : Nat) = 1 then 0 else a.val; rw [if_neg (by decide)]
      | ⟨1, _⟩ => by show c.val = if (16 : Nat) = 1 then 0 else c.val; rw [if_neg (by decide)]),
    broadcastInDim_apply _ h1 P (ix4 (0 : Fin 1) b (0 : Fin 1) d) (ix2 b d) (fun ax => match ax with
      | ⟨0, _⟩ => by show b.val = if (8 : Nat) = 1 then 0 else b.val; rw [if_neg (by decide)]
      | ⟨1, _⟩ => by show d.val = if (8 : Nat) = 1 then 0 else d.val; rw [if_neg (by decide)])]

/-! ## The identity -/

theorem eye_bits : ∀ a c : Fin 16,
    IntOp.cmpi .eq (IntOp.addi (BitVec.ofNat 32 a.val) (0#32)) (BitVec.ofNat 32 c.val) = if a = c then 1#1 else 0#1 := by
  decide

theorem eye_apply (hb : (⟨0, ![]⟩ : Shape).BroadcastsInDim ⟨2, ![16, 16]⟩ ![])
    (a c : Fin 16) :
    (uitofp .f32 (cmpi .eq (addi (iotaInDim ⟨2, ![16, 16]⟩ 32 0)
        (broadcastInDim ⟨2, ![16, 16]⟩ ![] hb (constantI ⟨0, ![]⟩ 32 0#32))) (iotaInDim ⟨2, ![16, 16]⟩ 32 1))
      : FVec Ideal ⟨2, ![16, 16]⟩ .f32) (ix2 a c) = if a = c then (1 : EReal) else 0 := by
  show FloatOps.uitofp (F := Ideal) .f32 (IntOp.cmpi .eq (IntOp.addi (BitVec.ofNat 32 a.val) (0#32)) (BitVec.ofNat 32 c.val)) = _
  rw [eye_bits]
  by_cases h : a = c
  · rw [if_pos h, if_pos h]; show (((1#1 : BitVec 1).toNat : ℝ) : EReal) = 1; simp
  · rw [if_neg h, if_neg h]; show (((0#1 : BitVec 1).toNat : ℝ) : EReal) = 0; simp

/-! ## The tiled bias row -/

theorem tile_apply
    (hq : (⟨1, ![8]⟩ : Shape).ShapeCasts ⟨2, ![1, 8]⟩)
    (hb : (⟨2, ![1, 8]⟩ : Shape).BroadcastsInDim ⟨2, ![16, 8]⟩ ![0, 1])
    (h1 : (⟨2, ![16, 8]⟩ : Shape).ShapeCasts ⟨1, ![128]⟩)
    (h2 : (⟨1, ![128]⟩ : Shape).ShapeCasts ⟨2, ![1, 128]⟩)
    {α : Type} (q : (⟨1, ![8]⟩ : Shape).Idx → α) (u : Fin 1) (c : Fin 16) (d : Fin 8) :
    shapeCast ⟨2, ![1, 128]⟩ (shapeCast ⟨1, ![128]⟩ (broadcastInDim ⟨2, ![16, 8]⟩ ![0, 1] hb (shapeCast ⟨2, ![1, 8]⟩ q hq)) h1) h2
        (ix2 u (lane c d)) = q (ix1 d) := by
  rw [shapeCast_a_1a_apply _ h2 u (lane c d),
    shapeCast_apply _ h1 (ix1 (lane c d)) (ix2 c d) (by
      rw [Shape.rowMajor_val_two, Shape.rowMajor_val_one]
      show c.val * 8 + d.val = 8 * c.val + d.val
      omega),
    broadcastInDim_apply _ hb _ (ix2 c d) (ix2 (0 : Fin 1) d) (fun ax => match ax with
      | ⟨0, _⟩ => by show 0 = if (1 : Nat) = 1 then 0 else c.val; rw [if_pos rfl]
      | ⟨1, _⟩ => by show d.val = if (8 : Nat) = 1 then 0 else d.val; rw [if_neg (by decide)]),
    shapeCast_a_1a_apply _ hq (0 : Fin 1) d]

/-! ## Regrouping sixteen rows of eight into one row of 128, and back -/

theorem pack_apply {α : Type} (hc : (⟨2, ![4194304, 8]⟩ : Shape).ShapeCasts ⟨2, ![262144, 128]⟩)
    (x : (⟨2, ![4194304, 8]⟩ : Shape).Idx → α) (r : Fin 262144) (c : Fin 16) (b : Fin 8) :
    shapeCast ⟨2, ![262144, 128]⟩ x hc (ix2 r (lane c b))
      = x (ix2 (⟨16 * r.val + c.val, by omega⟩ : Fin 4194304) b) :=
  shapeCast_apply x hc _ _ (by
    rw [Shape.rowMajor_val_two, Shape.rowMajor_val_two]
    show (16 * r.val + c.val) * 8 + b.val = r.val * 128 + (8 * c.val + b.val)
    omega)

theorem unpack_col0_apply {α : Type} (hc : (⟨2, ![262144, 128]⟩ : Shape).ShapeCasts ⟨2, ![4194304, 8]⟩)
    (hs : (⟨2, ![4194304, 8]⟩ : Shape).Slices ![0, 0] ⟨2, ![4194304, 1]⟩)
    (y : (⟨2, ![262144, 128]⟩ : Shape).Idx → α) (n : Fin 4194304) (u : Fin 1) :
    extractStridedSlice ⟨2, ![4194304, 1]⟩ ![0, 0] (shapeCast ⟨2, ![4194304, 8]⟩ y hc) hs (ix2 n u)
      = y (ix2 (⟨n.val / 16, by omega⟩ : Fin 262144) (lane ⟨n.val % 16, Nat.mod_lt _ (by decide)⟩ 0)) := by
  rw [extractStridedSlice_apply ![0, 0] _ hs (ix2 n u) (ix2 n (0 : Fin 8)) (fun ax => match ax with
      | ⟨0, _⟩ => by show n.val = 0 + n.val; omega
      | ⟨1, _⟩ => by show 0 = 0 + u.val; omega)]
  exact shapeCast_apply y hc _ _ (by
    rw [Shape.rowMajor_val_two, Shape.rowMajor_val_two]
    show n.val / 16 * 128 + (8 * (n.val % 16) + 0) = n.val * 8 + 0
    omega)

end Cert.HostRead

end
-- ==== Proof.HostX.lean ====
/-
  The packed input on the host: the last stretch regroups the [4194304, 8] argument into [262144, 128], sixteen
  rows to a row; no earlier stretch writes the argument.
-/
import proofs.«141723_j17222818857346_2_alg».proof.Proof.HostChain
import proofs.«141723_j17222818857346_2_alg».proof.Proof.HostRead

noncomputable section

namespace Cert.KernelIdeal.HostX

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.HostRead Cert.Mlp

variable (m : (ℓ : Loc nD τ sig) → Buf (Elt Ideal) ℓ)

theorem arg0_at (c : Dev nD) : U24 m c (Proc.devRef .tc main_arg0) = (m ((c : Thread nD τ).loc main_arg0)) :=
  (skip23 m c main_arg0 (by decide)).trans ((skip22 m c main_arg0 (by decide)).trans ((skip21 m c main_arg0 (by decide)).trans ((skip20 m c main_arg0 (by decide)).trans ((skip19 m c main_arg0 (by decide)).trans ((skip18 m c main_arg0 (by decide)).trans ((skip17 m c main_arg0 (by decide)).trans ((skip16 m c main_arg0 (by decide)).trans ((skip15 m c main_arg0 (by decide)).trans ((skip14 m c main_arg0 (by decide)).trans ((skip13 m c main_arg0 (by decide)).trans ((skip12 m c main_arg0 (by decide)).trans ((skip11 m c main_arg0 (by decide)).trans ((skip10 m c main_arg0 (by decide)).trans ((skip9 m c main_arg0 (by decide)).trans ((skip8 m c main_arg0 (by decide)).trans ((skip7 m c main_arg0 (by decide)).trans ((skip6 m c main_arg0 (by decide)).trans ((skip5 m c main_arg0 (by decide)).trans ((skip4 m c main_arg0 (by decide)).trans ((skip3 m c main_arg0 (by decide)).trans ((skip2 m c main_arg0 (by decide)).trans ((skip1 m c main_arg0 (by decide)).trans ((skip0 m c main_arg0 (by decide)))))))))))))))))))))))))

/-- The packed input the region finds. -/
theorem V_x (c : Dev nD) :
    V m c main_v202 = shapeCast S262144x128 (m ((c : Thread nD τ).loc main_arg0)) shapeCasts_S4194304x8_S262144x128 := by
  refine (congrFun (V0_eq m c) _).trans ?_
  show StableHlo.after hostOps0_24 (U24 m c) (Proc.devRef .tc main_v202) = _
  simp only [hostOps0_24]
  after_results
  rw [arg0_at m c]
  rfl

/-- Row `r`, lane `8c + b` of the packed input is row `16r + c`, column `b` of the argument. -/
theorem x_apply (c : Dev nD) (r : Fin 262144) (g : Fin 16) (b : Fin 8) :
    V m c main_v202 (ix2 r (lane g b))
      = (m ((c : Thread nD τ).loc main_arg0)) (ix2 (⟨16 * r.val + g.val, by omega⟩ : Fin 4194304) b) := by
  rw [V_x m c, pack_apply]

end Cert.KernelIdeal.HostX

end
-- ==== Proof.LibScatterSet.lean ====
/-
  A host scatter whose body returns the update (`x.at[…].set(u)`) read at an index.

  The operation is a left fold over the update's elements, each writing its value at the operand index it lands
  on and dropped when it lands outside. Read at one operand index `i`: if exactly one update element lands on
  `i`, the result there is that element (`scatter_set_hit`); if none does, it is the operand's own element
  (`scatter_set_miss`). The two facts about a fold of writes behind them (`foldl_write_miss`, `foldl_write_hit`)
  are stated for any step function that writes or skips. General in the shapes.
  Two corollaries for an update written at the origin of a larger operand, given the landing map decided on the
  literal dimension numbers: inside the window the update, outside it the operand (`scatter1_pad`, `scatter2_pad`).
-/
import Idealize.ShloMosaic.PureOps.ShapeOps
import Idealize.ShloMosaic.Lib.ValueIdx

namespace Cert.LibScatterSet

open Idealize.ShloMosaic

/-! ## A fold of writes -/

section fold
variable {ι α β : Type} [DecidableEq ι] (p : β → Option ι) (g : β → α)
  (stepf : (ι → α) → β → (ι → α))

/-- If no element of the list writes at `i`, the fold leaves `i` as it was. -/
theorem foldl_write_miss
    (hsome : ∀ r n i, p n = some i → stepf r n = fun j => if j = i then g n else r j)
    (hnone : ∀ r n, p n = none → stepf r n = r)
    (l : List β) (x : ι → α) (i : ι) (h : ∀ n ∈ l, p n ≠ some i) : l.foldl stepf x i = x i := by
  induction l generalizing x with
  | nil => rfl
  | cons n l ih =>
    rw [List.foldl_cons, ih _ (fun k hk => h k (List.mem_cons_of_mem _ hk))]
    cases hp : p n with
    | none => rw [hnone _ _ hp]
    | some k =>
      rw [hsome _ _ _ hp]
      have hne : ¬ i = k := fun e => h n (List.mem_cons_self ..) (by rw [hp, e])
      show (if i = k then g n else x i) = x i
      rw [if_neg hne]

/-- If exactly one element of a duplicate-free list writes at `i`, the fold leaves its value there. -/
theorem foldl_write_hit
    (hsome : ∀ r n i, p n = some i → stepf r n = fun j => if j = i then g n else r j)
    (hnone : ∀ r n, p n = none → stepf r n = r)
    (l : List β) (hl : l.Nodup) (x : ι → α) (i : ι) (n₀ : β) (hn : n₀ ∈ l) (hp : p n₀ = some i)
    (huniq : ∀ n ∈ l, p n = some i → n = n₀) : l.foldl stepf x i = g n₀ := by
  obtain ⟨l1, l2, rfl⟩ := List.append_of_mem hn
  have hnot : n₀ ∉ l2 := by
    have h2 : (n₀ :: l2).Nodup := (List.nodup_append.1 hl).2.1
    exact (List.nodup_cons.1 h2).1
  rw [List.foldl_append, List.foldl_cons,
    foldl_write_miss p g stepf hsome hnone l2 _ i (fun k hk e => by
      have := huniq k (List.mem_append_right _ (List.mem_cons_of_mem _ hk)) e
      exact hnot (this ▸ hk)),
    hsome _ _ _ hp]
  show (if i = i then g n₀ else _) = g n₀
  rw [if_pos rfl]

end fold

/-! ## The scatter -/

variable {s si u : Shape} {w : Nat} {α : Type}

/-- The one update element that lands on `i` is what the scatter leaves there. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  unfold Host.scatter
  refine (foldl_write_hit (fun n => d.resultIdx? (u.rowMajor.symm n) idx) (fun n => upd (u.rowMajor.symm n)) _
    (fun r n k hk => ?_) (fun r n hk => ?_) _ (List.nodup_finRange _) x i (u.rowMajor j) (List.mem_finRange _)
    (by show d.resultIdx? (u.rowMajor.symm (u.rowMajor j)) idx = some i; rw [Equiv.symm_apply_apply]; exact hj)
    (fun n _ hn => ?_)).trans ?_
  · simp only [hk]
  · simp only [hk]
  · have := huniq _ hn
    rw [← this, Equiv.apply_symm_apply]
  · show upd (u.rowMajor.symm (u.rowMajor j)) = upd j
    rw [Equiv.symm_apply_apply]

/-- Where no update element lands the operand's element stays. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  refine foldl_write_miss (fun n => d.resultIdx? (u.rowMajor.symm n) idx) (fun n => upd (u.rowMajor.symm n)) _
    (fun r n k hk => ?_) (fun r n hk => ?_) _ x i (fun n _ => h _)
  · simp only [hk]
  · simp only [hk]

/-! ## An update written at the origin of a larger operand -/

open Idealize.ShloMosaic.ValueIdx

/-- Rank 1: an `[n]` update landing on the first `n` places of an `[N]` operand. -/
theorem scatter1_pad {N n : ℕ} (hn : n ≤ N) (d : ScatterDims ⟨1, ![N]⟩ si ⟨1, ![n]⟩) (idx : IVec si w)
    (hdec : ∀ p : Fin n, d.resultIdx? (ix1 p) idx = some (ix1 (Fin.castLE hn p)))
    (x : (⟨1, ![N]⟩ : Shape).Idx → α) (upd : (⟨1, ![n]⟩ : Shape).Idx → α) (i : Fin N) :
    Host.scatter d (fun _ b => b) x idx upd (ix1 i) = if h : i.val < n then upd (ix1 ⟨i.val, h⟩) else x (ix1 i) := by
  by_cases h : i.val < n
  · rw [dif_pos h]
    refine scatter_set_hit d x idx upd (ix1 i) (ix1 ⟨i.val, h⟩) ((hdec _).trans rfl) (fun j' hj' => ?_)
    obtain ⟨p, rfl⟩ : ∃ p : Fin n, j' = ix1 p := ⟨j' 0, eq_ix1 j'⟩
    rw [hdec] at hj'
    have e0 : Fin.castLE hn p = i := congrFun (Option.some.inj hj') 0
    have v0 : p.val = i.val := congrArg Fin.val e0
    exact congrArg ix1 (Fin.ext v0)
  · rw [dif_neg h]
    refine scatter_set_miss d x idx upd (ix1 i) (fun j' hj' => ?_)
    obtain ⟨p, rfl⟩ : ∃ p : Fin n, j' = ix1 p := ⟨j' 0, eq_ix1 j'⟩
    rw [hdec] at hj'
    have e0 : Fin.castLE hn p = i := congrFun (Option.some.inj hj') 0
    have v0 : p.val = i.val := congrArg Fin.val e0
    exact h (v0 ▸ p.isLt)

/-- Rank 2: an `[n, o]` update landing on the top-left corner of an `[N0, N1]` operand. -/
theorem scatter2_pad {N0 N1 n o : ℕ} (hn : n ≤ N0) (ho : o ≤ N1) (d : ScatterDims ⟨2, ![N0, N1]⟩ si ⟨2, ![n, o]⟩)
    (idx : IVec si w)
    (hdec : ∀ (p : Fin n) (q : Fin o), d.resultIdx? (ix2 p q) idx = some (ix2 (Fin.castLE hn p) (Fin.castLE ho q)))
    (x : (⟨2, ![N0, N1]⟩ : Shape).Idx → α) (upd : (⟨2, ![n, o]⟩ : Shape).Idx → α) (i : Fin N0) (j : Fin N1) :
    Host.scatter d (fun _ b => b) x idx upd (ix2 i j)
      = if h : i.val < n ∧ j.val < o then upd (ix2 ⟨i.val, h.1⟩ ⟨j.val, h.2⟩) else x (ix2 i j) := by
  by_cases h : i.val < n ∧ j.val < o
  · rw [dif_pos h]
    refine scatter_set_hit d x idx upd (ix2 i j) (ix2 ⟨i.val, h.1⟩ ⟨j.val, h.2⟩) ((hdec _ _).trans rfl) (fun j' hj' => ?_)
    obtain ⟨p, q, rfl⟩ : ∃ (p : Fin n) (q : Fin o), j' = ix2 p q := ⟨j' 0, j' 1, eq_ix2 j'⟩
    rw [hdec] at hj'
    have e0 : Fin.castLE hn p = i := congrFun (Option.some.inj hj') 0
    have e1 : Fin.castLE ho q = j := congrFun (Option.some.inj hj') 1
    have v0 : p.val = i.val := congrArg Fin.val e0
    have v1 : q.val = j.val := congrArg Fin.val e1
    have a0 : p = ⟨i.val, h.1⟩ := Fin.ext v0
    have a1 : q = ⟨j.val, h.2⟩ := Fin.ext v1
    rw [a0, a1]
  · rw [dif_neg h]
    refine scatter_set_miss d x idx upd (ix2 i j) (fun j' hj' => ?_)
    obtain ⟨p, q, rfl⟩ : ∃ (p : Fin n) (q : Fin o), j' = ix2 p q := ⟨j' 0, j' 1, eq_ix2 j'⟩
    rw [hdec] at hj'
    have e0 : Fin.castLE hn p = i := congrFun (Option.some.inj hj') 0
    have e1 : Fin.castLE ho q = j := congrFun (Option.some.inj hj') 1
    have v0 : p.val = i.val := congrArg Fin.val e0
    have v1 : q.val = j.val := congrArg Fin.val e1
    exact h ⟨v0 ▸ p.isLt, v1 ▸ q.isLt⟩

end Cert.LibScatterSet
-- ==== Proof.ScatterPad.lean ====
/-
  The host's zero padding read at an index: a weight transposed and written at the origin of an 8 × 8 array of
  zeros is `pad2` of the weight, a bias written at the origin of eight zeros is `pad1` of the bias. The scatter's
  index operand holds zeros (or has no element at all), so the update lands at the origin; which operand index
  each update element lands on is decided on the literal dimension numbers.
-/
import proofs.«141723_j17222818857346_2_alg».proof.Proof.Gen.KernelIdeal
import proofs.«141723_j17222818857346_2_alg».proof.Proof.LibScatterSet
import proofs.«141723_j17222818857346_2_alg».proof.Proof.MlpSpec
import Idealize.ShloMosaic.Lib.ValueLayout
import Idealize.ShloMosaic.PureOps.Ideal.Laws

noncomputable section

namespace Cert.KernelIdeal.ScatterPad

open Idealize.ShloMosaic Idealize.ShloMosaic.ValueIdx Cert.KernelIdeal Cert.KernelIdeal.Gen Cert.Mlp Cert.LibScatterSet

/-! ## The zeros and the index operands -/

theorem zeros2_apply (i j : Fin 8) :
    (broadcastInDim S8x8 ![] bcast_S_S8x8 (constant (F := Ideal) S_ .f32 0x00000000#32)) (ix2 i j) = 0 :=
  Ideal.ofBits_zero_f32

theorem zeros1_apply (i : Fin 8) :
    (broadcastInDim S8 ![] bcast_S_S8 (constant (F := Ideal) S_ .f32 0x00000000#32)) (ix1 i) = 0 :=
  Ideal.ofBits_zero_f32

/-- An index operand with no element is the only one there is. -/
theorem idx0_eq (idx : IVec S0 32) : idx = fun i => Fin.elim0 (i 0) := funext fun i => Fin.elim0 (i 0)

/-- The one-component index operand is zero. -/
theorem idx1_eq : (broadcastInDim S1 ![] bcast_S_S1 (constantI S_ 32 0#32) : IVec S1 32) = fun _ => 0#32 := funext fun _ => rfl

theorem cat_zero : ∀ j : Fin 2,
    (concatenate S2 0 [⟨S1, (fun _ => 0#32 : IVec S1 32)⟩, ⟨S1, (fun _ => 0#32 : IVec S1 32)⟩] concatenates_S1_S1_S2_d0
      : IVec S2 32) (ix1 j) = 0#32 := by
  decide

/-- The two-component index operand is zero. -/
theorem idx2_eq : (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) = fun _ => 0#32 := by
  rw [idx1_eq]
  funext j
  obtain ⟨p, rfl⟩ : ∃ p : Fin 2, j = ix1 p := ⟨j 0, eq_ix1 j⟩
  exact cat_zero p

/-! ### Layers of kind A: a [8, 8] weight, a [8] bias -/

theorem dec_W_A : ∀ (p : Fin 8) (q : Fin 8),
    scatter_S8x8_S0_S8x8_01_n_n_0.resultIdx? (ix2 p q) (fun i => Fin.elim0 (i 0) : IVec S0 32)
      = some (ix2 (Fin.castLE (by decide : 8 ≤ 8) p) (Fin.castLE (by decide : 8 ≤ 8) q)) := by
  decide

theorem dec_b_A : ∀ p : Fin 8,
    scatter_S8_S0_S8_0_n_n_0.resultIdx? (ix1 p) (fun i => Fin.elim0 (i 0) : IVec S0 32) = some (ix1 (Fin.castLE (by decide : 8 ≤ 8) p)) := by
  decide

/-- The transposed weight written at the origin of the 8 × 8 zeros is the padded weight. -/
theorem padW_A (idx : IVec S0 32) (W : FVec Ideal S8x8 .f32) (i j : Fin 8) :
    Host.scatter scatter_S8x8_S0_S8x8_01_n_n_0 (fun _ b => b) (broadcastInDim S8x8 ![] bcast_S_S8x8 (constant S_ .f32 0x00000000#32))
        idx (transpose S8x8 [1, 0] W transposes_S8x8_S8x8_1_0) (ix2 i j)
      = pad2 (fun a b => W (ix2 a b)) i j := by
  rw [idx0_eq idx, scatter2_pad (by decide : 8 ≤ 8) (by decide : 8 ≤ 8) _ _ dec_W_A]
  unfold pad2
  by_cases h : i.val < 8 ∧ j.val < 8
  · rw [dif_pos h, dif_pos h, transpose_ix2_apply]
  · rw [dif_neg h, dif_neg h]; exact zeros2_apply i j

/-- The bias written at the origin of the eight zeros is the padded bias. -/
theorem padb_A (idx : IVec S0 32) (b : FVec Ideal S8 .f32) (i : Fin 8) :
    Host.scatter scatter_S8_S0_S8_0_n_n_0 (fun _ b => b) (broadcastInDim S8 ![] bcast_S_S8 (constant S_ .f32 0x00000000#32))
        idx b (ix1 i)
      = pad1 (fun a => b (ix1 a)) i := by
  rw [idx0_eq idx, scatter1_pad (by decide : 8 ≤ 8) _ _ dec_b_A]
  unfold pad1
  by_cases h : i.val < 8
  · rw [dif_pos h, dif_pos h]
  · rw [dif_neg h, dif_neg h]; exact zeros1_apply i

/-! ### Layers of kind B: a [5, 8] weight, a [5] bias -/

theorem dec_W_B : ∀ (p : Fin 8) (q : Fin 5),
    scatter_S8x8_S1_S8x5_01_n_1_0.resultIdx? (ix2 p q) (fun _ => 0#32 : IVec S1 32)
      = some (ix2 (Fin.castLE (by decide : 8 ≤ 8) p) (Fin.castLE (by decide : 5 ≤ 8) q)) := by
  decide

theorem dec_b_B : ∀ p : Fin 5,
    scatter_S8_S1_S5_0_n_0_0.resultIdx? (ix1 p) (fun _ => 0#32 : IVec S1 32) = some (ix1 (Fin.castLE (by decide : 5 ≤ 8) p)) := by
  decide

/-- The transposed weight written at the origin of the 8 × 8 zeros is the padded weight. -/
theorem padW_B (W : FVec Ideal S5x8 .f32) (i j : Fin 8) :
    Host.scatter scatter_S8x8_S1_S8x5_01_n_1_0 (fun _ b => b) (broadcastInDim S8x8 ![] bcast_S_S8x8 (constant S_ .f32 0x00000000#32))
        (broadcastInDim S1 ![] bcast_S_S1 (constantI S_ 32 0#32)) (transpose S8x5 [1, 0] W transposes_S5x8_S8x5_1_0) (ix2 i j)
      = pad2 (fun a b => W (ix2 a b)) i j := by
  rw [idx1_eq, scatter2_pad (by decide : 8 ≤ 8) (by decide : 5 ≤ 8) _ _ dec_W_B]
  unfold pad2
  by_cases h : i.val < 8 ∧ j.val < 5
  · rw [dif_pos h, dif_pos h, transpose_ix2_apply]
  · rw [dif_neg h, dif_neg h]; exact zeros2_apply i j

/-- The bias written at the origin of the eight zeros is the padded bias. -/
theorem padb_B (b : FVec Ideal S5 .f32) (i : Fin 8) :
    Host.scatter scatter_S8_S1_S5_0_n_0_0 (fun _ b => b) (broadcastInDim S8 ![] bcast_S_S8 (constant S_ .f32 0x00000000#32))
        (broadcastInDim S1 ![] bcast_S_S1 (constantI S_ 32 0#32)) b (ix1 i)
      = pad1 (fun a => b (ix1 a)) i := by
  rw [idx1_eq, scatter1_pad (by decide : 5 ≤ 8) _ _ dec_b_B]
  unfold pad1
  by_cases h : i.val < 5
  · rw [dif_pos h, dif_pos h]
  · rw [dif_neg h, dif_neg h]; exact zeros1_apply i

/-! ### Layers of kind C: a [3, 5] weight, a [3] bias -/

theorem dec_W_C : ∀ (p : Fin 5) (q : Fin 3),
    scatter_S8x8_S2_S5x3_01_n_01_0.resultIdx? (ix2 p q) (fun _ => 0#32 : IVec S2 32)
      = some (ix2 (Fin.castLE (by decide : 5 ≤ 8) p) (Fin.castLE (by decide : 3 ≤ 8) q)) := by
  decide

theorem dec_b_C : ∀ p : Fin 3,
    scatter_S8_S1_S3_0_n_0_0.resultIdx? (ix1 p) (fun _ => 0#32 : IVec S1 32) = some (ix1 (Fin.castLE (by decide : 3 ≤ 8) p)) := by
  decide

/-- The transposed weight written at the origin of the 8 × 8 zeros is the padded weight. -/
theorem padW_C (W : FVec Ideal S3x5 .f32) (i j : Fin 8) :
    Host.scatter scatter_S8x8_S2_S5x3_01_n_01_0 (fun _ b => b) (broadcastInDim S8x8 ![] bcast_S_S8x8 (constant S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0) (transpose S5x3 [1, 0] W transposes_S3x5_S5x3_1_0) (ix2 i j)
      = pad2 (fun a b => W (ix2 a b)) i j := by
  rw [idx2_eq, scatter2_pad (by decide : 5 ≤ 8) (by decide : 3 ≤ 8) _ _ dec_W_C]
  unfold pad2
  by_cases h : i.val < 5 ∧ j.val < 3
  · rw [dif_pos h, dif_pos h, transpose_ix2_apply]
  · rw [dif_neg h, dif_neg h]; exact zeros2_apply i j

/-- The bias written at the origin of the eight zeros is the padded bias. -/
theorem padb_C (b : FVec Ideal S3 .f32) (i : Fin 8) :
    Host.scatter scatter_S8_S1_S3_0_n_0_0 (fun _ b => b) (broadcastInDim S8 ![] bcast_S_S8 (constant S_ .f32 0x00000000#32))
        (broadcastInDim S1 ![] bcast_S_S1 (constantI S_ 32 0#32)) b (ix1 i)
      = pad1 (fun a => b (ix1 a)) i := by
  rw [idx1_eq, scatter1_pad (by decide : 3 ≤ 8) _ _ dec_b_C]
  unfold pad1
  by_cases h : i.val < 3
  · rw [dif_pos h, dif_pos h]
  · rw [dif_neg h, dif_neg h]; exact zeros1_apply i

/-! ### Layers of kind D: a [1, 3] weight, a [1] bias -/

theorem dec_W_D : ∀ (p : Fin 3) (q : Fin 1),
    scatter_S8x8_S2_S3x1_01_n_01_0.resultIdx? (ix2 p q) (fun _ => 0#32 : IVec S2 32)
      = some (ix2 (Fin.castLE (by decide : 3 ≤ 8) p) (Fin.castLE (by decide : 1 ≤ 8) q)) := by
  decide

theorem dec_b_D : ∀ p : Fin 1,
    scatter_S8_S1_S1_0_n_0_0.resultIdx? (ix1 p) (fun _ => 0#32 : IVec S1 32) = some (ix1 (Fin.castLE (by decide : 1 ≤ 8) p)) := by
  decide

/-- The transposed weight written at the origin of the 8 × 8 zeros is the padded weight. -/
theorem padW_D (W : FVec Ideal S1x3 .f32) (i j : Fin 8) :
    Host.scatter scatter_S8x8_S2_S3x1_01_n_01_0 (fun _ b => b) (broadcastInDim S8x8 ![] bcast_S_S8x8 (constant S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0) (transpose S3x1 [1, 0] W transposes_S1x3_S3x1_1_0) (ix2 i j)
      = pad2 (fun a b => W (ix2 a b)) i j := by
  rw [idx2_eq, scatter2_pad (by decide : 3 ≤ 8) (by decide : 1 ≤ 8) _ _ dec_W_D]
  unfold pad2
  by_cases h : i.val < 3 ∧ j.val < 1
  · rw [dif_pos h, dif_pos h, transpose_ix2_apply]
  · rw [dif_neg h, dif_neg h]; exact zeros2_apply i j

/-- The bias written at the origin of the eight zeros is the padded bias. -/
theorem padb_D (b : FVec Ideal S1 .f32) (i : Fin 8) :
    Host.scatter scatter_S8_S1_S1_0_n_0_0 (fun _ b => b) (broadcastInDim S8 ![] bcast_S_S8 (constant S_ .f32 0x00000000#32))
        (broadcastInDim S1 ![] bcast_S_S1 (constantI S_ 32 0#32)) b (ix1 i)
      = pad1 (fun a => b (ix1 a)) i := by
  rw [idx1_eq, scatter1_pad (by decide : 1 ≤ 8) _ _ dec_b_D]
  unfold pad1
  by_cases h : i.val < 1
  · rw [dif_pos h, dif_pos h]
  · rw [dif_neg h, dif_neg h]; exact zeros1_apply i

end Cert.KernelIdeal.ScatterPad

end
-- ==== Proof.HostLayer1.lean ====
/-
  Layer 1 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer1

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U0 m c (Proc.devRef .tc main_arg1) = (m ((c : Thread nD τ).loc main_arg1)) :=
  rfl

/-- The bias argument is as launched when its stretch begins. -/
theorem argb_at (c : Dev nD) : U0 m c (Proc.devRef .tc main_arg2) = (m ((c : Thread nD τ).loc main_arg2)) :=
  rfl

/-- The padded weight: the transposed argument written at the origin of the zeros. -/
theorem padW_eq (c : Dev nD) :
    (U1 m c (Proc.devRef .tc main_v2) : S8x8.Idx → EReal)
      = Host.scatter scatter_S8x8_S0_S8x8_01_n_n_0 (fun _ b => b) (broadcastInDim S8x8 ![] bcast_S_S8x8 (constant (F := Ideal) S_ .f32 0x00000000#32)) (emptyVec S0 hz_S0 : IVec S0 32)
          (transpose S8x8 [1, 0] (m ((c : Thread nD τ).loc main_arg1)) transposes_S8x8_S8x8_1_0) := by
  show StableHlo.after hostOps0 (U0 m c) (Proc.devRef .tc main_v2) = _
  simp only [hostOps0]
  after_results
  rw [argW_at m c]

/-- The padded bias: the argument written at the origin of the zeros. -/
theorem padb_eq (c : Dev nD) :
    (U1 m c (Proc.devRef .tc main_v4) : S8.Idx → EReal)
      = Host.scatter scatter_S8_S0_S8_0_n_n_0 (fun _ b => b) (broadcastInDim S8 ![] bcast_S_S8 (constant (F := Ideal) S_ .f32 0x00000000#32)) (emptyVec S0 hz_S0 : IVec S0 32) (m ((c : Thread nD τ).loc main_arg2)) := by
  show StableHlo.after hostOps0 (U0 m c) (Proc.devRef .tc main_v4) = _
  simp only [hostOps0]
  after_results
  rw [argb_at m c]

/-- The identity: two iotas compared. -/
theorem eye_eq (c : Dev nD) :
    (U1 m c (Proc.devRef .tc main_v10) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0 (U0 m c) (Proc.devRef .tc main_v10) = _
  simp only [hostOps0]
  after_results

/-- The weight the region finds, from the identity and the padded weight. -/
theorem weight_eq (c : Dev nD) :
    (U2 m c (Proc.devRef .tc main_v11) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U1 m c (Proc.devRef .tc main_v10))))
            (broadcastInDim S16x8x16x8 ![0, 1, 2, 3] bcast_S1x8x1x8_S16x8x16x8_0_1_2_3
              (broadcastInDim S1x8x1x8 ![1, 3] bcast_S8x8_S1x8x1x8_1_3 (U1 m c (Proc.devRef .tc main_v2)))))
          shapeCasts_S16x8x16x8_S128x128 := by
  show StableHlo.after hostOps0_1 (U1 m c) (Proc.devRef .tc main_v11) = _
  simp only [hostOps0_1]
  after_results
  rfl

/-- The bias row the region finds, from the padded bias. -/
theorem bias_eq (c : Dev nD) :
    (U3 m c (Proc.devRef .tc main_v15) : S1x128.Idx → EReal)
      = shapeCast S1x128 (shapeCast S128 (broadcastInDim S16x8 ![0, 1] bcast_S1x8_S16x8_0_1
          (shapeCast S1x8 (U2 m c (Proc.devRef .tc main_v4)) shapeCasts_S8_S1x8)) shapeCasts_S16x8_S128)
          shapeCasts_S128_S1x128 := by
  show StableHlo.after hostOps0_2 (U2 m c) (Proc.devRef .tc main_v15) = _
  simp only [hostOps0_2]
  after_results
  rfl

/-- No later stretch writes the weight. -/
theorem V_w (c : Dev nD) : V m c main_v11 = U2 m c (Proc.devRef .tc main_v11) :=
  (congrFun (V0_eq m c) _).trans ((skip24 m c main_v11 (by decide)).trans ((skip23 m c main_v11 (by decide)).trans ((skip22 m c main_v11 (by decide)).trans ((skip21 m c main_v11 (by decide)).trans ((skip20 m c main_v11 (by decide)).trans ((skip19 m c main_v11 (by decide)).trans ((skip18 m c main_v11 (by decide)).trans ((skip17 m c main_v11 (by decide)).trans ((skip16 m c main_v11 (by decide)).trans ((skip15 m c main_v11 (by decide)).trans ((skip14 m c main_v11 (by decide)).trans ((skip13 m c main_v11 (by decide)).trans ((skip12 m c main_v11 (by decide)).trans ((skip11 m c main_v11 (by decide)).trans ((skip10 m c main_v11 (by decide)).trans ((skip9 m c main_v11 (by decide)).trans ((skip8 m c main_v11 (by decide)).trans ((skip7 m c main_v11 (by decide)).trans ((skip6 m c main_v11 (by decide)).trans ((skip5 m c main_v11 (by decide)).trans ((skip4 m c main_v11 (by decide)).trans ((skip3 m c main_v11 (by decide)).trans ((skip2 m c main_v11 (by decide)))))))))))))))))))))))))

/-- No later stretch writes the bias row. -/
theorem V_B (c : Dev nD) : V m c main_v15 = U3 m c (Proc.devRef .tc main_v15) :=
  (congrFun (V0_eq m c) _).trans ((skip24 m c main_v15 (by decide)).trans ((skip23 m c main_v15 (by decide)).trans ((skip22 m c main_v15 (by decide)).trans ((skip21 m c main_v15 (by decide)).trans ((skip20 m c main_v15 (by decide)).trans ((skip19 m c main_v15 (by decide)).trans ((skip18 m c main_v15 (by decide)).trans ((skip17 m c main_v15 (by decide)).trans ((skip16 m c main_v15 (by decide)).trans ((skip15 m c main_v15 (by decide)).trans ((skip14 m c main_v15 (by decide)).trans ((skip13 m c main_v15 (by decide)).trans ((skip12 m c main_v15 (by decide)).trans ((skip11 m c main_v15 (by decide)).trans ((skip10 m c main_v15 (by decide)).trans ((skip9 m c main_v15 (by decide)).trans ((skip8 m c main_v15 (by decide)).trans ((skip7 m c main_v15 (by decide)).trans ((skip6 m c main_v15 (by decide)).trans ((skip5 m c main_v15 (by decide)).trans ((skip4 m c main_v15 (by decide)).trans ((skip3 m c main_v15 (by decide))))))))))))))))))))))))

/-- The weight the region finds is the identity ⊗ the padded transposed weight. -/
theorem isKron (c : Dev nD) :
    IsKron (mat (V m c main_v11)) (pad2 (fun a b => (m ((c : Thread nD τ).loc main_arg1)) (ix2 a b))) := by
  intro a b cc d
  show V m c main_v11 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v15)) (pad1 (fun a => (m ((c : Thread nD τ).loc main_arg2)) (ix1 a))) := by
  intro cc d
  show V m c main_v15 (ix2 (0 : Fin 1) (lane cc d)) = _
  rw [V_B m c, bias_eq m c, tile_apply, skip1 m c main_v4 (by decide), padb_eq m c, padb_A]

end Cert.KernelIdeal.HostLayer1

end
-- ==== Proof.HostLayer2.lean ====
/-
  Layer 2 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer2

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U2 m c (Proc.devRef .tc main_arg3) = (m ((c : Thread nD τ).loc main_arg3)) :=
  (skip1 m c main_arg3 (by decide)).trans ((skip0 m c main_arg3 (by decide)))

/-- The bias argument is as launched when its stretch begins. -/
theorem argb_at (c : Dev nD) : U2 m c (Proc.devRef .tc main_arg4) = (m ((c : Thread nD τ).loc main_arg4)) :=
  (skip1 m c main_arg4 (by decide)).trans ((skip0 m c main_arg4 (by decide)))

/-- The padded weight: the transposed argument written at the origin of the zeros. -/
theorem padW_eq (c : Dev nD) :
    (U3 m c (Proc.devRef .tc main_v18) : S8x8.Idx → EReal)
      = Host.scatter scatter_S8x8_S0_S8x8_01_n_n_0 (fun _ b => b) (broadcastInDim S8x8 ![] bcast_S_S8x8 (constant (F := Ideal) S_ .f32 0x00000000#32)) (U2 m c (Proc.devRef .tc main_c_1))
          (transpose S8x8 [1, 0] (m ((c : Thread nD τ).loc main_arg3)) transposes_S8x8_S8x8_1_0) := by
  show StableHlo.after hostOps0_2 (U2 m c) (Proc.devRef .tc main_v18) = _
  simp only [hostOps0_2]
  after_results
  rw [argW_at m c]

/-- The padded bias: the argument written at the origin of the zeros. -/
theorem padb_eq (c : Dev nD) :
    (U3 m c (Proc.devRef .tc main_v20) : S8.Idx → EReal)
      = Host.scatter scatter_S8_S0_S8_0_n_n_0 (fun _ b => b) (broadcastInDim S8 ![] bcast_S_S8 (constant (F := Ideal) S_ .f32 0x00000000#32)) (U2 m c (Proc.devRef .tc main_c_2)) (m ((c : Thread nD τ).loc main_arg4)) := by
  show StableHlo.after hostOps0_2 (U2 m c) (Proc.devRef .tc main_v20) = _
  simp only [hostOps0_2]
  after_results
  rw [argb_at m c]

/-- The identity: two iotas compared. -/
theorem eye_eq (c : Dev nD) :
    (U3 m c (Proc.devRef .tc main_v26) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_2 (U2 m c) (Proc.devRef .tc main_v26) = _
  simp only [hostOps0_2]
  after_results

/-- The weight the region finds, from the identity and the padded weight. -/
theorem weight_eq (c : Dev nD) :
    (U4 m c (Proc.devRef .tc main_v27) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U3 m c (Proc.devRef .tc main_v26))))
            (broadcastInDim S16x8x16x8 ![0, 1, 2, 3] bcast_S1x8x1x8_S16x8x16x8_0_1_2_3
              (broadcastInDim S1x8x1x8 ![1, 3] bcast_S8x8_S1x8x1x8_1_3 (U3 m c (Proc.devRef .tc main_v18)))))
          shapeCasts_S16x8x16x8_S128x128 := by
  show StableHlo.after hostOps0_3 (U3 m c) (Proc.devRef .tc main_v27) = _
  simp only [hostOps0_3]
  after_results
  rfl

/-- The bias row the region finds, from the padded bias. -/
theorem bias_eq (c : Dev nD) :
    (U5 m c (Proc.devRef .tc main_v31) : S1x128.Idx → EReal)
      = shapeCast S1x128 (shapeCast S128 (broadcastInDim S16x8 ![0, 1] bcast_S1x8_S16x8_0_1
          (shapeCast S1x8 (U4 m c (Proc.devRef .tc main_v20)) shapeCasts_S8_S1x8)) shapeCasts_S16x8_S128)
          shapeCasts_S128_S1x128 := by
  show StableHlo.after hostOps0_4 (U4 m c) (Proc.devRef .tc main_v31) = _
  simp only [hostOps0_4]
  after_results
  rfl

/-- No later stretch writes the weight. -/
theorem V_w (c : Dev nD) : V m c main_v27 = U4 m c (Proc.devRef .tc main_v27) :=
  (congrFun (V0_eq m c) _).trans ((skip24 m c main_v27 (by decide)).trans ((skip23 m c main_v27 (by decide)).trans ((skip22 m c main_v27 (by decide)).trans ((skip21 m c main_v27 (by decide)).trans ((skip20 m c main_v27 (by decide)).trans ((skip19 m c main_v27 (by decide)).trans ((skip18 m c main_v27 (by decide)).trans ((skip17 m c main_v27 (by decide)).trans ((skip16 m c main_v27 (by decide)).trans ((skip15 m c main_v27 (by decide)).trans ((skip14 m c main_v27 (by decide)).trans ((skip13 m c main_v27 (by decide)).trans ((skip12 m c main_v27 (by decide)).trans ((skip11 m c main_v27 (by decide)).trans ((skip10 m c main_v27 (by decide)).trans ((skip9 m c main_v27 (by decide)).trans ((skip8 m c main_v27 (by decide)).trans ((skip7 m c main_v27 (by decide)).trans ((skip6 m c main_v27 (by decide)).trans ((skip5 m c main_v27 (by decide)).trans ((skip4 m c main_v27 (by decide)))))))))))))))))))))))

/-- No later stretch writes the bias row. -/
theorem V_B (c : Dev nD) : V m c main_v31 = U5 m c (Proc.devRef .tc main_v31) :=
  (congrFun (V0_eq m c) _).trans ((skip24 m c main_v31 (by decide)).trans ((skip23 m c main_v31 (by decide)).trans ((skip22 m c main_v31 (by decide)).trans ((skip21 m c main_v31 (by decide)).trans ((skip20 m c main_v31 (by decide)).trans ((skip19 m c main_v31 (by decide)).trans ((skip18 m c main_v31 (by decide)).trans ((skip17 m c main_v31 (by decide)).trans ((skip16 m c main_v31 (by decide)).trans ((skip15 m c main_v31 (by decide)).trans ((skip14 m c main_v31 (by decide)).trans ((skip13 m c main_v31 (by decide)).trans ((skip12 m c main_v31 (by decide)).trans ((skip11 m c main_v31 (by decide)).trans ((skip10 m c main_v31 (by decide)).trans ((skip9 m c main_v31 (by decide)).trans ((skip8 m c main_v31 (by decide)).trans ((skip7 m c main_v31 (by decide)).trans ((skip6 m c main_v31 (by decide)).trans ((skip5 m c main_v31 (by decide))))))))))))))))))))))

/-- The weight the region finds is the identity ⊗ the padded transposed weight. -/
theorem isKron (c : Dev nD) :
    IsKron (mat (V m c main_v27)) (pad2 (fun a b => (m ((c : Thread nD τ).loc main_arg3)) (ix2 a b))) := by
  intro a b cc d
  show V m c main_v27 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v31)) (pad1 (fun a => (m ((c : Thread nD τ).loc main_arg4)) (ix1 a))) := by
  intro cc d
  show V m c main_v31 (ix2 (0 : Fin 1) (lane cc d)) = _
  rw [V_B m c, bias_eq m c, tile_apply, skip3 m c main_v20 (by decide), padb_eq m c, padb_A]

end Cert.KernelIdeal.HostLayer2

end
-- ==== Proof.HostLayer3.lean ====
/-
  Layer 3 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer3

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U4 m c (Proc.devRef .tc main_arg5) = (m ((c : Thread nD τ).loc main_arg5)) :=
  (skip3 m c main_arg5 (by decide)).trans ((skip2 m c main_arg5 (by decide)).trans ((skip1 m c main_arg5 (by decide)).trans ((skip0 m c main_arg5 (by decide)))))

/-- The bias argument is as launched when its stretch begins. -/
theorem argb_at (c : Dev nD) : U4 m c (Proc.devRef .tc main_arg6) = (m ((c : Thread nD τ).loc main_arg6)) :=
  (skip3 m c main_arg6 (by decide)).trans ((skip2 m c main_arg6 (by decide)).trans ((skip1 m c main_arg6 (by decide)).trans ((skip0 m c main_arg6 (by decide)))))

/-- The padded weight: the transposed argument written at the origin of the zeros. -/
theorem padW_eq (c : Dev nD) :
    (U5 m c (Proc.devRef .tc main_v34) : S8x8.Idx → EReal)
      = Host.scatter scatter_S8x8_S0_S8x8_01_n_n_0 (fun _ b => b) (broadcastInDim S8x8 ![] bcast_S_S8x8 (constant (F := Ideal) S_ .f32 0x00000000#32)) (U4 m c (Proc.devRef .tc main_c_3))
          (transpose S8x8 [1, 0] (m ((c : Thread nD τ).loc main_arg5)) transposes_S8x8_S8x8_1_0) := by
  show StableHlo.after hostOps0_4 (U4 m c) (Proc.devRef .tc main_v34) = _
  simp only [hostOps0_4]
  after_results
  rw [argW_at m c]

/-- The padded bias: the argument written at the origin of the zeros. -/
theorem padb_eq (c : Dev nD) :
    (U5 m c (Proc.devRef .tc main_v36) : S8.Idx → EReal)
      = Host.scatter scatter_S8_S0_S8_0_n_n_0 (fun _ b => b) (broadcastInDim S8 ![] bcast_S_S8 (constant (F := Ideal) S_ .f32 0x00000000#32)) (U4 m c (Proc.devRef .tc main_c_4)) (m ((c : Thread nD τ).loc main_arg6)) := by
  show StableHlo.after hostOps0_4 (U4 m c) (Proc.devRef .tc main_v36) = _
  simp only [hostOps0_4]
  after_results
  rw [argb_at m c]

/-- The identity: two iotas compared. -/
theorem eye_eq (c : Dev nD) :
    (U5 m c (Proc.devRef .tc main_v42) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_4 (U4 m c) (Proc.devRef .tc main_v42) = _
  simp only [hostOps0_4]
  after_results

/-- The weight the region finds, from the identity and the padded weight. -/
theorem weight_eq (c : Dev nD) :
    (U6 m c (Proc.devRef .tc main_v43) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U5 m c (Proc.devRef .tc main_v42))))
            (broadcastInDim S16x8x16x8 ![0, 1, 2, 3] bcast_S1x8x1x8_S16x8x16x8_0_1_2_3
              (broadcastInDim S1x8x1x8 ![1, 3] bcast_S8x8_S1x8x1x8_1_3 (U5 m c (Proc.devRef .tc main_v34)))))
          shapeCasts_S16x8x16x8_S128x128 := by
  show StableHlo.after hostOps0_5 (U5 m c) (Proc.devRef .tc main_v43) = _
  simp only [hostOps0_5]
  after_results
  rfl

/-- The bias row the region finds, from the padded bias. -/
theorem bias_eq (c : Dev nD) :
    (U7 m c (Proc.devRef .tc main_v47) : S1x128.Idx → EReal)
      = shapeCast S1x128 (shapeCast S128 (broadcastInDim S16x8 ![0, 1] bcast_S1x8_S16x8_0_1
          (shapeCast S1x8 (U6 m c (Proc.devRef .tc main_v36)) shapeCasts_S8_S1x8)) shapeCasts_S16x8_S128)
          shapeCasts_S128_S1x128 := by
  show StableHlo.after hostOps0_6 (U6 m c) (Proc.devRef .tc main_v47) = _
  simp only [hostOps0_6]
  after_results
  rfl

/-- No later stretch writes the weight. -/
theorem V_w (c : Dev nD) : V m c main_v43 = U6 m c (Proc.devRef .tc main_v43) :=
  (congrFun (V0_eq m c) _).trans ((skip24 m c main_v43 (by decide)).trans ((skip23 m c main_v43 (by decide)).trans ((skip22 m c main_v43 (by decide)).trans ((skip21 m c main_v43 (by decide)).trans ((skip20 m c main_v43 (by decide)).trans ((skip19 m c main_v43 (by decide)).trans ((skip18 m c main_v43 (by decide)).trans ((skip17 m c main_v43 (by decide)).trans ((skip16 m c main_v43 (by decide)).trans ((skip15 m c main_v43 (by decide)).trans ((skip14 m c main_v43 (by decide)).trans ((skip13 m c main_v43 (by decide)).trans ((skip12 m c main_v43 (by decide)).trans ((skip11 m c main_v43 (by decide)).trans ((skip10 m c main_v43 (by decide)).trans ((skip9 m c main_v43 (by decide)).trans ((skip8 m c main_v43 (by decide)).trans ((skip7 m c main_v43 (by decide)).trans ((skip6 m c main_v43 (by decide)))))))))))))))))))))

/-- No later stretch writes the bias row. -/
theorem V_B (c : Dev nD) : V m c main_v47 = U7 m c (Proc.devRef .tc main_v47) :=
  (congrFun (V0_eq m c) _).trans ((skip24 m c main_v47 (by decide)).trans ((skip23 m c main_v47 (by decide)).trans ((skip22 m c main_v47 (by decide)).trans ((skip21 m c main_v47 (by decide)).trans ((skip20 m c main_v47 (by decide)).trans ((skip19 m c main_v47 (by decide)).trans ((skip18 m c main_v47 (by decide)).trans ((skip17 m c main_v47 (by decide)).trans ((skip16 m c main_v47 (by decide)).trans ((skip15 m c main_v47 (by decide)).trans ((skip14 m c main_v47 (by decide)).trans ((skip13 m c main_v47 (by decide)).trans ((skip12 m c main_v47 (by decide)).trans ((skip11 m c main_v47 (by decide)).trans ((skip10 m c main_v47 (by decide)).trans ((skip9 m c main_v47 (by decide)).trans ((skip8 m c main_v47 (by decide)).trans ((skip7 m c main_v47 (by decide))))))))))))))))))))

/-- The weight the region finds is the identity ⊗ the padded transposed weight. -/
theorem isKron (c : Dev nD) :
    IsKron (mat (V m c main_v43)) (pad2 (fun a b => (m ((c : Thread nD τ).loc main_arg5)) (ix2 a b))) := by
  intro a b cc d
  show V m c main_v43 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v47)) (pad1 (fun a => (m ((c : Thread nD τ).loc main_arg6)) (ix1 a))) := by
  intro cc d
  show V m c main_v47 (ix2 (0 : Fin 1) (lane cc d)) = _
  rw [V_B m c, bias_eq m c, tile_apply, skip5 m c main_v36 (by decide), padb_eq m c, padb_A]

end Cert.KernelIdeal.HostLayer3

end
-- ==== Proof.HostLayer4.lean ====
/-
  Layer 4 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer4

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U6 m c (Proc.devRef .tc main_arg7) = (m ((c : Thread nD τ).loc main_arg7)) :=
  (skip5 m c main_arg7 (by decide)).trans ((skip4 m c main_arg7 (by decide)).trans ((skip3 m c main_arg7 (by decide)).trans ((skip2 m c main_arg7 (by decide)).trans ((skip1 m c main_arg7 (by decide)).trans ((skip0 m c main_arg7 (by decide)))))))

/-- The bias argument is as launched when its stretch begins. -/
theorem argb_at (c : Dev nD) : U6 m c (Proc.devRef .tc main_arg8) = (m ((c : Thread nD τ).loc main_arg8)) :=
  (skip5 m c main_arg8 (by decide)).trans ((skip4 m c main_arg8 (by decide)).trans ((skip3 m c main_arg8 (by decide)).trans ((skip2 m c main_arg8 (by decide)).trans ((skip1 m c main_arg8 (by decide)).trans ((skip0 m c main_arg8 (by decide)))))))

/-- The padded weight: the transposed argument written at the origin of the zeros. -/
theorem padW_eq (c : Dev nD) :
    (U7 m c (Proc.devRef .tc main_v50) : S8x8.Idx → EReal)
      = Host.scatter scatter_S8x8_S0_S8x8_01_n_n_0 (fun _ b => b) (broadcastInDim S8x8 ![] bcast_S_S8x8 (constant (F := Ideal) S_ .f32 0x00000000#32)) (U6 m c (Proc.devRef .tc main_c_5))
          (transpose S8x8 [1, 0] (m ((c : Thread nD τ).loc main_arg7)) transposes_S8x8_S8x8_1_0) := by
  show StableHlo.after hostOps0_6 (U6 m c) (Proc.devRef .tc main_v50) = _
  simp only [hostOps0_6]
  after_results
  rw [argW_at m c]

/-- The padded bias: the argument written at the origin of the zeros. -/
theorem padb_eq (c : Dev nD) :
    (U7 m c (Proc.devRef .tc main_v52) : S8.Idx → EReal)
      = Host.scatter scatter_S8_S0_S8_0_n_n_0 (fun _ b => b) (broadcastInDim S8 ![] bcast_S_S8 (constant (F := Ideal) S_ .f32 0x00000000#32)) (U6 m c (Proc.devRef .tc main_c_6)) (m ((c : Thread nD τ).loc main_arg8)) := by
  show StableHlo.after hostOps0_6 (U6 m c) (Proc.devRef .tc main_v52) = _
  simp only [hostOps0_6]
  after_results
  rw [argb_at m c]

/-- The identity: two iotas compared. -/
theorem eye_eq (c : Dev nD) :
    (U7 m c (Proc.devRef .tc main_v58) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_6 (U6 m c) (Proc.devRef .tc main_v58) = _
  simp only [hostOps0_6]
  after_results

/-- The weight the region finds, from the identity and the padded weight. -/
theorem weight_eq (c : Dev nD) :
    (U8 m c (Proc.devRef .tc main_v59) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U7 m c (Proc.devRef .tc main_v58))))
            (broadcastInDim S16x8x16x8 ![0, 1, 2, 3] bcast_S1x8x1x8_S16x8x16x8_0_1_2_3
              (broadcastInDim S1x8x1x8 ![1, 3] bcast_S8x8_S1x8x1x8_1_3 (U7 m c (Proc.devRef .tc main_v50)))))
          shapeCasts_S16x8x16x8_S128x128 := by
  show StableHlo.after hostOps0_7 (U7 m c) (Proc.devRef .tc main_v59) = _
  simp only [hostOps0_7]
  after_results
  rfl

/-- The bias row the region finds, from the padded bias. -/
theorem bias_eq (c : Dev nD) :
    (U9 m c (Proc.devRef .tc main_v63) : S1x128.Idx → EReal)
      = shapeCast S1x128 (shapeCast S128 (broadcastInDim S16x8 ![0, 1] bcast_S1x8_S16x8_0_1
          (shapeCast S1x8 (U8 m c (Proc.devRef .tc main_v52)) shapeCasts_S8_S1x8)) shapeCasts_S16x8_S128)
          shapeCasts_S128_S1x128 := by
  show StableHlo.after hostOps0_8 (U8 m c) (Proc.devRef .tc main_v63) = _
  simp only [hostOps0_8]
  after_results
  rfl

/-- No later stretch writes the weight. -/
theorem V_w (c : Dev nD) : V m c main_v59 = U8 m c (Proc.devRef .tc main_v59) :=
  (congrFun (V0_eq m c) _).trans ((skip24 m c main_v59 (by decide)).trans ((skip23 m c main_v59 (by decide)).trans ((skip22 m c main_v59 (by decide)).trans ((skip21 m c main_v59 (by decide)).trans ((skip20 m c main_v59 (by decide)).trans ((skip19 m c main_v59 (by decide)).trans ((skip18 m c main_v59 (by decide)).trans ((skip17 m c main_v59 (by decide)).trans ((skip16 m c main_v59 (by decide)).trans ((skip15 m c main_v59 (by decide)).trans ((skip14 m c main_v59 (by decide)).trans ((skip13 m c main_v59 (by decide)).trans ((skip12 m c main_v59 (by decide)).trans ((skip11 m c main_v59 (by decide)).trans ((skip10 m c main_v59 (by decide)).trans ((skip9 m c main_v59 (by decide)).trans ((skip8 m c main_v59 (by decide)))))))))))))))))))

/-- No later stretch writes the bias row. -/
theorem V_B (c : Dev nD) : V m c main_v63 = U9 m c (Proc.devRef .tc main_v63) :=
  (congrFun (V0_eq m c) _).trans ((skip24 m c main_v63 (by decide)).trans ((skip23 m c main_v63 (by decide)).trans ((skip22 m c main_v63 (by decide)).trans ((skip21 m c main_v63 (by decide)).trans ((skip20 m c main_v63 (by decide)).trans ((skip19 m c main_v63 (by decide)).trans ((skip18 m c main_v63 (by decide)).trans ((skip17 m c main_v63 (by decide)).trans ((skip16 m c main_v63 (by decide)).trans ((skip15 m c main_v63 (by decide)).trans ((skip14 m c main_v63 (by decide)).trans ((skip13 m c main_v63 (by decide)).trans ((skip12 m c main_v63 (by decide)).trans ((skip11 m c main_v63 (by decide)).trans ((skip10 m c main_v63 (by decide)).trans ((skip9 m c main_v63 (by decide))))))))))))))))))

/-- The weight the region finds is the identity ⊗ the padded transposed weight. -/
theorem isKron (c : Dev nD) :
    IsKron (mat (V m c main_v59)) (pad2 (fun a b => (m ((c : Thread nD τ).loc main_arg7)) (ix2 a b))) := by
  intro a b cc d
  show V m c main_v59 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v63)) (pad1 (fun a => (m ((c : Thread nD τ).loc main_arg8)) (ix1 a))) := by
  intro cc d
  show V m c main_v63 (ix2 (0 : Fin 1) (lane cc d)) = _
  rw [V_B m c, bias_eq m c, tile_apply, skip7 m c main_v52 (by decide), padb_eq m c, padb_A]

end Cert.KernelIdeal.HostLayer4

end
-- ==== Proof.HostLayer5.lean ====
/-
  Layer 5 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer5

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U8 m c (Proc.devRef .tc main_arg9) = (m ((c : Thread nD τ).loc main_arg9)) :=
  (skip7 m c main_arg9 (by decide)).trans ((skip6 m c main_arg9 (by decide)).trans ((skip5 m c main_arg9 (by decide)).trans ((skip4 m c main_arg9 (by decide)).trans ((skip3 m c main_arg9 (by decide)).trans ((skip2 m c main_arg9 (by decide)).trans ((skip1 m c main_arg9 (by decide)).trans ((skip0 m c main_arg9 (by decide)))))))))

/-- The bias argument is as launched when its stretch begins. -/
theorem argb_at (c : Dev nD) : U8 m c (Proc.devRef .tc main_arg10) = (m ((c : Thread nD τ).loc main_arg10)) :=
  (skip7 m c main_arg10 (by decide)).trans ((skip6 m c main_arg10 (by decide)).trans ((skip5 m c main_arg10 (by decide)).trans ((skip4 m c main_arg10 (by decide)).trans ((skip3 m c main_arg10 (by decide)).trans ((skip2 m c main_arg10 (by decide)).trans ((skip1 m c main_arg10 (by decide)).trans ((skip0 m c main_arg10 (by decide)))))))))

/-- The padded weight: the transposed argument written at the origin of the zeros. -/
theorem padW_eq (c : Dev nD) :
    (U9 m c (Proc.devRef .tc main_v66) : S8x8.Idx → EReal)
      = Host.scatter scatter_S8x8_S0_S8x8_01_n_n_0 (fun _ b => b) (broadcastInDim S8x8 ![] bcast_S_S8x8 (constant (F := Ideal) S_ .f32 0x00000000#32)) (U8 m c (Proc.devRef .tc main_c_7))
          (transpose S8x8 [1, 0] (m ((c : Thread nD τ).loc main_arg9)) transposes_S8x8_S8x8_1_0) := by
  show StableHlo.after hostOps0_8 (U8 m c) (Proc.devRef .tc main_v66) = _
  simp only [hostOps0_8]
  after_results
  rw [argW_at m c]

/-- The padded bias: the argument written at the origin of the zeros. -/
theorem padb_eq (c : Dev nD) :
    (U9 m c (Proc.devRef .tc main_v68) : S8.Idx → EReal)
      = Host.scatter scatter_S8_S0_S8_0_n_n_0 (fun _ b => b) (broadcastInDim S8 ![] bcast_S_S8 (constant (F := Ideal) S_ .f32 0x00000000#32)) (U8 m c (Proc.devRef .tc main_c_8)) (m ((c : Thread nD τ).loc main_arg10)) := by
  show StableHlo.after hostOps0_8 (U8 m c) (Proc.devRef .tc main_v68) = _
  simp only [hostOps0_8]
  after_results
  rw [argb_at m c]

/-- The identity: two iotas compared. -/
theorem eye_eq (c : Dev nD) :
    (U9 m c (Proc.devRef .tc main_v74) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_8 (U8 m c) (Proc.devRef .tc main_v74) = _
  simp only [hostOps0_8]
  after_results

/-- The weight the region finds, from the identity and the padded weight. -/
theorem weight_eq (c : Dev nD) :
    (U10 m c (Proc.devRef .tc main_v75) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U9 m c (Proc.devRef .tc main_v74))))
            (broadcastInDim S16x8x16x8 ![0, 1, 2, 3] bcast_S1x8x1x8_S16x8x16x8_0_1_2_3
              (broadcastInDim S1x8x1x8 ![1, 3] bcast_S8x8_S1x8x1x8_1_3 (U9 m c (Proc.devRef .tc main_v66)))))
          shapeCasts_S16x8x16x8_S128x128 := by
  show StableHlo.after hostOps0_9 (U9 m c) (Proc.devRef .tc main_v75) = _
  simp only [hostOps0_9]
  after_results
  rfl

/-- The bias row the region finds, from the padded bias. -/
theorem bias_eq (c : Dev nD) :
    (U11 m c (Proc.devRef .tc main_v79) : S1x128.Idx → EReal)
      = shapeCast S1x128 (shapeCast S128 (broadcastInDim S16x8 ![0, 1] bcast_S1x8_S16x8_0_1
          (shapeCast S1x8 (U10 m c (Proc.devRef .tc main_v68)) shapeCasts_S8_S1x8)) shapeCasts_S16x8_S128)
          shapeCasts_S128_S1x128 := by
  show StableHlo.after hostOps0_10 (U10 m c) (Proc.devRef .tc main_v79) = _
  simp only [hostOps0_10]
  after_results
  rfl

/-- No later stretch writes the weight. -/
theorem V_w (c : Dev nD) : V m c main_v75 = U10 m c (Proc.devRef .tc main_v75) :=
  (congrFun (V0_eq m c) _).trans ((skip24 m c main_v75 (by decide)).trans ((skip23 m c main_v75 (by decide)).trans ((skip22 m c main_v75 (by decide)).trans ((skip21 m c main_v75 (by decide)).trans ((skip20 m c main_v75 (by decide)).trans ((skip19 m c main_v75 (by decide)).trans ((skip18 m c main_v75 (by decide)).trans ((skip17 m c main_v75 (by decide)).trans ((skip16 m c main_v75 (by decide)).trans ((skip15 m c main_v75 (by decide)).trans ((skip14 m c main_v75 (by decide)).trans ((skip13 m c main_v75 (by decide)).trans ((skip12 m c main_v75 (by decide)).trans ((skip11 m c main_v75 (by decide)).trans ((skip10 m c main_v75 (by decide)))))))))))))))))

/-- No later stretch writes the bias row. -/
theorem V_B (c : Dev nD) : V m c main_v79 = U11 m c (Proc.devRef .tc main_v79) :=
  (congrFun (V0_eq m c) _).trans ((skip24 m c main_v79 (by decide)).trans ((skip23 m c main_v79 (by decide)).trans ((skip22 m c main_v79 (by decide)).trans ((skip21 m c main_v79 (by decide)).trans ((skip20 m c main_v79 (by decide)).trans ((skip19 m c main_v79 (by decide)).trans ((skip18 m c main_v79 (by decide)).trans ((skip17 m c main_v79 (by decide)).trans ((skip16 m c main_v79 (by decide)).trans ((skip15 m c main_v79 (by decide)).trans ((skip14 m c main_v79 (by decide)).trans ((skip13 m c main_v79 (by decide)).trans ((skip12 m c main_v79 (by decide)).trans ((skip11 m c main_v79 (by decide))))))))))))))))

/-- The weight the region finds is the identity ⊗ the padded transposed weight. -/
theorem isKron (c : Dev nD) :
    IsKron (mat (V m c main_v75)) (pad2 (fun a b => (m ((c : Thread nD τ).loc main_arg9)) (ix2 a b))) := by
  intro a b cc d
  show V m c main_v75 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v79)) (pad1 (fun a => (m ((c : Thread nD τ).loc main_arg10)) (ix1 a))) := by
  intro cc d
  show V m c main_v79 (ix2 (0 : Fin 1) (lane cc d)) = _
  rw [V_B m c, bias_eq m c, tile_apply, skip9 m c main_v68 (by decide), padb_eq m c, padb_A]

end Cert.KernelIdeal.HostLayer5

end
-- ==== Proof.HostLayer6.lean ====
/-
  Layer 6 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer6

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U10 m c (Proc.devRef .tc main_arg11) = (m ((c : Thread nD τ).loc main_arg11)) :=
  (skip9 m c main_arg11 (by decide)).trans ((skip8 m c main_arg11 (by decide)).trans ((skip7 m c main_arg11 (by decide)).trans ((skip6 m c main_arg11 (by decide)).trans ((skip5 m c main_arg11 (by decide)).trans ((skip4 m c main_arg11 (by decide)).trans ((skip3 m c main_arg11 (by decide)).trans ((skip2 m c main_arg11 (by decide)).trans ((skip1 m c main_arg11 (by decide)).trans ((skip0 m c main_arg11 (by decide)))))))))))

/-- The bias argument is as launched when its stretch begins. -/
theorem argb_at (c : Dev nD) : U10 m c (Proc.devRef .tc main_arg12) = (m ((c : Thread nD τ).loc main_arg12)) :=
  (skip9 m c main_arg12 (by decide)).trans ((skip8 m c main_arg12 (by decide)).trans ((skip7 m c main_arg12 (by decide)).trans ((skip6 m c main_arg12 (by decide)).trans ((skip5 m c main_arg12 (by decide)).trans ((skip4 m c main_arg12 (by decide)).trans ((skip3 m c main_arg12 (by decide)).trans ((skip2 m c main_arg12 (by decide)).trans ((skip1 m c main_arg12 (by decide)).trans ((skip0 m c main_arg12 (by decide)))))))))))

/-- The padded weight: the transposed argument written at the origin of the zeros. -/
theorem padW_eq (c : Dev nD) :
    (U11 m c (Proc.devRef .tc main_v82) : S8x8.Idx → EReal)
      = Host.scatter scatter_S8x8_S0_S8x8_01_n_n_0 (fun _ b => b) (broadcastInDim S8x8 ![] bcast_S_S8x8 (constant (F := Ideal) S_ .f32 0x00000000#32)) (U10 m c (Proc.devRef .tc main_c_9))
          (transpose S8x8 [1, 0] (m ((c : Thread nD τ).loc main_arg11)) transposes_S8x8_S8x8_1_0) := by
  show StableHlo.after hostOps0_10 (U10 m c) (Proc.devRef .tc main_v82) = _
  simp only [hostOps0_10]
  after_results
  rw [argW_at m c]

/-- The padded bias: the argument written at the origin of the zeros. -/
theorem padb_eq (c : Dev nD) :
    (U11 m c (Proc.devRef .tc main_v84) : S8.Idx → EReal)
      = Host.scatter scatter_S8_S0_S8_0_n_n_0 (fun _ b => b) (broadcastInDim S8 ![] bcast_S_S8 (constant (F := Ideal) S_ .f32 0x00000000#32)) (U10 m c (Proc.devRef .tc main_c_10)) (m ((c : Thread nD τ).loc main_arg12)) := by
  show StableHlo.after hostOps0_10 (U10 m c) (Proc.devRef .tc main_v84) = _
  simp only [hostOps0_10]
  after_results
  rw [argb_at m c]

/-- The identity: two iotas compared. -/
theorem eye_eq (c : Dev nD) :
    (U11 m c (Proc.devRef .tc main_v90) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_10 (U10 m c) (Proc.devRef .tc main_v90) = _
  simp only [hostOps0_10]
  after_results

/-- The weight the region finds, from the identity and the padded weight. -/
theorem weight_eq (c : Dev nD) :
    (U12 m c (Proc.devRef .tc main_v91) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U11 m c (Proc.devRef .tc main_v90))))
            (broadcastInDim S16x8x16x8 ![0, 1, 2, 3] bcast_S1x8x1x8_S16x8x16x8_0_1_2_3
              (broadcastInDim S1x8x1x8 ![1, 3] bcast_S8x8_S1x8x1x8_1_3 (U11 m c (Proc.devRef .tc main_v82)))))
          shapeCasts_S16x8x16x8_S128x128 := by
  show StableHlo.after hostOps0_11 (U11 m c) (Proc.devRef .tc main_v91) = _
  simp only [hostOps0_11]
  after_results
  rfl

/-- The bias row the region finds, from the padded bias. -/
theorem bias_eq (c : Dev nD) :
    (U13 m c (Proc.devRef .tc main_v95) : S1x128.Idx → EReal)
      = shapeCast S1x128 (shapeCast S128 (broadcastInDim S16x8 ![0, 1] bcast_S1x8_S16x8_0_1
          (shapeCast S1x8 (U12 m c (Proc.devRef .tc main_v84)) shapeCasts_S8_S1x8)) shapeCasts_S16x8_S128)
          shapeCasts_S128_S1x128 := by
  show StableHlo.after hostOps0_12 (U12 m c) (Proc.devRef .tc main_v95) = _
  simp only [hostOps0_12]
  after_results
  rfl

/-- No later stretch writes the weight. -/
theorem V_w (c : Dev nD) : V m c main_v91 = U12 m c (Proc.devRef .tc main_v91) :=
  (congrFun (V0_eq m c) _).trans ((skip24 m c main_v91 (by decide)).trans ((skip23 m c main_v91 (by decide)).trans ((skip22 m c main_v91 (by decide)).trans ((skip21 m c main_v91 (by decide)).trans ((skip20 m c main_v91 (by decide)).trans ((skip19 m c main_v91 (by decide)).trans ((skip18 m c main_v91 (by decide)).trans ((skip17 m c main_v91 (by decide)).trans ((skip16 m c main_v91 (by decide)).trans ((skip15 m c main_v91 (by decide)).trans ((skip14 m c main_v91 (by decide)).trans ((skip13 m c main_v91 (by decide)).trans ((skip12 m c main_v91 (by decide)))))))))))))))

/-- No later stretch writes the bias row. -/
theorem V_B (c : Dev nD) : V m c main_v95 = U13 m c (Proc.devRef .tc main_v95) :=
  (congrFun (V0_eq m c) _).trans ((skip24 m c main_v95 (by decide)).trans ((skip23 m c main_v95 (by decide)).trans ((skip22 m c main_v95 (by decide)).trans ((skip21 m c main_v95 (by decide)).trans ((skip20 m c main_v95 (by decide)).trans ((skip19 m c main_v95 (by decide)).trans ((skip18 m c main_v95 (by decide)).trans ((skip17 m c main_v95 (by decide)).trans ((skip16 m c main_v95 (by decide)).trans ((skip15 m c main_v95 (by decide)).trans ((skip14 m c main_v95 (by decide)).trans ((skip13 m c main_v95 (by decide))))))))))))))

/-- The weight the region finds is the identity ⊗ the padded transposed weight. -/
theorem isKron (c : Dev nD) :
    IsKron (mat (V m c main_v91)) (pad2 (fun a b => (m ((c : Thread nD τ).loc main_arg11)) (ix2 a b))) := by
  intro a b cc d
  show V m c main_v91 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v95)) (pad1 (fun a => (m ((c : Thread nD τ).loc main_arg12)) (ix1 a))) := by
  intro cc d
  show V m c main_v95 (ix2 (0 : Fin 1) (lane cc d)) = _
  rw [V_B m c, bias_eq m c, tile_apply, skip11 m c main_v84 (by decide), padb_eq m c, padb_A]

end Cert.KernelIdeal.HostLayer6

end
-- ==== Proof.HostLayer7.lean ====
/-
  Layer 7 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer7

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U12 m c (Proc.devRef .tc main_arg13) = (m ((c : Thread nD τ).loc main_arg13)) :=
  (skip11 m c main_arg13 (by decide)).trans ((skip10 m c main_arg13 (by decide)).trans ((skip9 m c main_arg13 (by decide)).trans ((skip8 m c main_arg13 (by decide)).trans ((skip7 m c main_arg13 (by decide)).trans ((skip6 m c main_arg13 (by decide)).trans ((skip5 m c main_arg13 (by decide)).trans ((skip4 m c main_arg13 (by decide)).trans ((skip3 m c main_arg13 (by decide)).trans ((skip2 m c main_arg13 (by decide)).trans ((skip1 m c main_arg13 (by decide)).trans ((skip0 m c main_arg13 (by decide)))))))))))))

/-- The bias argument is as launched when its stretch begins. -/
theorem argb_at (c : Dev nD) : U12 m c (Proc.devRef .tc main_arg14) = (m ((c : Thread nD τ).loc main_arg14)) :=
  (skip11 m c main_arg14 (by decide)).trans ((skip10 m c main_arg14 (by decide)).trans ((skip9 m c main_arg14 (by decide)).trans ((skip8 m c main_arg14 (by decide)).trans ((skip7 m c main_arg14 (by decide)).trans ((skip6 m c main_arg14 (by decide)).trans ((skip5 m c main_arg14 (by decide)).trans ((skip4 m c main_arg14 (by decide)).trans ((skip3 m c main_arg14 (by decide)).trans ((skip2 m c main_arg14 (by decide)).trans ((skip1 m c main_arg14 (by decide)).trans ((skip0 m c main_arg14 (by decide)))))))))))))

/-- The padded weight: the transposed argument written at the origin of the zeros. -/
theorem padW_eq (c : Dev nD) :
    (U13 m c (Proc.devRef .tc main_v98) : S8x8.Idx → EReal)
      = Host.scatter scatter_S8x8_S0_S8x8_01_n_n_0 (fun _ b => b) (broadcastInDim S8x8 ![] bcast_S_S8x8 (constant (F := Ideal) S_ .f32 0x00000000#32)) (U12 m c (Proc.devRef .tc main_c_11))
          (transpose S8x8 [1, 0] (m ((c : Thread nD τ).loc main_arg13)) transposes_S8x8_S8x8_1_0) := by
  show StableHlo.after hostOps0_12 (U12 m c) (Proc.devRef .tc main_v98) = _
  simp only [hostOps0_12]
  after_results
  rw [argW_at m c]

/-- The padded bias: the argument written at the origin of the zeros. -/
theorem padb_eq (c : Dev nD) :
    (U13 m c (Proc.devRef .tc main_v100) : S8.Idx → EReal)
      = Host.scatter scatter_S8_S0_S8_0_n_n_0 (fun _ b => b) (broadcastInDim S8 ![] bcast_S_S8 (constant (F := Ideal) S_ .f32 0x00000000#32)) (U12 m c (Proc.devRef .tc main_c_12)) (m ((c : Thread nD τ).loc main_arg14)) := by
  show StableHlo.after hostOps0_12 (U12 m c) (Proc.devRef .tc main_v100) = _
  simp only [hostOps0_12]
  after_results
  rw [argb_at m c]

/-- The identity: two iotas compared. -/
theorem eye_eq (c : Dev nD) :
    (U13 m c (Proc.devRef .tc main_v106) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_12 (U12 m c) (Proc.devRef .tc main_v106) = _
  simp only [hostOps0_12]
  after_results

/-- The weight the region finds, from the identity and the padded weight. -/
theorem weight_eq (c : Dev nD) :
    (U14 m c (Proc.devRef .tc main_v107) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U13 m c (Proc.devRef .tc main_v106))))
            (broadcastInDim S16x8x16x8 ![0, 1, 2, 3] bcast_S1x8x1x8_S16x8x16x8_0_1_2_3
              (broadcastInDim S1x8x1x8 ![1, 3] bcast_S8x8_S1x8x1x8_1_3 (U13 m c (Proc.devRef .tc main_v98)))))
          shapeCasts_S16x8x16x8_S128x128 := by
  show StableHlo.after hostOps0_13 (U13 m c) (Proc.devRef .tc main_v107) = _
  simp only [hostOps0_13]
  after_results
  rfl

/-- The bias row the region finds, from the padded bias. -/
theorem bias_eq (c : Dev nD) :
    (U15 m c (Proc.devRef .tc main_v111) : S1x128.Idx → EReal)
      = shapeCast S1x128 (shapeCast S128 (broadcastInDim S16x8 ![0, 1] bcast_S1x8_S16x8_0_1
          (shapeCast S1x8 (U14 m c (Proc.devRef .tc main_v100)) shapeCasts_S8_S1x8)) shapeCasts_S16x8_S128)
          shapeCasts_S128_S1x128 := by
  show StableHlo.after hostOps0_14 (U14 m c) (Proc.devRef .tc main_v111) = _
  simp only [hostOps0_14]
  after_results
  rfl

/-- No later stretch writes the weight. -/
theorem V_w (c : Dev nD) : V m c main_v107 = U14 m c (Proc.devRef .tc main_v107) :=
  (congrFun (V0_eq m c) _).trans ((skip24 m c main_v107 (by decide)).trans ((skip23 m c main_v107 (by decide)).trans ((skip22 m c main_v107 (by decide)).trans ((skip21 m c main_v107 (by decide)).trans ((skip20 m c main_v107 (by decide)).trans ((skip19 m c main_v107 (by decide)).trans ((skip18 m c main_v107 (by decide)).trans ((skip17 m c main_v107 (by decide)).trans ((skip16 m c main_v107 (by decide)).trans ((skip15 m c main_v107 (by decide)).trans ((skip14 m c main_v107 (by decide)))))))))))))

/-- No later stretch writes the bias row. -/
theorem V_B (c : Dev nD) : V m c main_v111 = U15 m c (Proc.devRef .tc main_v111) :=
  (congrFun (V0_eq m c) _).trans ((skip24 m c main_v111 (by decide)).trans ((skip23 m c main_v111 (by decide)).trans ((skip22 m c main_v111 (by decide)).trans ((skip21 m c main_v111 (by decide)).trans ((skip20 m c main_v111 (by decide)).trans ((skip19 m c main_v111 (by decide)).trans ((skip18 m c main_v111 (by decide)).trans ((skip17 m c main_v111 (by decide)).trans ((skip16 m c main_v111 (by decide)).trans ((skip15 m c main_v111 (by decide))))))))))))

/-- The weight the region finds is the identity ⊗ the padded transposed weight. -/
theorem isKron (c : Dev nD) :
    IsKron (mat (V m c main_v107)) (pad2 (fun a b => (m ((c : Thread nD τ).loc main_arg13)) (ix2 a b))) := by
  intro a b cc d
  show V m c main_v107 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v111)) (pad1 (fun a => (m ((c : Thread nD τ).loc main_arg14)) (ix1 a))) := by
  intro cc d
  show V m c main_v111 (ix2 (0 : Fin 1) (lane cc d)) = _
  rw [V_B m c, bias_eq m c, tile_apply, skip13 m c main_v100 (by decide), padb_eq m c, padb_A]

end Cert.KernelIdeal.HostLayer7

end
-- ==== Proof.HostLayer8.lean ====
/-
  Layer 8 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer8

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U14 m c (Proc.devRef .tc main_arg15) = (m ((c : Thread nD τ).loc main_arg15)) :=
  (skip13 m c main_arg15 (by decide)).trans ((skip12 m c main_arg15 (by decide)).trans ((skip11 m c main_arg15 (by decide)).trans ((skip10 m c main_arg15 (by decide)).trans ((skip9 m c main_arg15 (by decide)).trans ((skip8 m c main_arg15 (by decide)).trans ((skip7 m c main_arg15 (by decide)).trans ((skip6 m c main_arg15 (by decide)).trans ((skip5 m c main_arg15 (by decide)).trans ((skip4 m c main_arg15 (by decide)).trans ((skip3 m c main_arg15 (by decide)).trans ((skip2 m c main_arg15 (by decide)).trans ((skip1 m c main_arg15 (by decide)).trans ((skip0 m c main_arg15 (by decide)))))))))))))))

/-- The bias argument is as launched when its stretch begins. -/
theorem argb_at (c : Dev nD) : U14 m c (Proc.devRef .tc main_arg16) = (m ((c : Thread nD τ).loc main_arg16)) :=
  (skip13 m c main_arg16 (by decide)).trans ((skip12 m c main_arg16 (by decide)).trans ((skip11 m c main_arg16 (by decide)).trans ((skip10 m c main_arg16 (by decide)).trans ((skip9 m c main_arg16 (by decide)).trans ((skip8 m c main_arg16 (by decide)).trans ((skip7 m c main_arg16 (by decide)).trans ((skip6 m c main_arg16 (by decide)).trans ((skip5 m c main_arg16 (by decide)).trans ((skip4 m c main_arg16 (by decide)).trans ((skip3 m c main_arg16 (by decide)).trans ((skip2 m c main_arg16 (by decide)).trans ((skip1 m c main_arg16 (by decide)).trans ((skip0 m c main_arg16 (by decide)))))))))))))))

/-- The padded weight: the transposed argument written at the origin of the zeros. -/
theorem padW_eq (c : Dev nD) :
    (U15 m c (Proc.devRef .tc main_v114) : S8x8.Idx → EReal)
      = Host.scatter scatter_S8x8_S0_S8x8_01_n_n_0 (fun _ b => b) (broadcastInDim S8x8 ![] bcast_S_S8x8 (constant (F := Ideal) S_ .f32 0x00000000#32)) (U14 m c (Proc.devRef .tc main_c_13))
          (transpose S8x8 [1, 0] (m ((c : Thread nD τ).loc main_arg15)) transposes_S8x8_S8x8_1_0) := by
  show StableHlo.after hostOps0_14 (U14 m c) (Proc.devRef .tc main_v114) = _
  simp only [hostOps0_14]
  after_results
  rw [argW_at m c]

/-- The padded bias: the argument written at the origin of the zeros. -/
theorem padb_eq (c : Dev nD) :
    (U15 m c (Proc.devRef .tc main_v116) : S8.Idx → EReal)
      = Host.scatter scatter_S8_S0_S8_0_n_n_0 (fun _ b => b) (broadcastInDim S8 ![] bcast_S_S8 (constant (F := Ideal) S_ .f32 0x00000000#32)) (U14 m c (Proc.devRef .tc main_c_14)) (m ((c : Thread nD τ).loc main_arg16)) := by
  show StableHlo.after hostOps0_14 (U14 m c) (Proc.devRef .tc main_v116) = _
  simp only [hostOps0_14]
  after_results
  rw [argb_at m c]

/-- The identity: two iotas compared. -/
theorem eye_eq (c : Dev nD) :
    (U15 m c (Proc.devRef .tc main_v122) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_14 (U14 m c) (Proc.devRef .tc main_v122) = _
  simp only [hostOps0_14]
  after_results

/-- The weight the region finds, from the identity and the padded weight. -/
theorem weight_eq (c : Dev nD) :
    (U16 m c (Proc.devRef .tc main_v123) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U15 m c (Proc.devRef .tc main_v122))))
            (broadcastInDim S16x8x16x8 ![0, 1, 2, 3] bcast_S1x8x1x8_S16x8x16x8_0_1_2_3
              (broadcastInDim S1x8x1x8 ![1, 3] bcast_S8x8_S1x8x1x8_1_3 (U15 m c (Proc.devRef .tc main_v114)))))
          shapeCasts_S16x8x16x8_S128x128 := by
  show StableHlo.after hostOps0_15 (U15 m c) (Proc.devRef .tc main_v123) = _
  simp only [hostOps0_15]
  after_results
  rfl

/-- The bias row the region finds, from the padded bias. -/
theorem bias_eq (c : Dev nD) :
    (U17 m c (Proc.devRef .tc main_v127) : S1x128.Idx → EReal)
      = shapeCast S1x128 (shapeCast S128 (broadcastInDim S16x8 ![0, 1] bcast_S1x8_S16x8_0_1
          (shapeCast S1x8 (U16 m c (Proc.devRef .tc main_v116)) shapeCasts_S8_S1x8)) shapeCasts_S16x8_S128)
          shapeCasts_S128_S1x128 := by
  show StableHlo.after hostOps0_16 (U16 m c) (Proc.devRef .tc main_v127) = _
  simp only [hostOps0_16]
  after_results
  rfl

/-- No later stretch writes the weight. -/
theorem V_w (c : Dev nD) : V m c main_v123 = U16 m c (Proc.devRef .tc main_v123) :=
  (congrFun (V0_eq m c) _).trans ((skip24 m c main_v123 (by decide)).trans ((skip23 m c main_v123 (by decide)).trans ((skip22 m c main_v123 (by decide)).trans ((skip21 m c main_v123 (by decide)).trans ((skip20 m c main_v123 (by decide)).trans ((skip19 m c main_v123 (by decide)).trans ((skip18 m c main_v123 (by decide)).trans ((skip17 m c main_v123 (by decide)).trans ((skip16 m c main_v123 (by decide)))))))))))

/-- No later stretch writes the bias row. -/
theorem V_B (c : Dev nD) : V m c main_v127 = U17 m c (Proc.devRef .tc main_v127) :=
  (congrFun (V0_eq m c) _).trans ((skip24 m c main_v127 (by decide)).trans ((skip23 m c main_v127 (by decide)).trans ((skip22 m c main_v127 (by decide)).trans ((skip21 m c main_v127 (by decide)).trans ((skip20 m c main_v127 (by decide)).trans ((skip19 m c main_v127 (by decide)).trans ((skip18 m c main_v127 (by decide)).trans ((skip17 m c main_v127 (by decide))))))))))

/-- The weight the region finds is the identity ⊗ the padded transposed weight. -/
theorem isKron (c : Dev nD) :
    IsKron (mat (V m c main_v123)) (pad2 (fun a b => (m ((c : Thread nD τ).loc main_arg15)) (ix2 a b))) := by
  intro a b cc d
  show V m c main_v123 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v127)) (pad1 (fun a => (m ((c : Thread nD τ).loc main_arg16)) (ix1 a))) := by
  intro cc d
  show V m c main_v127 (ix2 (0 : Fin 1) (lane cc d)) = _
  rw [V_B m c, bias_eq m c, tile_apply, skip15 m c main_v116 (by decide), padb_eq m c, padb_A]

end Cert.KernelIdeal.HostLayer8

end
-- ==== Proof.HostLayer9.lean ====
/-
  Layer 9 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer9

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U16 m c (Proc.devRef .tc main_arg17) = (m ((c : Thread nD τ).loc main_arg17)) :=
  (skip15 m c main_arg17 (by decide)).trans ((skip14 m c main_arg17 (by decide)).trans ((skip13 m c main_arg17 (by decide)).trans ((skip12 m c main_arg17 (by decide)).trans ((skip11 m c main_arg17 (by decide)).trans ((skip10 m c main_arg17 (by decide)).trans ((skip9 m c main_arg17 (by decide)).trans ((skip8 m c main_arg17 (by decide)).trans ((skip7 m c main_arg17 (by decide)).trans ((skip6 m c main_arg17 (by decide)).trans ((skip5 m c main_arg17 (by decide)).trans ((skip4 m c main_arg17 (by decide)).trans ((skip3 m c main_arg17 (by decide)).trans ((skip2 m c main_arg17 (by decide)).trans ((skip1 m c main_arg17 (by decide)).trans ((skip0 m c main_arg17 (by decide)))))))))))))))))

/-- The bias argument is as launched when its stretch begins. -/
theorem argb_at (c : Dev nD) : U16 m c (Proc.devRef .tc main_arg18) = (m ((c : Thread nD τ).loc main_arg18)) :=
  (skip15 m c main_arg18 (by decide)).trans ((skip14 m c main_arg18 (by decide)).trans ((skip13 m c main_arg18 (by decide)).trans ((skip12 m c main_arg18 (by decide)).trans ((skip11 m c main_arg18 (by decide)).trans ((skip10 m c main_arg18 (by decide)).trans ((skip9 m c main_arg18 (by decide)).trans ((skip8 m c main_arg18 (by decide)).trans ((skip7 m c main_arg18 (by decide)).trans ((skip6 m c main_arg18 (by decide)).trans ((skip5 m c main_arg18 (by decide)).trans ((skip4 m c main_arg18 (by decide)).trans ((skip3 m c main_arg18 (by decide)).trans ((skip2 m c main_arg18 (by decide)).trans ((skip1 m c main_arg18 (by decide)).trans ((skip0 m c main_arg18 (by decide)))))))))))))))))

/-- The padded weight: the transposed argument written at the origin of the zeros. -/
theorem padW_eq (c : Dev nD) :
    (U17 m c (Proc.devRef .tc main_v130) : S8x8.Idx → EReal)
      = Host.scatter scatter_S8x8_S0_S8x8_01_n_n_0 (fun _ b => b) (broadcastInDim S8x8 ![] bcast_S_S8x8 (constant (F := Ideal) S_ .f32 0x00000000#32)) (U16 m c (Proc.devRef .tc main_c_15))
          (transpose S8x8 [1, 0] (m ((c : Thread nD τ).loc main_arg17)) transposes_S8x8_S8x8_1_0) := by
  show StableHlo.after hostOps0_16 (U16 m c) (Proc.devRef .tc main_v130) = _
  simp only [hostOps0_16]
  after_results
  rw [argW_at m c]

/-- The padded bias: the argument written at the origin of the zeros. -/
theorem padb_eq (c : Dev nD) :
    (U17 m c (Proc.devRef .tc main_v132) : S8.Idx → EReal)
      = Host.scatter scatter_S8_S0_S8_0_n_n_0 (fun _ b => b) (broadcastInDim S8 ![] bcast_S_S8 (constant (F := Ideal) S_ .f32 0x00000000#32)) (U16 m c (Proc.devRef .tc main_c_16)) (m ((c : Thread nD τ).loc main_arg18)) := by
  show StableHlo.after hostOps0_16 (U16 m c) (Proc.devRef .tc main_v132) = _
  simp only [hostOps0_16]
  after_results
  rw [argb_at m c]

/-- The identity: two iotas compared. -/
theorem eye_eq (c : Dev nD) :
    (U17 m c (Proc.devRef .tc main_v138) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_16 (U16 m c) (Proc.devRef .tc main_v138) = _
  simp only [hostOps0_16]
  after_results

/-- The weight the region finds, from the identity and the padded weight. -/
theorem weight_eq (c : Dev nD) :
    (U18 m c (Proc.devRef .tc main_v139) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U17 m c (Proc.devRef .tc main_v138))))
            (broadcastInDim S16x8x16x8 ![0, 1, 2, 3] bcast_S1x8x1x8_S16x8x16x8_0_1_2_3
              (broadcastInDim S1x8x1x8 ![1, 3] bcast_S8x8_S1x8x1x8_1_3 (U17 m c (Proc.devRef .tc main_v130)))))
          shapeCasts_S16x8x16x8_S128x128 := by
  show StableHlo.after hostOps0_17 (U17 m c) (Proc.devRef .tc main_v139) = _
  simp only [hostOps0_17]
  after_results
  rfl

/-- The bias row the region finds, from the padded bias. -/
theorem bias_eq (c : Dev nD) :
    (U19 m c (Proc.devRef .tc main_v143) : S1x128.Idx → EReal)
      = shapeCast S1x128 (shapeCast S128 (broadcastInDim S16x8 ![0, 1] bcast_S1x8_S16x8_0_1
          (shapeCast S1x8 (U18 m c (Proc.devRef .tc main_v132)) shapeCasts_S8_S1x8)) shapeCasts_S16x8_S128)
          shapeCasts_S128_S1x128 := by
  show StableHlo.after hostOps0_18 (U18 m c) (Proc.devRef .tc main_v143) = _
  simp only [hostOps0_18]
  after_results
  rfl

/-- No later stretch writes the weight. -/
theorem V_w (c : Dev nD) : V m c main_v139 = U18 m c (Proc.devRef .tc main_v139) :=
  (congrFun (V0_eq m c) _).trans ((skip24 m c main_v139 (by decide)).trans ((skip23 m c main_v139 (by decide)).trans ((skip22 m c main_v139 (by decide)).trans ((skip21 m c main_v139 (by decide)).trans ((skip20 m c main_v139 (by decide)).trans ((skip19 m c main_v139 (by decide)).trans ((skip18 m c main_v139 (by decide)))))))))

/-- No later stretch writes the bias row. -/
theorem V_B (c : Dev nD) : V m c main_v143 = U19 m c (Proc.devRef .tc main_v143) :=
  (congrFun (V0_eq m c) _).trans ((skip24 m c main_v143 (by decide)).trans ((skip23 m c main_v143 (by decide)).trans ((skip22 m c main_v143 (by decide)).trans ((skip21 m c main_v143 (by decide)).trans ((skip20 m c main_v143 (by decide)).trans ((skip19 m c main_v143 (by decide))))))))

/-- The weight the region finds is the identity ⊗ the padded transposed weight. -/
theorem isKron (c : Dev nD) :
    IsKron (mat (V m c main_v139)) (pad2 (fun a b => (m ((c : Thread nD τ).loc main_arg17)) (ix2 a b))) := by
  intro a b cc d
  show V m c main_v139 (ix2 (lane a b) (lane cc d)) = _
  rw [V_w m c, weight_eq m c, kron_apply, eye_eq m c, eye_apply, padW_eq m c, padW_A]

/-- The bias row the region finds is the padded bias tiled. -/
theorem isTile (c : Dev nD) :
    IsTile (vec (V m c main_v143)) (pad1 (fun a => (m ((c : Thread nD τ).loc main_arg18)) (ix1 a))) := by
  intro cc d
  show V m c main_v143 (ix2 (0 : Fin 1) (lane cc d)) = _
  rw [V_B m c, bias_eq m c, tile_apply, skip17 m c main_v132 (by decide), padb_eq m c, padb_A]

end Cert.KernelIdeal.HostLayer9

end
-- ==== Proof.HostLayer10.lean ====
/-
  Layer 10 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer10

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U18 m c (Proc.devRef .tc main_arg19) = (m ((c : Thread nD τ).loc main_arg19)) :=
  (skip17 m c main_arg19 (by decide)).trans ((skip16 m c main_arg19 (by decide)).trans ((skip15 m c main_arg19 (by decide)).trans ((skip14 m c main_arg19 (by decide)).trans ((skip13 m c main_arg19 (by decide)).trans ((skip12 m c main_arg19 (by decide)).trans ((skip11 m c main_arg19 (by decide)).trans ((skip10 m c main_arg19 (by decide)).trans ((skip9 m c main_arg19 (by decide)).trans ((skip8 m c main_arg19 (by decide)).trans ((skip7 m c main_arg19 (by decide)).trans ((skip6 m c main_arg19 (by decide)).trans ((skip5 m c main_arg19 (by decide)).trans ((skip4 m c main_arg19 (by decide)).trans ((skip3 m c main_arg19 (by decide)).trans ((skip2 m c main_arg19 (by decide)).trans ((skip1 m c main_arg19 (by decide)).trans ((skip0 m c main_arg19 (by decide)))))))))))))))))))

/-- The bias argument is as launched when its stretch begins. -/
theorem argb_at (c : Dev nD) : U18 m c (Proc.devRef .tc main_arg20) = (m ((c : Thread nD τ).loc main_arg20)) :=
  (skip17 m c main_arg20 (by decide)).trans ((skip16 m c main_arg20 (by decide)).trans ((skip15 m c main_arg20 (by decide)).trans ((skip14 m c main_arg20 (by decide)).trans ((skip13 m c main_arg20 (by decide)).trans ((skip12 m c main_arg20 (by decide)).trans ((skip11 m c main_arg20 (by decide)).trans ((skip10 m c main_arg20 (by decide)).trans ((skip9 m c main_arg20 (by decide)).trans ((skip8 m c main_arg20 (by decide)).trans ((skip7 m c main_arg20 (by decide)).trans ((skip6 m c main_arg20 (by decide)).trans ((skip5 m c main_arg20 (by decide)).trans ((skip4 m c main_arg20 (by decide)).trans ((skip3 m c main_arg20 (by decide)).trans ((skip2 m c main_arg20 (by decide)).trans ((skip1 m c main_arg20 (by decide)).trans ((skip0 m c main_arg20 (by decide)))))))))))))))))))

/-- The padded weight: the transposed argument written at the origin of the zeros. -/
theorem padW_eq (c : Dev nD) :
    (U19 m c (Proc.devRef .tc main_v147) : S8x8.Idx → EReal)
      = Host.scatter scatter_S8x8_S1_S8x5_01_n_1_0 (fun _ b => b) (broadcastInDim S8x8 ![] bcast_S_S8x8 (constant (F := Ideal) S_ .f32 0x00000000#32)) (broadcastInDim S1 ![] bcast_S_S1 (constantI S_ 32 0#32))
          (transpose S8x5 [1, 0] (m ((c : Thread nD τ).loc main_arg19)) transposes_S5x8_S8x5_1_0) := by
  show StableHlo.after hostOps0_18 (U18 m c) (Proc.devRef .tc main_v147) = _
  simp only [hostOps0_18]
  after_results
  rw [argW_at m c]

/-- The padded bias: the argument written at the origin of the zeros. -/
theorem padb_eq (c : Dev nD) :
    (U19 m c (Proc.devRef .tc main_v150) : S8.Idx → EReal)
      = Host.scatter scatter_S8_S1_S5_0_n_0_0 (fun _ b => b) (broadcastInDim S8 ![] bcast_S_S8 (constant (F := Ideal) S_ .f32 0x00000000#32)) (broadcastInDim S1 ![] bcast_S_S1 (constantI S_ 32 0#32)) (m ((c : Thread nD τ).loc main_arg20)) := by
  show StableHlo.after hostOps0_18 (U18 m c) (Proc.devRef .tc main_v150) = _
  simp only [hostOps0_18]
  after_results
  rw [argb_at m c]

/-- The identity: two iotas compared. -/
theorem eye_eq (c : Dev nD) :
    (U19 m c (Proc.devRef .tc main_v156) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_18 (U18 m c) (Proc.devRef .tc main_v156) = _
  simp only [hostOps0_18]
  after_results

/-- The weight the region finds, from the identity and the padded weight. -/
theorem weight_eq (c : Dev nD) :
    (U20 m c (Proc.devRef .tc main_v157) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U19 m c (Proc.devRef .tc main_v156))))
            (broadcastInDim S16x8x16x8 ![0, 1, 2, 3] bcast_S1x8x1x8_S16x8x16x8_0_1_2_3
              (broadcastInDim S1x8x1x8 ![1, 3] bcast_S8x8_S1x8x1x8_1_3 (U19 m c (Proc.devRef .tc main_v147)))))
          shapeCasts_S16x8x16x8_S128x128 := by
  show StableHlo.after hostOps0_19 (U19 m c) (Proc.devRef .tc main_v157) = _
  simp only [hostOps0_19]
  after_results
  rfl

/-- The bias row the region finds, from the padded bias. -/
theorem bias_eq (c : Dev nD) :
    (U21 m c (Proc.devRef .tc main_v161) : S1x128.Idx → EReal)
      = shapeCast S1x128 (shapeCast S128 (broadcastInDim S16x8 ![0, 1] bcast_S1x8_S16x8_0_1
          (shapeCast S1x8 (U20 m c (Proc.devRef .tc main_v150)) shapeCasts_S8_S1x8)) shapeCasts_S16x8_S128)
          shapeCasts_S128_S1x128 := by
  show StableHlo.after hostOps0_20 (U20 m c) (Proc.devRef .tc main_v161) = _
  simp only [hostOps0_20]
  after_results
  rfl

/-- No later stretch writes the weight. -/
theorem V_w (c : Dev nD) : V m c main_v157 = U20 m c (Proc.devRef .tc main_v157) :=
  (congrFun (V0_eq m c) _).trans ((skip24 m c main_v157 (by decide)).trans ((skip23 m c main_v157 (by decide)).trans ((skip22 m c main_v157 (by decide)).trans ((skip21 m c main_v157 (by decide)).trans ((skip20 m c main_v157 (by decide)))))))

/-- No later stretch writes the bias row. -/
theorem V_B (c : Dev nD) : V m c main_v161 = U21 m c (Proc.devRef .tc main_v161) :=
  (congrFun (V0_eq m c) _).trans ((skip24 m c main_v161 (by decide)).trans ((skip23 m c main_v161 (by decide)).trans ((skip22 m c main_v161 (by decide)).trans ((skip21 m c main_v161 (by decide))))))

/-- The weight the region finds is the identity ⊗ the padded transposed weight. -/
theorem isKron (c : Dev nD) :
    IsKron (mat (V m c main_v157)) (pad2 (fun a b => (m ((c : Thread nD τ).loc main_arg19)) (ix2 a b))) := by
  intro a b cc d
  show V m c main_v157 (ix2 (lane a b) (lane cc d)) = _
  rw [V_w m c, weight_eq m c, kron_apply, eye_eq m c, eye_apply, padW_eq m c, padW_B]

/-- The bias row the region finds is the padded bias tiled. -/
theorem isTile (c : Dev nD) :
    IsTile (vec (V m c main_v161)) (pad1 (fun a => (m ((c : Thread nD τ).loc main_arg20)) (ix1 a))) := by
  intro cc d
  show V m c main_v161 (ix2 (0 : Fin 1) (lane cc d)) = _
  rw [V_B m c, bias_eq m c, tile_apply, skip19 m c main_v150 (by decide), padb_eq m c, padb_B]

end Cert.KernelIdeal.HostLayer10

end
-- ==== Proof.HostLayer11.lean ====
/-
  Layer 11 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer11

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U20 m c (Proc.devRef .tc main_arg21) = (m ((c : Thread nD τ).loc main_arg21)) :=
  (skip19 m c main_arg21 (by decide)).trans ((skip18 m c main_arg21 (by decide)).trans ((skip17 m c main_arg21 (by decide)).trans ((skip16 m c main_arg21 (by decide)).trans ((skip15 m c main_arg21 (by decide)).trans ((skip14 m c main_arg21 (by decide)).trans ((skip13 m c main_arg21 (by decide)).trans ((skip12 m c main_arg21 (by decide)).trans ((skip11 m c main_arg21 (by decide)).trans ((skip10 m c main_arg21 (by decide)).trans ((skip9 m c main_arg21 (by decide)).trans ((skip8 m c main_arg21 (by decide)).trans ((skip7 m c main_arg21 (by decide)).trans ((skip6 m c main_arg21 (by decide)).trans ((skip5 m c main_arg21 (by decide)).trans ((skip4 m c main_arg21 (by decide)).trans ((skip3 m c main_arg21 (by decide)).trans ((skip2 m c main_arg21 (by decide)).trans ((skip1 m c main_arg21 (by decide)).trans ((skip0 m c main_arg21 (by decide)))))))))))))))))))))

/-- The bias argument is as launched when its stretch begins. -/
theorem argb_at (c : Dev nD) : U20 m c (Proc.devRef .tc main_arg22) = (m ((c : Thread nD τ).loc main_arg22)) :=
  (skip19 m c main_arg22 (by decide)).trans ((skip18 m c main_arg22 (by decide)).trans ((skip17 m c main_arg22 (by decide)).trans ((skip16 m c main_arg22 (by decide)).trans ((skip15 m c main_arg22 (by decide)).trans ((skip14 m c main_arg22 (by decide)).trans ((skip13 m c main_arg22 (by decide)).trans ((skip12 m c main_arg22 (by decide)).trans ((skip11 m c main_arg22 (by decide)).trans ((skip10 m c main_arg22 (by decide)).trans ((skip9 m c main_arg22 (by decide)).trans ((skip8 m c main_arg22 (by decide)).trans ((skip7 m c main_arg22 (by decide)).trans ((skip6 m c main_arg22 (by decide)).trans ((skip5 m c main_arg22 (by decide)).trans ((skip4 m c main_arg22 (by decide)).trans ((skip3 m c main_arg22 (by decide)).trans ((skip2 m c main_arg22 (by decide)).trans ((skip1 m c main_arg22 (by decide)).trans ((skip0 m c main_arg22 (by decide)))))))))))))))))))))

/-- The padded weight: the transposed argument written at the origin of the zeros. -/
theorem padW_eq (c : Dev nD) :
    (U21 m c (Proc.devRef .tc main_v167) : S8x8.Idx → EReal)
      = Host.scatter scatter_S8x8_S2_S5x3_01_n_01_0 (fun _ b => b) (broadcastInDim S8x8 ![] bcast_S_S8x8 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0)
          (transpose S5x3 [1, 0] (m ((c : Thread nD τ).loc main_arg21)) transposes_S3x5_S5x3_1_0) := by
  show StableHlo.after hostOps0_20 (U20 m c) (Proc.devRef .tc main_v167) = _
  simp only [hostOps0_20]
  after_results
  rw [argW_at m c]

/-- The padded bias: the argument written at the origin of the zeros. -/
theorem padb_eq (c : Dev nD) :
    (U21 m c (Proc.devRef .tc main_v170) : S8.Idx → EReal)
      = Host.scatter scatter_S8_S1_S3_0_n_0_0 (fun _ b => b) (broadcastInDim S8 ![] bcast_S_S8 (constant (F := Ideal) S_ .f32 0x00000000#32)) (broadcastInDim S1 ![] bcast_S_S1 (constantI S_ 32 0#32)) (m ((c : Thread nD τ).loc main_arg22)) := by
  show StableHlo.after hostOps0_20 (U20 m c) (Proc.devRef .tc main_v170) = _
  simp only [hostOps0_20]
  after_results
  rw [argb_at m c]

/-- The identity: two iotas compared. -/
theorem eye_eq (c : Dev nD) :
    (U21 m c (Proc.devRef .tc main_v176) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_20 (U20 m c) (Proc.devRef .tc main_v176) = _
  simp only [hostOps0_20]
  after_results

/-- The weight the region finds, from the identity and the padded weight. -/
theorem weight_eq (c : Dev nD) :
    (U22 m c (Proc.devRef .tc main_v177) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U21 m c (Proc.devRef .tc main_v176))))
            (broadcastInDim S16x8x16x8 ![0, 1, 2, 3] bcast_S1x8x1x8_S16x8x16x8_0_1_2_3
              (broadcastInDim S1x8x1x8 ![1, 3] bcast_S8x8_S1x8x1x8_1_3 (U21 m c (Proc.devRef .tc main_v167)))))
          shapeCasts_S16x8x16x8_S128x128 := by
  show StableHlo.after hostOps0_21 (U21 m c) (Proc.devRef .tc main_v177) = _
  simp only [hostOps0_21]
  after_results
  rfl

/-- The bias row the region finds, from the padded bias. -/
theorem bias_eq (c : Dev nD) :
    (U23 m c (Proc.devRef .tc main_v181) : S1x128.Idx → EReal)
      = shapeCast S1x128 (shapeCast S128 (broadcastInDim S16x8 ![0, 1] bcast_S1x8_S16x8_0_1
          (shapeCast S1x8 (U22 m c (Proc.devRef .tc main_v170)) shapeCasts_S8_S1x8)) shapeCasts_S16x8_S128)
          shapeCasts_S128_S1x128 := by
  show StableHlo.after hostOps0_22 (U22 m c) (Proc.devRef .tc main_v181) = _
  simp only [hostOps0_22]
  after_results
  rfl

/-- No later stretch writes the weight. -/
theorem V_w (c : Dev nD) : V m c main_v177 = U22 m c (Proc.devRef .tc main_v177) :=
  (congrFun (V0_eq m c) _).trans ((skip24 m c main_v177 (by decide)).trans ((skip23 m c main_v177 (by decide)).trans ((skip22 m c main_v177 (by decide)))))

/-- No later stretch writes the bias row. -/
theorem V_B (c : Dev nD) : V m c main_v181 = U23 m c (Proc.devRef .tc main_v181) :=
  (congrFun (V0_eq m c) _).trans ((skip24 m c main_v181 (by decide)).trans ((skip23 m c main_v181 (by decide))))

/-- The weight the region finds is the identity ⊗ the padded transposed weight. -/
theorem isKron (c : Dev nD) :
    IsKron (mat (V m c main_v177)) (pad2 (fun a b => (m ((c : Thread nD τ).loc main_arg21)) (ix2 a b))) := by
  intro a b cc d
  show V m c main_v177 (ix2 (lane a b) (lane cc d)) = _
  rw [V_w m c, weight_eq m c, kron_apply, eye_eq m c, eye_apply, padW_eq m c, padW_C]

/-- The bias row the region finds is the padded bias tiled. -/
theorem isTile (c : Dev nD) :
    IsTile (vec (V m c main_v181)) (pad1 (fun a => (m ((c : Thread nD τ).loc main_arg22)) (ix1 a))) := by
  intro cc d
  show V m c main_v181 (ix2 (0 : Fin 1) (lane cc d)) = _
  rw [V_B m c, bias_eq m c, tile_apply, skip21 m c main_v170 (by decide), padb_eq m c, padb_C]

end Cert.KernelIdeal.HostLayer11

end
-- ==== Proof.HostLayer12.lean ====
/-
  Layer 12 on the host: the [128, 128] weight the region finds is the Kronecker product of the 16 × 16
  identity with the layer's zero-padded transposed weight, and the [1, 128] bias row is the zero-padded bias
  repeated sixteen times. Each buffer is read through the one stretch of host operations that writes it; the
  stretches before and after leave it alone.
-/
import proofs.«141723_j17222818857346_2_alg».proof.Proof.HostChain
import proofs.«141723_j17222818857346_2_alg».proof.Proof.HostRead
import proofs.«141723_j17222818857346_2_alg».proof.Proof.ScatterPad
import proofs.«141723_j17222818857346_2_alg».proof.Proof.KernelBody

noncomputable section

namespace Cert.KernelIdeal.HostLayer12

open Idealize.ShloMosaic Idealize.ShloMosaic.TcCoe Idealize.ShloMosaic.ValueIdx Idealize.SL.Sem Idealize.ShloMosaic.StableHlo
open Cert.KernelIdeal Cert.KernelIdeal.Gen Cert.KernelIdeal.HostWrites Cert.KernelIdeal.HostChain Cert.KernelIdeal.ScatterPad
open Cert.KernelIdeal.Body Cert.HostRead Cert.Mlp

variable (m : (ℓ : Loc nD τ sig) → Buf (Elt Ideal) ℓ)

/-- The weight argument is as launched when its stretch begins. -/
theorem argW_at (c : Dev nD) : U22 m c (Proc.devRef .tc main_arg23) = (m ((c : Thread nD τ).loc main_arg23)) :=
  (skip21 m c main_arg23 (by decide)).trans ((skip20 m c main_arg23 (by decide)).trans ((skip19 m c main_arg23 (by decide)).trans ((skip18 m c main_arg23 (by decide)).trans ((skip17 m c main_arg23 (by decide)).trans ((skip16 m c main_arg23 (by decide)).trans ((skip15 m c main_arg23 (by decide)).trans ((skip14 m c main_arg23 (by decide)).trans ((skip13 m c main_arg23 (by decide)).trans ((skip12 m c main_arg23 (by decide)).trans ((skip11 m c main_arg23 (by decide)).trans ((skip10 m c main_arg23 (by decide)).trans ((skip9 m c main_arg23 (by decide)).trans ((skip8 m c main_arg23 (by decide)).trans ((skip7 m c main_arg23 (by decide)).trans ((skip6 m c main_arg23 (by decide)).trans ((skip5 m c main_arg23 (by decide)).trans ((skip4 m c main_arg23 (by decide)).trans ((skip3 m c main_arg23 (by decide)).trans ((skip2 m c main_arg23 (by decide)).trans ((skip1 m c main_arg23 (by decide)).trans ((skip0 m c main_arg23 (by decide)))))))))))))))))))))))

/-- The bias argument is as launched when its stretch begins. -/
theorem argb_at (c : Dev nD) : U22 m c (Proc.devRef .tc main_arg24) = (m ((c : Thread nD τ).loc main_arg24)) :=
  (skip21 m c main_arg24 (by decide)).trans ((skip20 m c main_arg24 (by decide)).trans ((skip19 m c main_arg24 (by decide)).trans ((skip18 m c main_arg24 (by decide)).trans ((skip17 m c main_arg24 (by decide)).trans ((skip16 m c main_arg24 (by decide)).trans ((skip15 m c main_arg24 (by decide)).trans ((skip14 m c main_arg24 (by decide)).trans ((skip13 m c main_arg24 (by decide)).trans ((skip12 m c main_arg24 (by decide)).trans ((skip11 m c main_arg24 (by decide)).trans ((skip10 m c main_arg24 (by decide)).trans ((skip9 m c main_arg24 (by decide)).trans ((skip8 m c main_arg24 (by decide)).trans ((skip7 m c main_arg24 (by decide)).trans ((skip6 m c main_arg24 (by decide)).trans ((skip5 m c main_arg24 (by decide)).trans ((skip4 m c main_arg24 (by decide)).trans ((skip3 m c main_arg24 (by decide)).trans ((skip2 m c main_arg24 (by decide)).trans ((skip1 m c main_arg24 (by decide)).trans ((skip0 m c main_arg24 (by decide)))))))))))))))))))))))

/-- The padded weight: the transposed argument written at the origin of the zeros. -/
theorem padW_eq (c : Dev nD) :
    (U23 m c (Proc.devRef .tc main_v187) : S8x8.Idx → EReal)
      = Host.scatter scatter_S8x8_S2_S3x1_01_n_01_0 (fun _ b => b) (broadcastInDim S8x8 ![] bcast_S_S8x8 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0)
          (transpose S3x1 [1, 0] (m ((c : Thread nD τ).loc main_arg23)) transposes_S1x3_S3x1_1_0) := by
  show StableHlo.after hostOps0_22 (U22 m c) (Proc.devRef .tc main_v187) = _
  simp only [hostOps0_22]
  after_results
  rw [argW_at m c]

/-- The padded bias: the argument written at the origin of the zeros. -/
theorem padb_eq (c : Dev nD) :
    (U23 m c (Proc.devRef .tc main_v190) : S8.Idx → EReal)
      = Host.scatter scatter_S8_S1_S1_0_n_0_0 (fun _ b => b) (broadcastInDim S8 ![] bcast_S_S8 (constant (F := Ideal) S_ .f32 0x00000000#32)) (broadcastInDim S1 ![] bcast_S_S1 (constantI S_ 32 0#32)) (m ((c : Thread nD τ).loc main_arg24)) := by
  show StableHlo.after hostOps0_22 (U22 m c) (Proc.devRef .tc main_v190) = _
  simp only [hostOps0_22]
  after_results
  rw [argb_at m c]

/-- The identity: two iotas compared. -/
theorem eye_eq (c : Dev nD) :
    (U23 m c (Proc.devRef .tc main_v196) : S16x16.Idx → EReal) = (uitofp (F := Ideal) .f32 (cmpi .eq (addi (iotaInDim S16x16 32 0) (broadcastInDim S16x16 ![] bcast_S_S16x16 (constantI S_ 32 0#32))) (iotaInDim S16x16 32 1))) := by
  show StableHlo.after hostOps0_22 (U22 m c) (Proc.devRef .tc main_v196) = _
  simp only [hostOps0_22]
  after_results

/-- The weight the region finds, from the identity and the padded weight. -/
theorem weight_eq (c : Dev nD) :
    (U24 m c (Proc.devRef .tc main_v197) : S128x128.Idx → EReal)
      = shapeCast S128x128
          (mulf (F := Ideal) (φ := .f32) (broadcastInDim S16x8x16x8 ![0, 1, 2, 3] bcast_S16x1x16x1_S16x8x16x8_0_1_2_3
              (broadcastInDim S16x1x16x1 ![0, 2] bcast_S16x16_S16x1x16x1_0_2 (U23 m c (Proc.devRef .tc main_v196))))
            (broadcastInDim S16x8x16x8 ![0, 1, 2, 3] bcast_S1x8x1x8_S16x8x16x8_0_1_2_3
              (broadcastInDim S1x8x1x8 ![1, 3] bcast_S8x8_S1x8x1x8_1_3 (U23 m c (Proc.devRef .tc main_v187)))))
          shapeCasts_S16x8x16x8_S128x128 := by
  show StableHlo.after hostOps0_23 (U23 m c) (Proc.devRef .tc main_v197) = _
  simp only [hostOps0_23]
  after_results
  rfl

/-- The bias row the region finds, from the padded bias. -/
theorem bias_eq (c : Dev nD) :
    (U25 m c (Proc.devRef .tc main_v201) : S1x128.Idx → EReal)
      = shapeCast S1x128 (shapeCast S128 (broadcastInDim S16x8 ![0, 1] bcast_S1x8_S16x8_0_1
          (shapeCast S1x8 (U24 m c (Proc.devRef .tc main_v190)) shapeCasts_S8_S1x8)) shapeCasts_S16x8_S128)
          shapeCasts_S128_S1x128 := by
  show StableHlo.after hostOps0_24 (U24 m c) (Proc.devRef .tc main_v201) = _
  simp only [hostOps0_24]
  after_results
  rfl

/-- No later stretch writes the weight. -/
theorem V_w (c : Dev nD) : V m c main_v197 = U24 m c (Proc.devRef .tc main_v197) :=
  (congrFun (V0_eq m c) _).trans ((skip24 m c main_v197 (by decide)))

/-- No later stretch writes the bias row. -/
theorem V_B (c : Dev nD) : V m c main_v201 = U25 m c (Proc.devRef .tc main_v201) :=
  (congrFun (V0_eq m c) _)

/-- The weight the region finds is the identity ⊗ the padded transposed weight. -/
theorem isKron (c : Dev nD) :
    IsKron (mat (V m c main_v197)) (pad2 (fun a b => (m ((c : Thread nD τ).loc main_arg23)) (ix2 a b))) := by
  intro a b cc d
  show V m c main_v197 (ix2 (lane a b) (lane cc d)) = _
  rw [V_w m c, weight_eq m c, kron_apply, eye_eq m c, eye_apply, padW_eq m c, padW_D]

/-- The bias row the region finds is the padded bias tiled. -/
theorem isTile (c : Dev nD) :
    IsTile (vec (V m c main_v201)) (pad1 (fun a => (m ((c : Thread nD τ).loc main_arg24)) (ix1 a))) := by
  intro cc d
  show V m c main_v201 (ix2 (0 : Fin 1) (lane cc d)) = _
  rw [V_B m c, bias_eq m c, tile_apply, skip23 m c main_v190 (by decide), padb_eq m c, padb_D]

end Cert.KernelIdeal.HostLayer12

end
-- ==== Proof.Bridge.lean ====
/-
  The kernel program's result at one original row. Row `n` of `x` sits in packed row `n / 16`, lane group
  `n % 16`. Every packed layer's weight is the identity ⊗ a zero-padded 8 × 8 block and its bias a tiled padded
  bias, so the chain of packed layers acts on that group of eight lanes by the eight-lane padded perceptron, whose
  lane 0 is the perceptron's output; the host then regroups and keeps exactly that lane.
-/
import proofs.«141723_j17222818857346_2_alg».proof.Proof.KernelRun
import proofs.«141723_j17222818857346_2_alg».proof.Proof.HostX
import proofs.«141723_j17222818857346_2_alg».proof.Proof.MlpParams
import proofs.«141723_j17222818857346_2_alg».proof.Proof.HostLayer1
import proofs.«141723_j17222818857346_2_alg».proof.Proof.HostLayer2
import proofs.«141723_j17222818857346_2_alg».proof.Proof.HostLayer3
import proofs.«141723_j17222818857346_2_alg».proof.Proof.HostLayer4
import proofs.«141723_j17222818857346_2_alg».proof.Proof.HostLayer5
import proofs.«141723_j17222818857346_2_alg».proof.Proof.HostLayer6
import proofs.«141723_j17222818857346_2_alg».proof.Proof.HostLayer7
import proofs.«141723_j17222818857346_2_alg».proof.Proof.HostLayer8
import proofs.«141723_j17222818857346_2_alg».proof.Proof.HostLayer9
import proofs.«141723_j17222818857346_2_alg».proof.Proof.HostLayer10
import proofs.«141723_j17222818857346_2_alg».proof.Proof.HostLayer11
import proofs.«141723_j17222818857346_2_alg».proof.Proof.HostLayer12

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Body Cert.KernelIdeal.KernelValue Cert.KernelIdeal.KernelRun
open Cert.HostRead Cert.Mlp

variable (m : (ℓ : Loc nD τ sig) → Buf (Elt Ideal) ℓ)

/-- Packed row `r` of the result is the chain of packed row `r` of the input. -/
theorem result_row (c : Dev nD) (r : Fin 262144) :
    (fun l => result m c (ix2 r l))
      = chain (linT (mat (V m c (Pipeline.arrRef spec0 1))) (vec (V m c (Pipeline.arrRef spec0 2)))) (linT (mat (V m c (Pipeline.arrRef spec0 3))) (vec (V m c (Pipeline.arrRef spec0 4)))) (linT (mat (V m c (Pipeline.arrRef spec0 5))) (vec (V m c (Pipeline.arrRef spec0 6)))) (linT (mat (V m c (Pipeline.arrRef spec0 7))) (vec (V m c (Pipeline.arrRef spec0 8)))) (linT (mat (V m c (Pipeline.arrRef spec0 9))) (vec (V m c (Pipeline.arrRef spec0 10)))) (linT (mat (V m c (Pipeline.arrRef spec0 11))) (vec (V m c (Pipeline.arrRef spec0 12)))) (linT (mat (V m c (Pipeline.arrRef spec0 13))) (vec (V m c (Pipeline.arrRef spec0 14)))) (linT (mat (V m c (Pipeline.arrRef spec0 15))) (vec (V m c (Pipeline.arrRef spec0 16)))) (linT (mat (V m c (Pipeline.arrRef spec0 17))) (vec (V m c (Pipeline.arrRef spec0 18)))) (linT (mat (V m c (Pipeline.arrRef spec0 19))) (vec (V m c (Pipeline.arrRef spec0 20)))) (linT (mat (V m c (Pipeline.arrRef spec0 21))) (vec (V m c (Pipeline.arrRef spec0 22)))) (linT (mat (V m c (Pipeline.arrRef spec0 23))) (vec (V m c (Pipeline.arrRef spec0 24)))) th vadd (fun k => V m c (Pipeline.arrRef spec0 0) (ix2 r k)) := rfl

/-- Packed layer 1 acts on a group of eight lanes by its padded block and bias. -/
theorem layer_grp_1 (c : Dev nD) (g : Fin 16) (v : Fin 128 → EReal) :
    grp (linT (mat (V m c (Pipeline.arrRef spec0 1))) (vec (V m c (Pipeline.arrRef spec0 2))) v) g
      = linT (pad2 (fun a b => (m ((c : Thread nD τ).loc main_arg1)) (ix2 a b))) (pad1 (fun a => (m ((c : Thread nD τ).loc main_arg2)) (ix1 a))) (grp v g) :=
  linT_grp (HostLayer1.isKron m c) (HostLayer1.isTile m c) v g

/-- Packed layer 2 acts on a group of eight lanes by its padded block and bias. -/
theorem layer_grp_2 (c : Dev nD) (g : Fin 16) (v : Fin 128 → EReal) :
    grp (linT (mat (V m c (Pipeline.arrRef spec0 3))) (vec (V m c (Pipeline.arrRef spec0 4))) v) g
      = linT (pad2 (fun a b => (m ((c : Thread nD τ).loc main_arg3)) (ix2 a b))) (pad1 (fun a => (m ((c : Thread nD τ).loc main_arg4)) (ix1 a))) (grp v g) :=
  linT_grp (HostLayer2.isKron m c) (HostLayer2.isTile m c) v g

/-- Packed layer 3 acts on a group of eight lanes by its padded block and bias. -/
theorem layer_grp_3 (c : Dev nD) (g : Fin 16) (v : Fin 128 → EReal) :
    grp (linT (mat (V m c (Pipeline.arrRef spec0 5))) (vec (V m c (Pipeline.arrRef spec0 6))) v) g
      = linT (pad2 (fun a b => (m ((c : Thread nD τ).loc main_arg5)) (ix2 a b))) (pad1 (fun a => (m ((c : Thread nD τ).loc main_arg6)) (ix1 a))) (grp v g) :=
  linT_grp (HostLayer3.isKron m c) (HostLayer3.isTile m c) v g

/-- Packed layer 4 acts on a group of eight lanes by its padded block and bias. -/
theorem layer_grp_4 (c : Dev nD) (g : Fin 16) (v : Fin 128 → EReal) :
    grp (linT (mat (V m c (Pipeline.arrRef spec0 7))) (vec (V m c (Pipeline.arrRef spec0 8))) v) g
      = linT (pad2 (fun a b => (m ((c : Thread nD τ).loc main_arg7)) (ix2 a b))) (pad1 (fun a => (m ((c : Thread nD τ).loc main_arg8)) (ix1 a))) (grp v g) :=
  linT_grp (HostLayer4.isKron m c) (HostLayer4.isTile m c) v g

/-- Packed layer 5 acts on a group of eight lanes by its padded block and bias. -/
theorem layer_grp_5 (c : Dev nD) (g : Fin 16) (v : Fin 128 → EReal) :
    grp (linT (mat (V m c (Pipeline.arrRef spec0 9))) (vec (V m c (Pipeline.arrRef spec0 10))) v) g
      = linT (pad2 (fun a b => (m ((c : Thread nD τ).loc main_arg9)) (ix2 a b))) (pad1 (fun a => (m ((c : Thread nD τ).loc main_arg10)) (ix1 a))) (grp v g) :=
  linT_grp (HostLayer5.isKron m c) (HostLayer5.isTile m c) v g

/-- Packed layer 6 acts on a group of eight lanes by its padded block and bias. -/
theorem layer_grp_6 (c : Dev nD) (g : Fin 16) (v : Fin 128 → EReal) :
    grp (linT (mat (V m c (Pipeline.arrRef spec0 11))) (vec (V m c (Pipeline.arrRef spec0 12))) v) g
      = linT (pad2 (fun a b => (m ((c : Thread nD τ).loc main_arg11)) (ix2 a b))) (pad1 (fun a => (m ((c : Thread nD τ).loc main_arg12)) (ix1 a))) (grp v g) :=
  linT_grp (HostLayer6.isKron m c) (HostLayer6.isTile m c) v g

/-- Packed layer 7 acts on a group of eight lanes by its padded block and bias. -/
theorem layer_grp_7 (c : Dev nD) (g : Fin 16) (v : Fin 128 → EReal) :
    grp (linT (mat (V m c (Pipeline.arrRef spec0 13))) (vec (V m c (Pipeline.arrRef spec0 14))) v) g
      = linT (pad2 (fun a b => (m ((c : Thread nD τ).loc main_arg13)) (ix2 a b))) (pad1 (fun a => (m ((c : Thread nD τ).loc main_arg14)) (ix1 a))) (grp v g) :=
  linT_grp (HostLayer7.isKron m c) (HostLayer7.isTile m c) v g

/-- Packed layer 8 acts on a group of eight lanes by its padded block and bias. -/
theorem layer_grp_8 (c : Dev nD) (g : Fin 16) (v : Fin 128 → EReal) :
    grp (linT (mat (V m c (Pipeline.arrRef spec0 15))) (vec (V m c (Pipeline.arrRef spec0 16))) v) g
      = linT (pad2 (fun a b => (m ((c : Thread nD τ).loc main_arg15)) (ix2 a b))) (pad1 (fun a => (m ((c : Thread nD τ).loc main_arg16)) (ix1 a))) (grp v g) :=
  linT_grp (HostLayer8.isKron m c) (HostLayer8.isTile m c) v g

/-- Packed layer 9 acts on a group of eight lanes by its padded block and bias. -/
theorem layer_grp_9 (c : Dev nD) (g : Fin 16) (v : Fin 128 → EReal) :
    grp (linT (mat (V m c (Pipeline.arrRef spec0 17))) (vec (V m c (Pipeline.arrRef spec0 18))) v) g
      = linT (pad2 (fun a b => (m ((c : Thread nD τ).loc main_arg17)) (ix2 a b))) (pad1 (fun a => (m ((c : Thread nD τ).loc main_arg18)) (ix1 a))) (grp v g) :=
  linT_grp (HostLayer9.isKron m c) (HostLayer9.isTile m c) v g

/-- Packed layer 10 acts on a group of eight lanes by its padded block and bias. -/
theorem layer_grp_10 (c : Dev nD) (g : Fin 16) (v : Fin 128 → EReal) :
    grp (linT (mat (V m c (Pipeline.arrRef spec0 19))) (vec (V m c (Pipeline.arrRef spec0 20))) v) g
      = linT (pad2 (fun a b => (m ((c : Thread nD τ).loc main_arg19)) (ix2 a b))) (pad1 (fun a => (m ((c : Thread nD τ).loc main_arg20)) (ix1 a))) (grp v g) :=
  linT_grp (HostLayer10.isKron m c) (HostLayer10.isTile m c) v g

/-- Packed layer 11 acts on a group of eight lanes by its padded block and bias. -/
theorem layer_grp_11 (c : Dev nD) (g : Fin 16) (v : Fin 128 → EReal) :
    grp (linT (mat (V m c (Pipeline.arrRef spec0 21))) (vec (V m c (Pipeline.arrRef spec0 22))) v) g
      = linT (pad2 (fun a b => (m ((c : Thread nD τ).loc main_arg21)) (ix2 a b))) (pad1 (fun a => (m ((c : Thread nD τ).loc main_arg22)) (ix1 a))) (grp v g) :=
  linT_grp (HostLayer11.isKron m c) (HostLayer11.isTile m c) v g

/-- Packed layer 12 acts on a group of eight lanes by its padded block and bias. -/
theorem layer_grp_12 (c : Dev nD) (g : Fin 16) (v : Fin 128 → EReal) :
    grp (linT (mat (V m c (Pipeline.arrRef spec0 23))) (vec (V m c (Pipeline.arrRef spec0 24))) v) g
      = linT (pad2 (fun a b => (m ((c : Thread nD τ).loc main_arg23)) (ix2 a b))) (pad1 (fun a => (m ((c : Thread nD τ).loc main_arg24)) (ix1 a))) (grp v g) :=
  linT_grp (HostLayer12.isKron m c) (HostLayer12.isTile m c) v g

set_option maxHeartbeats 4000000 in
/-- Group `g` of the chain of a packed row is the padded perceptron of group `g` of that row. -/
theorem chain_grp (c : Dev nD) (r : Fin 262144) (g : Fin 16) :
    grp (chain (linT (mat (V m c (Pipeline.arrRef spec0 1))) (vec (V m c (Pipeline.arrRef spec0 2)))) (linT (mat (V m c (Pipeline.arrRef spec0 3))) (vec (V m c (Pipeline.arrRef spec0 4)))) (linT (mat (V m c (Pipeline.arrRef spec0 5))) (vec (V m c (Pipeline.arrRef spec0 6)))) (linT (mat (V m c (Pipeline.arrRef spec0 7))) (vec (V m c (Pipeline.arrRef spec0 8)))) (linT (mat (V m c (Pipeline.arrRef spec0 9))) (vec (V m c (Pipeline.arrRef spec0 10)))) (linT (mat (V m c (Pipeline.arrRef spec0 11))) (vec (V m c (Pipeline.arrRef spec0 12)))) (linT (mat (V m c (Pipeline.arrRef spec0 13))) (vec (V m c (Pipeline.arrRef spec0 14)))) (linT (mat (V m c (Pipeline.arrRef spec0 15))) (vec (V m c (Pipeline.arrRef spec0 16)))) (linT (mat (V m c (Pipeline.arrRef spec0 17))) (vec (V m c (Pipeline.arrRef spec0 18)))) (linT (mat (V m c (Pipeline.arrRef spec0 19))) (vec (V m c (Pipeline.arrRef spec0 20)))) (linT (mat (V m c (Pipeline.arrRef spec0 21))) (vec (V m c (Pipeline.arrRef spec0 22)))) (linT (mat (V m c (Pipeline.arrRef spec0 23))) (vec (V m c (Pipeline.arrRef spec0 24)))) th vadd (fun k => V m c (Pipeline.arrRef spec0 0) (ix2 r k))) g
      = mlp8 (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) (grp (fun k => V m c (Pipeline.arrRef spec0 0) (ix2 r k)) g) :=
  chain_map (fun v => grp v g)
      (h1 := fun v => layer_grp_1 m c g v) (h2 := fun v => layer_grp_2 m c g v) (h3 := fun v => layer_grp_3 m c g v) (h4 := fun v => layer_grp_4 m c g v) (h5 := fun v => layer_grp_5 m c g v) (h6 := fun v => layer_grp_6 m c g v) (h7 := fun v => layer_grp_7 m c g v) (h8 := fun v => layer_grp_8 m c g v) (h9 := fun v => layer_grp_9 m c g v) (h10 := fun v => layer_grp_10 m c g v) (h11 := fun v => layer_grp_11 m c g v) (h12 := fun v => layer_grp_12 m c g v)
      (hT := fun v => grp_th v g) (hA := fun v w => grp_vadd v w g) (fun k => V m c (Pipeline.arrRef spec0 0) (ix2 r k))

/-- Group `g` of packed row `r` of the result is the padded perceptron of group `g` of packed row `r` of the input. -/
theorem result_grp (c : Dev nD) (r : Fin 262144) (g : Fin 16) :
    grp (fun l => result m c (ix2 r l)) g
      = mlp8 (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) (grp (fun k => V m c (Pipeline.arrRef spec0 0) (ix2 r k)) g) := by
  rw [result_row m c r]
  exact chain_grp m c r g

/-- Group `g` of packed row `r` of the input is row `16 r + g` of `x`. -/
theorem x_grp (c : Dev nD) (r : Fin 262144) (g : Fin 16) :
    grp (fun k => V m c (Pipeline.arrRef spec0 0) (ix2 r k)) g
      = fun b => (m ((c : Thread nD τ).loc main_arg0)) (ix2 (⟨16 * r.val + g.val, by omega⟩ : Fin 4194304) b) :=
  funext fun b => HostX.x_apply m c r g b

/-- The kernel program's result at row `n` is the perceptron of row `n` of `x`. -/
theorem out_apply (c : Dev nD) (n : Fin 4194304) (u : Fin 1) :
    outOf m c (ix2 n u)
      = mlp (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) (fun b => (m ((c : Thread nD τ).loc main_arg0)) (ix2 n b)) 0 := by
  unfold outOf
  rw [unpack_col0_apply]
  have hg := congrFun (result_grp m c ⟨n.val / 16, by omega⟩ ⟨n.val % 16, Nat.mod_lt _ (by decide)⟩) (0 : Fin 8)
  refine hg.trans ?_
  rw [x_grp, mlp8_zero]
  have hn : (⟨16 * (n.val / 16) + n.val % 16, by omega⟩ : Fin 4194304) = n := Fin.ext (by show 16 * (n.val / 16) + n.val % 16 = n.val; omega)
  rw [hn]

end Cert.KernelIdeal.Bridge

end
-- ==== Proof.lean ====
/-
  A twelve-layer perceptron on 4194304 rows of eight features, computed two ways.

  The reference applies the layers to the [4194304, 8] array at their true widths 8 → 8 (nine times) → 5 → 3 → 1:
  `y = x · Wᵀ + b`, `tanh` after every layer but the last, the outputs of layers 2, 5, 7 added before the `tanh` of
  layers 5, 7, 9. The kernel program regroups sixteen rows into one 128-lane row, pads every weight to 8 × 8 and
  every bias to 8 with zeros, takes the Kronecker product of the 16 × 16 identity with each padded block as a
  [128, 128] weight and the padded bias tiled sixteen times as a [1, 128] bias row, runs the twelve layers on
  [4096, 128] blocks, regroups the result back and keeps column 0.

  At the ideal values both are the same function of the arguments, row by row. A sum over 128 lanes against the
  Kronecker weight keeps only the eight lanes of the entry's own group, because `x · 0 = 0` for every extended real,
  so each group of eight lanes goes through the padded eight-lane perceptron by itself; a padded lane only ever meets
  a zero weight in the next layer, so lane 0 of the padded perceptron is the perceptron's one output. Changes of
  float format are the identity and the order of a sum does not matter, so no argument needs to be finite.

  The three frames are the generated ones (the reference's from its generated run); the ideal pass recorded no
  rewrite, so the idealization claim is trivial.
-/
import proofs.«141723_j17222818857346_2_alg».proof.Defs
import proofs.«141723_j17222818857346_2_alg».proof.Proof.Gen.Kernel
import proofs.«141723_j17222818857346_2_alg».proof.Proof.Gen.Kernel.Skeleton
import proofs.«141723_j17222818857346_2_alg».proof.Proof.Gen.Kernel.Launch
import proofs.«141723_j17222818857346_2_alg».proof.Proof.Gen.Kernel.Points
import proofs.«141723_j17222818857346_2_alg».proof.Proof.Gen.Kernel.Frame
import proofs.«141723_j17222818857346_2_alg».proof.Proof.Gen.KernelIdeal
import proofs.«141723_j17222818857346_2_alg».proof.Proof.Gen.KernelIdeal.Skeleton
import proofs.«141723_j17222818857346_2_alg».proof.Proof.Gen.KernelIdeal.Launch
import proofs.«141723_j17222818857346_2_alg».proof.Proof.Gen.KernelIdeal.Points
import proofs.«141723_j17222818857346_2_alg».proof.Proof.Gen.KernelIdeal.Frame
import proofs.«141723_j17222818857346_2_alg».proof.Proof.Gen.ReferenceIdeal
import proofs.«141723_j17222818857346_2_alg».proof.Proof.Gen.Pre_finite_inputs
import proofs.«141723_j17222818857346_2_alg».proof.Proof.Gen.ReferenceIdeal.Run
import proofs.«141723_j17222818857346_2_alg».proof.Proof.Gen.ReferenceIdeal.Read
import proofs.«141723_j17222818857346_2_alg».proof.Proof.RefValue
import proofs.«141723_j17222818857346_2_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with row `n` of the result at the perceptron of row `n` of `x`. -/
theorem algebraic : Cert.algebraic_KernelIdeal_ReferenceIdeal := by
  intro m ρ m' ρ' _ hagree
  refine ⟨fun c => Cert.KernelIdeal.KernelRun.outOf m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨n, u, rfl⟩ : ∃ (n : Fin 4194304) (u : Fin 1), i = ix2 n u := ⟨i 0, i 1, eq_ix2 i⟩
  obtain rfl : u = 0 := Subsingleton.elim u 0
  refine (congrFun (Cert.ReferenceIdeal.RefValue.res_row m' c n) 0).trans ?_
  refine Eq.trans ?_ (Cert.KernelIdeal.Bridge.out_apply m c n 0).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
